-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S8192x2 : Shape := ⟨2, ![8192, 2]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S8192x2 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S8192x2 : Shape := ⟨2, ![8192, 2]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S8192x1 : Shape := ⟨2, ![8192, 1]⟩
abbrev S8192 : Shape := ⟨1, ![8192]⟩
abbrev S8192x128 : Shape := ⟨2, ![8192, 128]⟩
abbrev S1x1 : Shape := ⟨2, ![1, 1]⟩
abbrev S2048x128 : Shape := ⟨2, ![2048, 128]⟩
abbrev S2048x1 : Shape := ⟨2, ![2048, 1]⟩

abbrev nBuf : Space → Nat
  | .hbm => 113
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S8192x2, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .bf16⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .bf16⟩
  | .hbm, ⟨48, _⟩ => ⟨S1700000x128, .f32⟩
  | .hbm, ⟨49, _⟩ => ⟨S_, .f32⟩
  | .hbm, ⟨50, _⟩ => ⟨S100000x128, .f32⟩
  | .hbm, ⟨51, _⟩ => ⟨S1700000x1, .i32⟩
  | .hbm, ⟨52, _⟩ => ⟨S100000x128, .f32⟩
  | .hbm, ⟨53, _⟩ => ⟨S1x128, .f32⟩
  | .hbm, ⟨54, _⟩ => ⟨S100000x128, .bf16⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .bf16⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .bf16⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .bf16⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S8192x1, .i32⟩
  | .hbm, ⟨88, _⟩ => ⟨S8192, .i32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S_, .i32⟩
  | .hbm, ⟨93, _⟩ => ⟨S8192, .i32⟩
  | .hbm, ⟨94, _⟩ => ⟨S8192, .i32⟩
  | .hbm, ⟨95, _⟩ => ⟨S8192, .i32⟩
  | .hbm, ⟨96, _⟩ => ⟨S8192x1, .i32⟩
  | .hbm, ⟨97, _⟩ => ⟨S8192x128, .f32⟩
  | .hbm, ⟨98, _⟩ => ⟨S8192x1, .i32⟩
  | .hbm, ⟨99, _⟩ => ⟨S8192, .i32⟩
  | .hbm, ⟨100, _⟩ => ⟨S_, .i32⟩
  | .hbm, ⟨101, _⟩ => ⟨S8192, .i32⟩
  | .hbm, ⟨102, _⟩ => ⟨S8192, .i1⟩
  | .hbm, ⟨103, _⟩ => ⟨S_, .i32⟩
  | .hbm, ⟨104, _⟩ => ⟨S8192, .i32⟩
  | .hbm, ⟨105, _⟩ => ⟨S8192, .i32⟩
  | .hbm, ⟨106, _⟩ => ⟨S8192, .i32⟩
  | .hbm, ⟨107, _⟩ => ⟨S8192x1, .i32⟩
  | .hbm, ⟨108, _⟩ => ⟨S8192x128, .f32⟩
  | .hbm, ⟨109, _⟩ => ⟨S1x128, .f32⟩
  | .hbm, ⟨110, _⟩ => ⟨S1x1, .f32⟩
  | .hbm, ⟨111, _⟩ => ⟨S8192x1, .f32⟩
  | .hbm, ⟨112, _⟩ => ⟨S8192, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S1x128, .f32⟩
  | .local _ .vmem, ⟨20, _⟩ => ⟨S128x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S128x128, .f32⟩
  | .local _ .vmem, ⟨35, _⟩ => ⟨S1x128, .f32⟩
  | .local _ .vmem, ⟨36, _⟩ => ⟨S128x1, .f32⟩
  | .local _ .vmem, ⟨37, _⟩ => ⟨S1x1, .f32⟩
  | .local _ .vmem, ⟨38, _⟩ => ⟨S2048x1, .f32⟩
  | .local _ .vmem, ⟨39, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2048x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S8192x1_S8192x128_1_0_n_n_0_1_1128_wf : GatherDims.WF S100000x128 S8192x1 S8192x128 [1] [0] [] [0] [] 1 ![1, 128]
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .bf16 = 32 ∨ (Rect.block (s := S100000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S8192x128.size a
  hwx4_0 : ∀ i : grid4.Coords, EltTy.bits .f32 = 32 ∨ (Rect.block (s := S8192x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S8192x128.size a
  hwx4_1 : ∀ i : grid4.Coords, EltTy.bits .f32 = 32 ∨ (Rect.block (s := S8192x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x1.size a ≤ S128x1.size a
  hwx4_4 : ∀ i : grid4.Coords, EltTy.bits .f32 = 32 ∨ (Rect.block (s := S128x1) S128x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x1.size a ≤ S8192x1.size a
  hwx4_6 : ∀ i : grid4.Coords, EltTy.bits .f32 = 32 ∨ (Rect.block (s := S8192x1) S2048x1.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S128x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78) S2048x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S8192x2 : Shape := ⟨2, ![8192, 2]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S8192x1 : Shape := ⟨2, ![8192, 1]⟩
abbrev S8192 : Shape := ⟨1, ![8192]⟩
abbrev S8192x128 : Shape := ⟨2, ![8192, 128]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S8192x2, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .f32⟩
  | 122 => ⟨S8192x1, .i32⟩
  | 123 => ⟨S8192, .i32⟩
  | 124 => ⟨S_, .i32⟩
  | 125 => ⟨S8192, .i32⟩
  | 126 => ⟨S8192, .i1⟩
  | 127 => ⟨S_, .i32⟩
  | _ => ⟨S100000x128, .f32⟩

abbrev hbmTy0_1 (i : Nat) : BufTy := match i % 128 with
  | 0 => ⟨S8192, .i32⟩
  | 1 => ⟨S8192, .i32⟩
  | 2 => ⟨S8192, .i32⟩
  | 3 => ⟨S8192x1, .i32⟩
  | 4 => ⟨S8192x128, .f32⟩
  | 5 => ⟨S8192x1, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x128, .f32⟩
  | 16 => ⟨S8192x128, .f32⟩
  | 17 => ⟨S8192x128, .f32⟩
  | 18 => ⟨S1x128, .f32⟩
  | 19 => ⟨S8192x128, .f32⟩
  | 20 => ⟨S8192x128, .f32⟩
  | 21 => ⟨S_, .f32⟩
  | 22 => ⟨S8192x128, .f32⟩
  | 23 => ⟨S8192x128, .f32⟩
  | 24 => ⟨S8192x1, .f32⟩
  | 25 => ⟨S1x1, .f32⟩
  | 26 => ⟨S8192x1, .f32⟩
  | 27 => ⟨S8192x1, .f32⟩
  | 28 => ⟨S8192, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_18 : Ref sig .tc := ⟨.hbm, 135, rfl⟩
abbrev main_v96 : Ref sig .tc := ⟨.hbm, 136, rfl⟩
abbrev main_v97 : Ref sig .tc := ⟨.hbm, 137, rfl⟩
abbrev main_c_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call3_cst : Ref sig .tc := ⟨.hbm, 149, rfl⟩
abbrev main_call3_v0 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S8192x1_S8192x128_1_0_n_n_0_1_1128_wf : GatherDims.WF S100000x128 S8192x1 S8192x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S8192x1_S8192x128_1_0_n_n_0_1_1128 : GatherDims S100000x128 S8192x1 S8192x128 where
  offsetDims := [1]
  collapsedSliceDims := [0]
  operandBatchingDims := []
  startIndicesBatchingDims := []
  startIndexMap := [0]
  indexVectorDim := 1
  sliceSizes := ![1, 128]
  wf := gather_S100000x128_S8192x1_S8192x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.KernelRun.lean ====
/-
  The idealized kernel's run with its result read: the same launch over the same thirteen segments as the generated frame,
  whose last thread state holds every unscoped buffer at the last boundary's contents; here the result buffer is read off
  that state beside the arguments. Stated at any float instance.
-/
import proofs.«129134_j22308060135895_2_alg».proof.Proof.Gen.KernelIdeal.Frame

-- membership in a rectangle of production extents (`View.cover_of_tiled`): the elaborator's structural look
-- recurses once per coordinate of the long axes
set_option maxRecDepth 16384

noncomputable section

namespace Cert.KernelIdeal.RunV

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.RunV

end
-- ==== Proof.LibScatterSet.lean ====
/-
  A scatter whose body returns the update, read at one index.

  The scatter runs through its updates in order; update j either lands at an operand index (its start, read signed
  off the index array, plus its window coordinate, when that is inside the operand on every axis) and replaces the
  entry there, or is dropped.  Read at one index i' the result is therefore decided by the updates that land at i':
  if none does, the entry is the operand's; if exactly one does, the entry is that update.  (With several the last
  one in the order would win; that case is not needed here.)  An update lands at i' exactly when start plus window
  coordinate equals i''s coordinate on every axis.

  For the dimension numbers of a point-wise write into a matrix — no window axes, both operand axes inserted, the
  index array [N, 2] holding one (row, column) pair per update, updates [N] — update n has start
  (idx(n, 0), idx(n, 1)) read signed and no window offset, so it lands at (a, b) exactly when idx(n, 0) = a and
  idx(n, 1) = b as integers.  Nothing here depends on a program.
-/
import Idealize.ShloMosaic.PureOps
import Idealize.ShloMosaic.Lib.ValueIdx

namespace Cert.ScatterSet

open Idealize.ShloMosaic Idealize.ShloMosaic.ValueIdx

section Fold

variable {ι β γ : Type}

/-- A left fold of steps that each either overwrite the entry at `i'` (when `P n`) or leave it: when no step of the
    list overwrites it, the entry is the initial one. -/
theorem foldl_apply_of_none (step : (γ → β) → ι → (γ → β)) (P : ι → Prop) (i' : γ)
    (hneg : ∀ r n, ¬ P n → step r n i' = r i') :
    ∀ (l : List ι) (x : γ → β), (∀ n ∈ l, ¬ P n) → l.foldl step x i' = x i'
  | [], _, _ => rfl
  | a :: l, x, h => by
    rw [List.foldl_cons, foldl_apply_of_none step P i' hneg l (step x a) fun n hn => h n (List.mem_cons_of_mem _ hn),
      hneg _ _ (h a (List.mem_cons.2 (Or.inl rfl)))]

/-- When exactly one member `n0` of the list overwrites the entry at `i'`, the entry ends as what `n0` wrote. -/
theorem foldl_apply_of_unique (step : (γ → β) → ι → (γ → β)) (P : ι → Prop) (v : ι → β) (i' : γ)
    (hpos : ∀ r n, P n → step r n i' = v n) (hneg : ∀ r n, ¬ P n → step r n i' = r i') (n0 : ι) (hP : P n0) :
    ∀ (l : List ι) (x : γ → β), n0 ∈ l → (∀ n ∈ l, P n → n = n0) → l.foldl step x i' = v n0
  | [], _, h, _ => nomatch h
  | a :: l, x, hmem, huniq => by
    rw [List.foldl_cons]
    by_cases hl : n0 ∈ l
    · exact foldl_apply_of_unique step P v i' hpos hneg n0 hP l (step x a) hl fun n hn => huniq n (List.mem_cons_of_mem _ hn)
    · have ha : a = n0 := by
        rcases List.mem_cons.1 hmem with h | h
        · exact h.symm
        · exact absurd h hl
      rw [foldl_apply_of_none step P i' hneg l (step x a)
        (fun n hn hp => hl (huniq n (List.mem_cons_of_mem _ hn) hp ▸ hn)), ha, hpos _ _ hP]

end Fold

section Scatter

variable {α : Type} {w : Nat} {s si u : Shape}

/-- One step of the scatter whose body returns the update, read at the index the update lands at. -/
theorem step_hit (d : ScatterDims s si u) (idx : IVec si w) (upd : u.Idx → α) (r : s.Idx → α) (n : Fin u.numel)
    (i' : s.Idx) (h : d.resultIdx? (u.rowMajor.symm n) idx = some i') :
    (match d.resultIdx? (u.rowMajor.symm n) idx with
      | some i => fun i' => if i' = i then (fun (_ : α) b => b) (r i) (upd (u.rowMajor.symm n)) else r i'
      | none => r) i' = upd (u.rowMajor.symm n) := by
  rw [h]; simp

/-- One step of the scatter, read at an index the update does not land at. -/
theorem step_miss (d : ScatterDims s si u) (idx : IVec si w) (upd : u.Idx → α) (r : s.Idx → α) (n : Fin u.numel)
    (i' : s.Idx) (h : ¬ d.resultIdx? (u.rowMajor.symm n) idx = some i') :
    (match d.resultIdx? (u.rowMajor.symm n) idx with
      | some i => fun i' => if i' = i then (fun (_ : α) b => b) (r i) (upd (u.rowMajor.symm n)) else r i'
      | none => r) i' = r i' := by
  cases hres : d.resultIdx? (u.rowMajor.symm n) idx with
  | none => rfl
  | some i =>
    have hi : ¬ i' = i := fun e => h (by rw [hres, e])
    simp [hi]

/-- No update lands at `i'`: the scatter leaves the operand's entry. -/
theorem scatter_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact foldl_apply_of_none _ (fun n => d.resultIdx? (u.rowMajor.symm n) idx = some i') i'
    (fun r n => step_miss d idx upd r n i') _ x (fun n _ => h _)

/-- Exactly one update `j0` lands at `i'`: the scatter's entry there is that update. -/
theorem scatter_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  unfold Host.scatter
  refine (foldl_apply_of_unique _ (fun n => d.resultIdx? (u.rowMajor.symm n) idx = some i')
    (fun n => upd (u.rowMajor.symm n)) i' (fun r n => step_hit d idx upd r n i') (fun r n => step_miss d idx upd r n i')
    (u.rowMajor j0) ?_ (List.finRange u.numel) x (List.mem_finRange _) ?_).trans
    (congrArg upd (Equiv.symm_apply_apply _ _))
  · show d.resultIdx? (u.rowMajor.symm (u.rowMajor j0)) idx = some i'
    rw [Equiv.symm_apply_apply]; exact h0
  · intro n _ hn
    have := huniq _ hn
    rw [← this, Equiv.apply_symm_apply]

end Scatter

section ResultIdx

variable {w : Nat} {s si u : Shape}

/-- An update lands at `i'` exactly when, on every axis, its start plus its window coordinate is `i'`'s coordinate. -/
theorem resultIdx?_eq_some_iff_forall (d : ScatterDims s si u) (j : u.Idx) (idx : IVec si w) (i' : s.Idx) :
    d.resultIdx? j idx = some i' ↔ ∀ a, d.start j idx a + d.window j a = ((i' a).val : Int) := by
  unfold ScatterDims.resultIdx?
  constructor
  · intro h a
    split at h
    · rename_i hin
      have h1 := congrArg Fin.val (congrFun (Option.some.inj h) a)
      have h2 := (hin a).1
      simp only at h1
      omega
    · exact absurd h (by simp)
  · intro h
    have hin : ∀ a, 0 ≤ d.start j idx a + d.window j a ∧ d.start j idx a + d.window j a < s.size a := fun a => by
      have := (i' a).isLt
      rw [h a]; omega
    rw [dif_pos hin]
    congr 1
    funext a
    apply Fin.ext
    show (d.start j idx a + d.window j a).toNat = (i' a).val
    rw [h a]; simp

end ResultIdx

section Pairs

variable {w R Cn N : Nat}

/-- Update n reads component c of its start at (n, c) of the index array. -/
theorem siIdx_eq (wf) (j : (⟨1, ![N]⟩ : Shape).Idx) (c : Fin 2) :
    ScatterDims.siIdx (s := ⟨2, ![R, Cn]⟩) (si := ⟨2, ![N, 2]⟩) (u := ⟨1, ![N]⟩) ⟨[], [0, 1], [0, 1], 1, wf⟩ j c = ix2 (j 0) c := by
  funext b
  match b with
  | ⟨0, _⟩ => rfl
  | ⟨1, _⟩ => rfl

/-- Its start on operand axis a is the word at (n, a), read signed. -/
theorem start_eq (wf) (idx : IVec ⟨2, ![N, 2]⟩ w) (j : (⟨1, ![N]⟩ : Shape).Idx) (a : Fin 2) :
    ScatterDims.start (s := ⟨2, ![R, Cn]⟩) (si := ⟨2, ![N, 2]⟩) (u := ⟨1, ![N]⟩) ⟨[], [0, 1], [0, 1], 1, wf⟩ j idx a
      = (idx (ix2 (j 0) a)).toInt := by
  match a with
  | ⟨0, _⟩ =>
    unfold ScatterDims.start
    exact (dif_pos (List.mem_cons.2 (Or.inl rfl))).trans (congrArg (fun k => (idx k).toInt) (siIdx_eq wf j _))
  | ⟨1, _⟩ =>
    unfold ScatterDims.start
    exact (dif_pos (List.mem_cons.2 (Or.inr (List.mem_cons.2 (Or.inl rfl))))).trans
      (congrArg (fun k => (idx k).toInt) (siIdx_eq wf j _))

/-- Both operand axes are inserted: there is no window offset. -/
theorem window_eq (wf) (j : (⟨1, ![N]⟩ : Shape).Idx) (a : Fin 2) :
    ScatterDims.window (s := ⟨2, ![R, Cn]⟩) (si := ⟨2, ![N, 2]⟩) (u := ⟨1, ![N]⟩) ⟨[], [0, 1], [0, 1], 1, wf⟩ j a = 0 := by
  unfold ScatterDims.window
  refine dif_neg ?_
  match a with
  | ⟨0, _⟩ => simp [ScatterDims.sKept, Shape.kept]
  | ⟨1, _⟩ => simp [ScatterDims.sKept, Shape.kept]

/-- Update n lands at (a, b) exactly when its row word is a and its column word is b, as integers. -/
theorem resultIdx?_eq_some_iff (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (j : (⟨1, ![N]⟩ : Shape).Idx)
    (i' : (⟨2, ![R, Cn]⟩ : Shape).Idx) :
    d.resultIdx? j idx = some i' ↔
      (idx (ix2 (j 0) 0)).toInt = ((i' 0).val : Int) ∧ (idx (ix2 (j 0) 1)).toInt = ((i' 1).val : Int) := by
  obtain ⟨uw, iw, sd, iv, wf⟩ := d
  dsimp only at h1 h2 h3 h4
  subst h1 h2 h3 h4
  rw [resultIdx?_eq_some_iff_forall, Fin.forall_fin_two, start_eq, start_eq, window_eq, window_eq]
  simp

end Pairs

section PairsAt

variable {α : Type} {w R Cn N : Nat}

/-- A point-wise write into a matrix, read where exactly one update's (row, column) pair points. -/
theorem scatter_pairs_hit (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx) (n0 : Fin N)
    (hr : (idx (ix2 n0 0)).toInt = ((i' 0).val : Int)) (hc : (idx (ix2 n0 1)).toInt = ((i' 1).val : Int))
    (huniq : ∀ n : Fin N, (idx (ix2 n 0)).toInt = ((i' 0).val : Int) → (idx (ix2 n 1)).toInt = ((i' 1).val : Int) →
      n = n0) :
    Host.scatter d (fun _ b => b) x idx upd i' = upd (ix1 n0) := by
  refine scatter_hit d x idx upd i' (ix1 n0) ((resultIdx?_eq_some_iff d h1 h2 h3 h4 idx (ix1 n0) i').2 ⟨hr, hc⟩) ?_
  intro j hj
  obtain ⟨hjr, hjc⟩ := (resultIdx?_eq_some_iff d h1 h2 h3 h4 idx j i').1 hj
  exact (eq_ix1 j).trans (congrArg (fun k : Fin N => ix1 k) (huniq (j 0) hjr hjc))

/-- A point-wise write into a matrix, read where no update's (row, column) pair points. -/
theorem scatter_pairs_miss (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx)
    (h : ∀ n : Fin N, (idx (ix2 n 0)).toInt = ((i' 0).val : Int) → ¬ (idx (ix2 n 1)).toInt = ((i' 1).val : Int)) :
    Host.scatter d (fun _ b => b) x idx upd i' = x i' := by
  refine scatter_miss d x idx upd i' fun j hj => ?_
  obtain ⟨hjr, hjc⟩ := (resultIdx?_eq_some_iff d h1 h2 h3 h4 idx j i').1 hj
  exact h (j 0) hjr hjc

end PairsAt

end Cert.ScatterSet
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibSegmentSum.lean ====
/-
  A segment sum, read at one index, and its linearity.

  A segment sum takes E updates (edges), each carrying a segment id, and adds every update into the operand entry
  (or row) its id names.  As a scatter whose body adds, over a start-index array of shape [E, 1], update e has its
  start on the operand's first axis at the word (e, 0) of the index array, read signed; an update whose id is
  outside the operand is dropped.  At the ideal (extended-real) values the scatter's entry is the operand's entry
  plus the exact sum of the updates that land on it, so read at one index n (or (n, k)) the result is

      x n + ∑ over the edges e with id(e) = n of upd e        (a vector of E updates into N entries),
      x (n, k) + ∑ over the edges e with id(e) = n of upd (e, k)   (E rows of width C into N rows).

  An update lands on an entry exactly when, on every operand axis, its start plus its window coordinate is the
  entry's coordinate.  For a vector there is no window axis: update e lands at n exactly when id(e) = n.  For rows
  the second axis is a window axis with start 0: update (e, c) lands at (n, k) exactly when id(e) = n and c = k.

  Linearity: over real entries, ∑ₑ ((∑ₖ a(e,k) · w(k)) + c) = (∑ₖ (∑ₑ a(e,k)) · w(k)) + (∑ₑ 1) · c.  A real factor
  moves across a finite sum of real entries; that is not a law of the extended reals in general.  Nothing here
  depends on a program.
-/
import Idealize.ShloMosaic.PureOps
import Idealize.ShloMosaic.PureOps.Ideal
import Idealize.ShloMosaic.Lib.ValueIdx
import Mathlib.Algebra.BigOperators.Fin
import proofs.«129134_j22308060135895_2_alg».proof.Proof.LibScatterSet
import proofs.«129134_j22308060135895_2_alg».proof.Proof.LibRealEntries

noncomputable section
namespace Cert.SegmentSum
open Idealize.ShloMosaic Idealize.ShloMosaic.ValueIdx Cert.RealEntries

/-- The updates (edges) whose segment id — the word at (e, 0) of the start-index array, read signed — is n. -/
def edgesAt {E N w : Nat} (idx : IVec ⟨2, ![E, 1]⟩ w) (n : Fin N) : Finset (Fin E) :=
  Finset.univ.filter fun e => (idx (ix2 e (0 : Fin 1))).toInt = ((n.val : Nat) : Int)

/-- Membership in the edges of segment n: the edge's id, read signed, is n. -/
theorem mem_edgesAt {E N w : Nat} (idx : IVec ⟨2, ![E, 1]⟩ w) (n : Fin N) (e : Fin E) :
    e ∈ edgesAt idx n ↔ (idx (ix2 e (0 : Fin 1))).toInt = ((n.val : Nat) : Int) := by
  unfold edgesAt
  simp

section Vec

variable {w E N : Nat}

/-- Update e reads the one component of its start at (e, 0) of the index array. -/
theorem siIdx_vec (wf) (j : (⟨1, ![E]⟩ : Shape).Idx) (c : Fin 1) :
    ScatterDims.siIdx (s := ⟨1, ![N]⟩) (si := ⟨2, ![E, 1]⟩) (u := ⟨1, ![E]⟩) ⟨[], [0], [0], 1, wf⟩ j c = ix2 (j 0) c := by
  funext b
  match b with
  | ⟨0, _⟩ => rfl
  | ⟨1, _⟩ => rfl

/-- Its start on the operand's one axis is the word at (e, 0), read signed. -/
theorem start_vec (wf) (idx : IVec ⟨2, ![E, 1]⟩ w) (j : (⟨1, ![E]⟩ : Shape).Idx) (a : Fin 1) :
    ScatterDims.start (s := ⟨1, ![N]⟩) (si := ⟨2, ![E, 1]⟩) (u := ⟨1, ![E]⟩) ⟨[], [0], [0], 1, wf⟩ j idx a
      = (idx (ix2 (j 0) (0 : Fin 1))).toInt := by
  match a with
  | ⟨0, _⟩ =>
    unfold ScatterDims.start
    exact (dif_pos (List.mem_cons.2 (Or.inl rfl))).trans (congrArg (fun k => (idx k).toInt) (siIdx_vec wf j _))

/-- The operand's one axis is inserted: there is no window offset. -/
theorem window_vec (wf) (j : (⟨1, ![E]⟩ : Shape).Idx) (a : Fin 1) :
    ScatterDims.window (s := ⟨1, ![N]⟩) (si := ⟨2, ![E, 1]⟩) (u := ⟨1, ![E]⟩) ⟨[], [0], [0], 1, wf⟩ j a = 0 := by
  unfold ScatterDims.window
  refine dif_neg ?_
  match a with
  | ⟨0, _⟩ => simp [ScatterDims.sKept, Shape.kept]

/-- Update e lands at entry i' exactly when its id is i', as integers. -/
theorem resultIdx?_vec_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (j : (⟨1, ![E]⟩ : Shape).Idx)
    (i' : (⟨1, ![N]⟩ : Shape).Idx) :
    d.resultIdx? j idx = some i' ↔ (idx (ix2 (j 0) (0 : Fin 1))).toInt = ((i' 0).val : Int) := by
  obtain ⟨uw, iw, sd, iv, wf⟩ := d
  dsimp only at h1 h2 h3 h4
  subst h1 h2 h3 h4
  rw [Cert.ScatterSet.resultIdx?_eq_some_iff_forall, Fin.forall_fin_one, start_vec, window_vec]
  simp

end Vec

section Rows

variable {w E N C : Nat}

/-- Update (e, c) reads the one component of its start at (e, 0) of the index array. -/
theorem siIdx_rows (wf) (j : (⟨2, ![E, C]⟩ : Shape).Idx) (c : Fin 1) :
    ScatterDims.siIdx (s := ⟨2, ![N, C]⟩) (si := ⟨2, ![E, 1]⟩) (u := ⟨2, ![E, C]⟩) ⟨[1], [0], [0], 1, wf⟩ j c = ix2 (j 0) c := by
  funext b
  match b with
  | ⟨0, _⟩ => rfl
  | ⟨1, _⟩ => rfl

/-- Its start on the operand's first axis is the word at (e, 0), read signed. -/
theorem start_rows_zero (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 0
      = (idx (ix2 (j 0) (0 : Fin 1))).toInt := by
  unfold ScatterDims.start
  exact (dif_pos (List.mem_cons.2 (Or.inl rfl))).trans (congrArg (fun k => (idx k).toInt) (siIdx_rows wf j _))

/-- Its start on the operand's second axis, which the map does not name, is 0. -/
theorem start_rows_one (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 1 = 0 := by
  unfold ScatterDims.start
  refine dif_neg ?_
  simp

/-- The operand's first axis is inserted: no window offset there. -/
theorem window_rows_zero (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 0 = 0 := by
  unfold ScatterDims.window
  refine dif_neg ?_
  simp [ScatterDims.sKept, Shape.kept]

/-- On the operand's second axis the window coordinate is the update's column. -/
theorem window_rows_one (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 1 = (j 1).val := by
  unfold ScatterDims.window
  have hmem : (1 : Fin 2) ∈ ScatterDims.sKept (s := ⟨2, ![N, C]⟩) (si := ⟨2, ![E, 1]⟩) (u := ⟨2, ![E, C]⟩) ⟨[1], [0], [0], 1, wf⟩ := by
    simp [ScatterDims.sKept, Shape.kept]
  exact (dif_pos hmem).trans rfl

/-- Update (e, c) lands at (n, k) exactly when its id is n, as integers, and c = k. -/
theorem resultIdx?_rows_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (j : (⟨2, ![E, C]⟩ : Shape).Idx)
    (i' : (⟨2, ![N, C]⟩ : Shape).Idx) :
    d.resultIdx? j idx = some i' ↔
      (idx (ix2 (j 0) (0 : Fin 1))).toInt = ((i' 0).val : Int) ∧ (j 1).val = (i' 1).val := by
  obtain ⟨uw, iw, sd, iv, wf⟩ := d
  dsimp only at h1 h2 h3 h4
  subst h1 h2 h3 h4
  rw [Cert.ScatterSet.resultIdx?_eq_some_iff_forall, Fin.forall_fin_two, start_rows_zero, start_rows_one,
    window_rows_zero, window_rows_one]
  simp

end Rows

/-- A segment sum of a vector: dimension numbers update_window_dims = [], inserted_window_dims = [0], scatter_dims_to_operand_dims = [0], index_vector_dim = 1. -/
theorem scatterAdd_vec_apply {E N w : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n) + ∑ e ∈ edgesAt idx n, upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact (mem_edgesAt idx n _).2 ((resultIdx?_vec_iff d h1 h2 h3 h4 idx j (ix1 n)).1 hj.2)
  · intro e he
    rw [Finset.mem_filter]
    exact ⟨Finset.mem_univ _, (resultIdx?_vec_iff d h1 h2 h3 h4 idx (ix1 e) (ix1 n)).2 ((mem_edgesAt idx n e).1 he)⟩
  · intro j _
    exact (eq_ix1 j).symm
  · intro e _
    rfl
  · intro j _
    exact congrArg upd (eq_ix1 j)

/-- A segment sum of the rows of a matrix: update_window_dims = [1], inserted_window_dims = [0], scatter_dims_to_operand_dims = [0], index_vector_dim = 1. -/
theorem scatterAdd_rows_apply {E N C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ w) (upd : (⟨2, ![E, C]⟩ : Shape).Idx → EReal) (n : Fin N) (k : Fin C) :
    Ideal.hostScatterAdd d x idx upd (ix2 n k) = x (ix2 n k) + ∑ e ∈ edgesAt idx n, upd (ix2 e k) := by
  unfold Ideal.hostScatterAdd
  congr 1
  refine Finset.sum_nbij' (fun j => (j 0 : Fin E)) (fun e => ix2 e k) ?_ ?_ ?_ ?_ ?_
  · intro j hj
    rw [Finset.mem_filter] at hj
    exact (mem_edgesAt idx n _).2 ((resultIdx?_rows_iff d h1 h2 h3 h4 idx j (ix2 n k)).1 hj.2).1
  · intro e he
    rw [Finset.mem_filter]
    exact ⟨Finset.mem_univ _,
      (resultIdx?_rows_iff d h1 h2 h3 h4 idx (ix2 e k) (ix2 n k)).2 ⟨(mem_edgesAt idx n e).1 he, rfl⟩⟩
  · intro j hj
    rw [Finset.mem_filter] at hj
    have hk : (j 1 : Fin C) = k := Fin.ext ((resultIdx?_rows_iff d h1 h2 h3 h4 idx j (ix2 n k)).1 hj.2).2
    exact (congrArg (fun c : Fin C => ix2 (j 0 : Fin E) c) hk).symm.trans (eq_ix2 j).symm
  · intro e _
    rfl
  · intro j hj
    rw [Finset.mem_filter] at hj
    have hk : (j 1 : Fin C) = k := Fin.ext ((resultIdx?_rows_iff d h1 h2 h3 h4 idx j (ix2 n k)).1 hj.2).2
    exact congrArg upd ((eq_ix2 j).trans (congrArg (fun c : Fin C => ix2 (j 0 : Fin E) c) hk))

/-- Linearity of a segment sum over real entries: summing (row · weights + bias) over a set of edges is (summed rows) · weights + (number of edges, as a sum of ones) · bias. -/
theorem segment_linear {ι κ : Type*} [Fintype κ] (s : Finset ι) (a : ι → κ → EReal) (wt : κ → EReal) (c : EReal)
    (ha : ∀ e k, IsReal (a e k)) (hw : ∀ k, IsReal (wt k)) (hc : IsReal c) :
    ∑ e ∈ s, ((∑ k, a e k * wt k) + c) = (∑ k, (∑ e ∈ s, a e k) * wt k) + (∑ _e ∈ s, (1 : EReal)) * c := by
  rw [Finset.sum_add_distrib, Finset.sum_comm]
  congr 1
  · exact Finset.sum_congr rfl fun k _ => (sum_mul_of_isReal s (fun e => a e k) (wt k) (fun e _ => ha e k) (hw k)).symm
  · rw [sum_mul_of_isReal s (fun _ => (1 : EReal)) c (fun _ _ => ⟨1, EReal.coe_one.symm⟩) hc]
    exact Finset.sum_congr rfl fun _ _ => (one_mul c).symm

end Cert.SegmentSum
end
-- ==== Proof.LibGatherRows.lean ====
/-
  A row gather read at an index. What `x[idx]` of a table `x : [N, C]` at an integer vector lowers to: a gather along
  axis 0 with whole rows as slices (offset axis 1, axis 0 collapsed, slice sizes `[1, C]`) over the indices laid out as a
  column `[R, 1]`. Result entry `(f, k)` is the table's entry `(row f, k)`, where `row f` is the start index at `f` read as
  a signed integer and clamped into `[0, N − 1]`. So the gather selects rows by a function of the indices alone and
  keeps columns: it commutes with anything done to the table row by row. Nothing here depends on a program.
-/
import Idealize.ShloMosaic.Lib.ValueIdx

namespace Cert.KernelIdeal.Hand

open Idealize.ShloMosaic Idealize.ShloMosaic.ValueIdx

section Rows
variable {α : Type}

/-- The dimension numbers of a row gather from a table `[N, C]` at start indices `[R, 1]` into `[R, C]`; their conditions
    `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row the gather reads for result row `f`: the start index there, signed, clamped into `[0, N − 1]`. -/
def rowOf {N R w : Nat} (hN : 0 < N) (idx : IVec ⟨2, ![R, 1]⟩ w) (f : Fin R) : Fin N :=
  ⟨min (idx (ix2 f (0 : Fin 1))).toInt.toNat (N - 1), by omega⟩

/-- THE ROW GATHER READ AT `(f, k)`: the table at `(rowOf f, k)`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (f : Fin R) (k : Fin C) :
    Host.gather (rowDims N R C wf) x idx (ix2 f k) = x (ix2 (rowOf hN idx f) k) := by
  unfold Host.gather
  congr 1
  funext a
  refine Fin.ext ?_
  match a with
  | ⟨0, _⟩ =>
    show (rowDims N R C wf).start (ix2 f k) idx 0 + (rowDims N R C wf).batchCoord (ix2 f k) 0
      + (rowDims N R C wf).offCoord (ix2 f k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 f k) ⟨List.idxOf (0 : Fin 2) (rowDims N R C wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl
  | ⟨1, _⟩ =>
    show (rowDims N R C wf).start (ix2 f k) idx 1 + (rowDims N R C wf).batchCoord (ix2 f k) 1
      + (rowDims N R C wf).offCoord (ix2 f k) 1 = _
    rw [GatherDims.batchCoord_eq_zero _ _ _ List.not_mem_nil]
    unfold GatherDims.start
    have h10 : (1 : Fin 2) ≠ 0 := by decide
    rw [dif_neg (show (1 : Fin 2) ∉ (rowDims N R C wf).startIndexMap from
      fun h => absurd (List.mem_singleton.mp h) h10)]
    have hk : (1 : Fin 2) ∈ (rowDims N R C wf).sKept :=
      (GatherDims.mem_sKept _ _).mpr ⟨fun h => absurd (List.mem_singleton.mp h) h10, List.not_mem_nil⟩
    unfold GatherDims.offCoord
    rw [dif_pos hk]
    simp only [Nat.zero_add]
    rfl

end Rows

end Cert.KernelIdeal.Hand
-- ==== Proof.LibSoftmaxRow.lean ====
/-
  One row of softmax attention on the extended reals, free of any program and of any shape.

  For a row of logits `l` over `n` keys, the row maximum is the fold of `max` over the row from an accumulator value
  `b`; the softmax weight of key `k` is `exp (l k - M) / ∑ k', exp (l k' - M)` at the ideal exponential and quotient; one
  output entry is the weights against a column of values. Two laws: taking the maximum with the accumulator's value once
  more changes nothing, and multiplication by a non-negative real number distributes over every finite sum of extended
  reals (infinite terms included), so a scale on every entry of one factor of a contraction is a scale on the contracted
  sum.
-/
import Idealize.ShloMosaic.PureOps.Ideal

noncomputable section

namespace Cert.Attn

open Idealize.ShloMosaic

/-- A row's maximum: the fold of `max` over the row, from the accumulator's value `b`. -/
def rowMax {n : ℕ} (b : EReal) (l : Fin n → EReal) : EReal :=
  (Finset.univ : Finset (Fin n)).fold max b l

/-- The softmax weight of key `k` in a row of logits `l`. -/
def weight {n : ℕ} (b : EReal) (l : Fin n → EReal) (k : Fin n) : EReal :=
  Ideal.div (Ideal.exp (l k - rowMax b l)) (∑ k' : Fin n, Ideal.exp (l k' - rowMax b l))

/-- One output entry: the softmax weights of the row against one column of values. -/
def attnRow {n : ℕ} (b : EReal) (l v : Fin n → EReal) : EReal :=
  ∑ k : Fin n, weight b l k * v k

/-- The accumulator's value is below the fold that starts from it, so taking the maximum with it again changes nothing. -/
theorem max_rowMax {n : ℕ} (b : EReal) (l : Fin n → EReal) : max b (rowMax b l) = rowMax b l :=
  max_eq_right ((Finset.le_fold_max b).mpr (Or.inl le_rfl))

/-- Multiplication by a non-negative real number distributes over a finite sum of extended reals. -/
theorem sum_mul_coe {ι : Type} (s : Finset ι) (a : ι → EReal) (r : ℝ) (hr : 0 ≤ r) :
    ∑ d ∈ s, a d * (r : EReal) = (∑ d ∈ s, a d) * (r : EReal) := by
  classical
  refine Finset.induction_on s (by simp) (fun x s hx ih => ?_)
  rw [Finset.sum_insert hx, Finset.sum_insert hx, ih,
    EReal.right_distrib_of_nonneg_of_ne_top (EReal.coe_nonneg.mpr hr) (EReal.coe_ne_top r)]

/-- Scaling every query entry before the contraction is scaling the contracted sum. -/
theorem scale_inside {n : ℕ} (q k : Fin n → EReal) (r : ℝ) (hr : 0 ≤ r) :
    ∑ d : Fin n, q d * (r : EReal) * k d = (∑ d : Fin n, q d * k d) * (r : EReal) := by
  rw [← sum_mul_coe Finset.univ (fun d => q d * k d) r hr]
  exact Finset.sum_congr rfl fun d _ => mul_right_comm _ _ _

end Cert.Attn

end
-- ==== Proof.LibGraphLayers.lean ====
/-
  A linear graph network, entry by entry on the extended reals.

  Nodes 0 … N − 1 carry feature rows; messages e = 0 … E − 1 each name a source row (an index word read signed and clamped
  into the table, as a row gather reads it) and a destination node (an index word read signed; a word naming no node
  lands nowhere). One convolution layer multiplies the rows by a weight matrix, lets every node collect the rows of the
  messages that land on it, each scaled by the normalisation d(source) · d(destination), adds a bias and takes the
  maximum with zero. The network is an affine encoder, two such layers and an affine decoder.

  Two arrangements of a layer are written down. In the first the factor d(source) is multiplied into the rows before
  they are collected and the factor d(destination) into the collected sum afterwards; in the second every collected row
  carries its whole factor. They agree whenever every d(n) is a non-negative real number: a non-negative real factor
  distributes over a finite sum of extended reals, and multiplication of extended reals is associative. No entry of
  the features, weights or biases needs to be finite.
-/
import Idealize.ShloMosaic.PureOps.Ideal
import Idealize.ShloMosaic.Lib.ValueIdx
import Mathlib.Algebra.BigOperators.Fin
import proofs.«129134_j22308060135895_2_alg».proof.Proof.LibSegmentSum
import proofs.«129134_j22308060135895_2_alg».proof.Proof.LibGatherRows
import proofs.«129134_j22308060135895_2_alg».proof.Proof.LibSoftmaxRow

noncomputable section

namespace Cert.GraphLinear

open Idealize.ShloMosaic Idealize.ShloMosaic.ValueIdx Cert.SegmentSum Cert.KernelIdeal.Hand

/-- An array [a, b] of extended reals. -/
abbrev Mat (a b : Nat) : Type := (⟨2, ![a, b]⟩ : Shape).Idx → EReal
/-- A vector [a] of extended reals. -/
abbrev Vect (a : Nat) : Type := (⟨1, ![a]⟩ : Shape).Idx → EReal
/-- A column [E, 1] of index words. -/
abbrev IdxCol (E w : Nat) : Type := IVec ⟨2, ![E, 1]⟩ w

/-! ## What one launch of each kernel computes, as a function of whole arrays -/

/-- Rows times weights plus a bias row: (x · w)(p, q) + b(0, q). -/
def affine {N K C : Nat} (x : Mat N K) (w : Mat K C) (b : Mat 1 C) : Mat N C :=
  fun i => (∑ k : Fin K, x (ix2 (i 0) k) * w (ix2 k (i 1))) + b (ix2 (0 : Fin 1) (i 1))

/-- Rows times weights, each row scaled by its entry of a column: (x · w)(p, q) · d(p, 0). -/
def scaled {N K C : Nat} (x : Mat N K) (w : Mat K C) (d : Mat N 1) : Mat N C :=
  fun i => (∑ k : Fin K, x (ix2 (i 0) k) * w (ix2 k (i 1))) * d (ix2 (i 0) (0 : Fin 1))

/-- Each row scaled by its entry of a column, plus a bias row, maximum with zero: max (s(p, q) · d(p, 0) + b(0, q)) 0. -/
def biasRelu {N C : Nat} (s : Mat N C) (d : Mat N 1) (b : Mat 1 C) : Mat N C :=
  fun i => max (s i * d (ix2 (i 0) (0 : Fin 1)) + b (ix2 (0 : Fin 1) (i 1))) (0 : EReal)

theorem affine_apply {N K C : Nat} (x : Mat N K) (w : Mat K C) (b : Mat 1 C) (p : Fin N) (q : Fin C) :
    affine x w b (ix2 p q) = (∑ k : Fin K, x (ix2 p k) * w (ix2 k q)) + b (ix2 (0 : Fin 1) q) := rfl
theorem scaled_apply {N K C : Nat} (x : Mat N K) (w : Mat K C) (d : Mat N 1) (p : Fin N) (q : Fin C) :
    scaled x w d (ix2 p q) = (∑ k : Fin K, x (ix2 p k) * w (ix2 k q)) * d (ix2 p (0 : Fin 1)) := rfl
theorem biasRelu_apply {N C : Nat} (s : Mat N C) (d : Mat N 1) (b : Mat 1 C) (p : Fin N) (q : Fin C) :
    biasRelu s d b (ix2 p q) = max (s (ix2 p q) * d (ix2 p (0 : Fin 1)) + b (ix2 (0 : Fin 1) q)) (0 : EReal) := rfl

/-! ## Collecting rows along the messages -/

section Messages
variable {N E C w w' : Nat} (hN : 0 < N) (dst : IdxCol E w) (src : IdxCol E w')

/-- Every node collects the rows of `t` named by the sources of the messages that land on it. -/
def collect (t : Mat N C) : Mat N C :=
  fun i => ∑ e ∈ edgesAt dst (i 0), t (ix2 (rowOf hN src e) (i 1))

/-- The same with each message's row scaled by the message's own weight. -/
def collectWeighted (t : Mat N C) (nrm : Vect E) : Mat N C :=
  fun i => ∑ e ∈ edgesAt dst (i 0), t (ix2 (rowOf hN src e) (i 1)) * nrm (ix1 e)

theorem collect_apply (t : Mat N C) (n : Fin N) (k : Fin C) :
    collect hN dst src t (ix2 n k) = ∑ e ∈ edgesAt dst n, t (ix2 (rowOf hN src e) k) := rfl
theorem collectWeighted_apply (t : Mat N C) (nrm : Vect E) (n : Fin N) (k : Fin C) :
    collectWeighted hN dst src t nrm (ix2 n k) = ∑ e ∈ edgesAt dst n, t (ix2 (rowOf hN src e) k) * nrm (ix1 e) := rfl

/-! ## The two arrangements of a layer and of the network -/

/-- Plain rows times weights. -/
def product {K : Nat} (x : Mat N K) (wt : Mat K C) : Mat N C :=
  fun i => ∑ k : Fin K, x (ix2 (i 0) k) * wt (ix2 k (i 1))
/-- Rows times weights plus a bias vector. -/
def affineVec {K : Nat} (x : Mat N K) (wt : Mat K C) (b : Vect C) : Mat N C :=
  fun i => (∑ k : Fin K, x (ix2 (i 0) k) * wt (ix2 k (i 1))) + b (ix1 (i 1))
/-- Plus a bias vector, maximum with zero. -/
def addRelu (s : Mat N C) (b : Vect C) : Mat N C :=
  fun i => max (s i + b (ix1 (i 1))) (0 : EReal)

/-- A layer with the normalisation split: d(source) before the rows are collected, d(destination) after. -/
def layerSplit {K : Nat} (d : Mat N 1) (h : Mat N K) (wt : Mat K C) (b : Mat 1 C) : Mat N C :=
  biasRelu (collect hN dst src (scaled h wt d)) d b
/-- A layer with every collected row carrying its whole normalisation weight. -/
def layerWhole {K : Nat} (nrm : Vect E) (h : Mat N K) (wt : Mat K C) (b : Vect C) : Mat N C :=
  addRelu (collectWeighted hN dst src (product h wt) nrm) b

/-- The network in the split arrangement: encoder, two layers, decoder; the biases as one-row matrices. -/
def netSplit {K0 H O : Nat} (d : Mat N 1) (x : Mat N K0) (We : Mat K0 H) (be : Mat 1 H) (W1 : Mat H H) (b1 : Mat 1 H)
    (W2 : Mat H H) (b2 : Mat 1 H) (Wo : Mat H O) (bo : Mat 1 O) : Mat N O :=
  affine (layerSplit hN dst src d (layerSplit hN dst src d (affine x We be) W1 b1) W2 b2) Wo bo
/-- The network in the whole-weight arrangement; the biases as vectors. -/
def netWhole {K0 H O : Nat} (nrm : Vect E) (x : Mat N K0) (We : Mat K0 H) (be : Vect H) (W1 : Mat H H) (b1 : Vect H)
    (W2 : Mat H H) (b2 : Vect H) (Wo : Mat H O) (bo : Vect O) : Mat N O :=
  affineVec (layerWhole hN dst src nrm (layerWhole hN dst src nrm (affineVec x We be) W1 b1) W2 b2) Wo bo

/-! ## The law between them -/

/-- One layer: if every d(n) is a non-negative real and every message landing on n weighs d(its source) · d(n), the two
    arrangements agree on any rows. -/
theorem layerSplit_eq_layerWhole {K : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (h : Mat N K) (wt : Mat K C) (b : Mat 1 C) (bv : Vect C) (hb : ∀ q : Fin C, b (ix2 (0 : Fin 1) q) = bv (ix1 q)) :
    layerSplit hN dst src d h wt b = layerWhole hN dst src nrm h wt bv := by
  funext i
  obtain ⟨n, k, rfl⟩ : ∃ (n : Fin N) (k : Fin C), i = ix2 n k := ⟨i 0, i 1, eq_ix2 i⟩
  obtain ⟨r, hr, hdn⟩ := hd n
  show max ((∑ e ∈ edgesAt dst n, (∑ j : Fin K, h (ix2 (rowOf hN src e) j) * wt (ix2 j k))
        * d (ix2 (rowOf hN src e) (0 : Fin 1))) * d (ix2 n (0 : Fin 1)) + b (ix2 (0 : Fin 1) k)) (0 : EReal)
      = max ((∑ e ∈ edgesAt dst n, (∑ j : Fin K, h (ix2 (rowOf hN src e) j) * wt (ix2 j k)) * nrm (ix1 e))
        + bv (ix1 k)) (0 : EReal)
  rw [hb k, hdn, ← Cert.Attn.sum_mul_coe _ _ r hr]
  refine congrArg (fun z => max (z + bv (ix1 k)) (0 : EReal)) (Finset.sum_congr rfl fun e he => ?_)
  rw [hn n e he, hdn, mul_assoc]

/-- The network: the two arrangements agree. -/
theorem netSplit_eq_netWhole {K0 H O : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (x : Mat N K0) (We : Mat K0 H) (W1 W2 : Mat H H) (Wo : Mat H O)
    (be b1 b2 : Mat 1 H) (bo : Mat 1 O) (bev b1v b2v : Vect H) (bov : Vect O)
    (hbe : ∀ q : Fin H, be (ix2 (0 : Fin 1) q) = bev (ix1 q)) (hb1 : ∀ q : Fin H, b1 (ix2 (0 : Fin 1) q) = b1v (ix1 q))
    (hb2 : ∀ q : Fin H, b2 (ix2 (0 : Fin 1) q) = b2v (ix1 q)) (hbo : ∀ q : Fin O, bo (ix2 (0 : Fin 1) q) = bov (ix1 q)) :
    netSplit hN dst src d x We be W1 b1 W2 b2 Wo bo = netWhole hN dst src nrm x We bev W1 b1v W2 b2v Wo bov := by
  have henc : affine x We be = affineVec x We bev := by
    funext i
    obtain ⟨n, k, rfl⟩ : ∃ (n : Fin N) (k : Fin H), i = ix2 n k := ⟨i 0, i 1, eq_ix2 i⟩
    show _ + be (ix2 (0 : Fin 1) k) = _ + bev (ix1 k); rw [hbe]
  unfold netSplit netWhole
  rw [henc, layerSplit_eq_layerWhole hN dst src d nrm hd hn _ W1 b1 b1v hb1,
    layerSplit_eq_layerWhole hN dst src d nrm hd hn _ W2 b2 b2v hb2]
  funext i
  obtain ⟨n, k, rfl⟩ : ∃ (n : Fin N) (k : Fin O), i = ix2 n k := ⟨i 0, i 1, eq_ix2 i⟩
  show _ + bo (ix2 (0 : Fin 1) k) = _ + bov (ix1 k); rw [hbo]

end Messages

end Cert.GraphLinear

end
-- ==== Proof.Net.lean ====
/-
  A three-layer graph convolution followed by a link predictor, entry by entry on the extended reals.

  Nodes carry feature rows. A message names a source row and a destination node; every node collects the rows of the
  messages that land on it. A layer multiplies the rows by a weight matrix, collects them with the normalisation
  d(source) · d(destination), and adds a bias; the first two layers then take the maximum with zero, the third does not.
  A link query names two nodes; the predictor multiplies their two rows entry by entry, applies a weight matrix and a
  bias, the maximum with zero, and a last weight column and bias, which gives one number per query.

  As in the layers with a maximum, the last layer is written in two arrangements: the factor d(source) multiplied into
  the rows before they are collected and d(destination) into the collected sum, or every collected row carrying its whole
  factor. They agree whenever every d(n) is a non-negative real: such a factor distributes over a finite sum of extended
  reals, and multiplication of extended reals is associative. Nothing else needs to be finite.
-/
import proofs.«129134_j22308060135895_2_alg».proof.Proof.LibGraphLayers

noncomputable section

namespace Cert.LinkGcn

open Idealize.ShloMosaic Idealize.ShloMosaic.ValueIdx Cert.SegmentSum Cert.KernelIdeal.Hand Cert.GraphLinear

/-! ## The last layer: no maximum -/

/-- Each row scaled by its entry of a column, plus a bias row: s(p, q) · d(p, 0) + b(0, q). -/
def scaleBias {N C : Nat} (s : Mat N C) (d : Mat N 1) (b : Mat 1 C) : Mat N C :=
  fun i => s i * d (ix2 (i 0) (0 : Fin 1)) + b (ix2 (0 : Fin 1) (i 1))

theorem scaleBias_apply {N C : Nat} (s : Mat N C) (d : Mat N 1) (b : Mat 1 C) (p : Fin N) (q : Fin C) :
    scaleBias s d b (ix2 p q) = s (ix2 p q) * d (ix2 p (0 : Fin 1)) + b (ix2 (0 : Fin 1) q) := rfl

/-- Plus a bias vector. -/
def addVec {N C : Nat} (s : Mat N C) (b : Vect C) : Mat N C :=
  fun i => s i + b (ix1 (i 1))

section Messages
variable {N E C w w' : Nat} (hN : 0 < N) (dst : IdxCol E w) (src : IdxCol E w')

/-- The last layer with the normalisation split: d(source) before the rows are collected, d(destination) after. -/
def lastSplit {K : Nat} (d : Mat N 1) (h : Mat N K) (wt : Mat K C) (b : Mat 1 C) : Mat N C :=
  scaleBias (collect hN dst src (scaled h wt d)) d b
/-- The last layer with every collected row carrying its whole normalisation weight. -/
def lastWhole {K : Nat} (nrm : Vect E) (h : Mat N K) (wt : Mat K C) (b : Vect C) : Mat N C :=
  addVec (collectWeighted hN dst src (product h wt) nrm) b

/-- The last layer: if every d(n) is a non-negative real and every message landing on n weighs d(its source) · d(n), the
    two arrangements agree on any rows. -/
theorem lastSplit_eq_lastWhole {K : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (h : Mat N K) (wt : Mat K C) (b : Mat 1 C) (bv : Vect C) (hb : ∀ q : Fin C, b (ix2 (0 : Fin 1) q) = bv (ix1 q)) :
    lastSplit hN dst src d h wt b = lastWhole hN dst src nrm h wt bv := by
  funext i
  obtain ⟨n, k, rfl⟩ : ∃ (n : Fin N) (k : Fin C), i = ix2 n k := ⟨i 0, i 1, eq_ix2 i⟩
  obtain ⟨r, hr, hdn⟩ := hd n
  show (∑ e ∈ edgesAt dst n, (∑ j : Fin K, h (ix2 (rowOf hN src e) j) * wt (ix2 j k))
        * d (ix2 (rowOf hN src e) (0 : Fin 1))) * d (ix2 n (0 : Fin 1)) + b (ix2 (0 : Fin 1) k)
      = (∑ e ∈ edgesAt dst n, (∑ j : Fin K, h (ix2 (rowOf hN src e) j) * wt (ix2 j k)) * nrm (ix1 e)) + bv (ix1 k)
  rw [hb k, hdn, ← Cert.Attn.sum_mul_coe _ _ r hr]
  refine congrArg (fun z => z + bv (ix1 k)) (Finset.sum_congr rfl fun e he => ?_)
  rw [hn n e he, hdn, mul_assoc]

/-- The three layers in the split arrangement; the biases as one-row matrices. -/
def gcnSplit {K0 H : Nat} (d : Mat N 1) (x : Mat N K0) (W1 : Mat K0 H) (b1 : Mat 1 H) (W2 : Mat H H) (b2 : Mat 1 H)
    (W3 : Mat H C) (b3 : Mat 1 C) : Mat N C :=
  lastSplit hN dst src d (layerSplit hN dst src d (layerSplit hN dst src d x W1 b1) W2 b2) W3 b3
/-- The three layers in the whole-weight arrangement; the biases as vectors. -/
def gcnWhole {K0 H : Nat} (nrm : Vect E) (x : Mat N K0) (W1 : Mat K0 H) (b1 : Vect H) (W2 : Mat H H) (b2 : Vect H)
    (W3 : Mat H C) (b3 : Vect C) : Mat N C :=
  lastWhole hN dst src nrm (layerWhole hN dst src nrm (layerWhole hN dst src nrm x W1 b1) W2 b2) W3 b3

/-- The three layers: the two arrangements agree. -/
theorem gcnSplit_eq_gcnWhole {K0 H : Nat} (d : Mat N 1) (nrm : Vect E)
    (hd : ∀ n : Fin N, ∃ r : ℝ, 0 ≤ r ∧ d (ix2 n (0 : Fin 1)) = (r : EReal))
    (hn : ∀ (n : Fin N) (e : Fin E), e ∈ edgesAt dst n →
      nrm (ix1 e) = d (ix2 (rowOf hN src e) (0 : Fin 1)) * d (ix2 n (0 : Fin 1)))
    (x : Mat N K0) (W1 : Mat K0 H) (W2 : Mat H H) (W3 : Mat H C)
    (b1 b2 : Mat 1 H) (b3 : Mat 1 C) (b1v b2v : Vect H) (b3v : Vect C)
    (hb1 : ∀ q : Fin H, b1 (ix2 (0 : Fin 1) q) = b1v (ix1 q)) (hb2 : ∀ q : Fin H, b2 (ix2 (0 : Fin 1) q) = b2v (ix1 q))
    (hb3 : ∀ q : Fin C, b3 (ix2 (0 : Fin 1) q) = b3v (ix1 q)) :
    gcnSplit hN dst src d x W1 b1 W2 b2 W3 b3 = gcnWhole hN dst src nrm x W1 b1v W2 b2v W3 b3v := by
  unfold gcnSplit gcnWhole
  rw [layerSplit_eq_layerWhole hN dst src d nrm hd hn _ W1 b1 b1v hb1,
    layerSplit_eq_layerWhole hN dst src d nrm hd hn _ W2 b2 b2v hb2,
    lastSplit_eq_lastWhole hN dst src d nrm hd hn _ W3 b3 b3v hb3]

end Messages

/-! ## The link predictor -/

/-- The two rows a query names, multiplied entry by entry: h(first row of b, k) · h(second row of b, k). -/
def pairRows {N B C w w' : Nat} (hN : 0 < N) (i0 : IdxCol B w) (i1 : IdxCol B w') (h : Mat N C) : Mat B C :=
  fun i => h (ix2 (rowOf hN i0 (i 0)) (i 1)) * h (ix2 (rowOf hN i1 (i 0)) (i 1))

/-- Entry-by-entry product of two arrays of rows. -/
def rowsMul {B C : Nat} (a b : Mat B C) : Mat B C := fun i => a i * b i

/-- The predictor's two dense layers on rows l, the biases as one-row matrices:
    Σ_j max (Σ_k l(p, k) · P1(k, j) + pb1(0, j)) 0 · P2(j, q) + pb2(0, q). -/
def mlp {B H O : Nat} (l : Mat B H) (P1 : Mat H H) (pb1 : Mat 1 H) (P2 : Mat H O) (pb2 : Mat 1 O) : Mat B O :=
  fun i => (∑ j : Fin H, max ((∑ k : Fin H, l (ix2 (i 0) k) * P1 (ix2 k j)) + pb1 (ix2 (0 : Fin 1) j)) (0 : EReal)
      * P2 (ix2 j (i 1))) + pb2 (ix2 (0 : Fin 1) (i 1))

/-- The same with the biases as vectors. -/
def mlpVec {B H O : Nat} (l : Mat B H) (P1 : Mat H H) (pb1 : Vect H) (P2 : Mat H O) (pb2 : Vect O) : Mat B O :=
  fun i => (∑ j : Fin H, max ((∑ k : Fin H, l (ix2 (i 0) k) * P1 (ix2 k j)) + pb1 (ix1 j)) (0 : EReal)
      * P2 (ix2 j (i 1))) + pb2 (ix1 (i 1))

theorem mlp_apply {B H O : Nat} (l : Mat B H) (P1 : Mat H H) (pb1 : Mat 1 H) (P2 : Mat H O) (pb2 : Mat 1 O)
    (p : Fin B) (q : Fin O) :
    mlp l P1 pb1 P2 pb2 (ix2 p q) = (∑ j : Fin H, max ((∑ k : Fin H, l (ix2 p k) * P1 (ix2 k j))
      + pb1 (ix2 (0 : Fin 1) j)) (0 : EReal) * P2 (ix2 j q)) + pb2 (ix2 (0 : Fin 1) q) := rfl

theorem mlp_eq_mlpVec {B H O : Nat} (l : Mat B H) (P1 : Mat H H) (pb1 : Mat 1 H) (P2 : Mat H O) (pb2 : Mat 1 O)
    (pb1v : Vect H) (pb2v : Vect O) (h1 : ∀ j : Fin H, pb1 (ix2 (0 : Fin 1) j) = pb1v (ix1 j))
    (h2 : ∀ q : Fin O, pb2 (ix2 (0 : Fin 1) q) = pb2v (ix1 q)) :
    mlp l P1 pb1 P2 pb2 = mlpVec l P1 pb1v P2 pb2v := by
  funext i
  obtain ⟨p, q, rfl⟩ : ∃ (p : Fin B) (q : Fin O), i = ix2 p q := ⟨i 0, i 1, eq_ix2 i⟩
  show (∑ j : Fin H, max ((∑ k : Fin H, l (ix2 p k) * P1 (ix2 k j)) + pb1 (ix2 (0 : Fin 1) j)) (0 : EReal) * P2 (ix2 j q))
        + pb2 (ix2 (0 : Fin 1) q)
      = (∑ j : Fin H, max ((∑ k : Fin H, l (ix2 p k) * P1 (ix2 k j)) + pb1v (ix1 j)) (0 : EReal) * P2 (ix2 j q))
        + pb2v (ix1 q)
  rw [h2]
  refine congrArg (fun z => z + pb2v (ix1 q)) (Finset.sum_congr rfl fun j _ => ?_)
  rw [h1]

/-- A one-column array read as a vector. -/
def colVec {B : Nat} (a : Mat B 1) : Vect B := fun i => a (ix2 (i 0) (0 : Fin 1))

end Cert.LinkGcn

end
-- ==== Proof.KerForms.lean ====
/-
  The host-side preparations of the message list and of the link queries, as the program's operations spell them.

  From the edge list [2, E0] : the source words (row 0, then the loop words 0 … N − 1), the destination words (row 1,
  then the same loop words); a vector of words as a column; array indexing's wrap of a negative word; the degree of a
  node as ones added into zeros at the destination words; d = 1/√max(degree, 1) where the degree is positive and 0
  elsewhere; the weight of a message d(wrapped source) · d(wrapped destination); from the query list [B, 2] the two
  columns of wrapped node words. Definitions only.
-/
import proofs.«129134_j22308060135895_2_alg».proof.Proof.Gen.KernelIdeal
import proofs.«129134_j22308060135895_2_alg».proof.Proof.Net
import Idealize.ShloMosaic.PureOps.Ideal

noncomputable section

namespace Cert.KernelIdeal.Forms

open Idealize.ShloMosaic Cert.KernelIdeal Cert.KernelIdeal.Gen Cert.GraphLinear Cert.LinkGcn

/-- The source word of every message: row 0 of the edge list, then one loop per node. -/
def srcV (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination word of every message: row 1 of the edge list, then one loop per node. -/
def dstV (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A vector of message words as a column [E, 1]. -/
def colV (v : IVec S1700000 32) : IVec S1700000x1 32 := broadcastInDim S1700000x1 ![0] bcast_S1700000_S1700000x1_0 v

/-- Array indexing's wrap: a negative word has the number of nodes added. -/
def wrapV (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The degree of every node: ones added into zeros at the destination words. -/
def degV (dst : IVec S1700000 32) : FVec Ideal S100000 .f32 :=
  Host.scatterAdd scatter_S100000_S1700000x1_S1700000_n_0_0_1
    (broadcastInDim S100000 ![] bcast_S_S100000 (constant (F := Ideal) S_ .f32 0x00000000#32)) (colV dst)
    (broadcastInDim S1700000 ![] bcast_S_S1700000 (constant (F := Ideal) S_ .f32 0x3F800000#32))

/-- d(n): the inverse square root of max(degree, 1) where the degree is positive, 0 elsewhere. -/
def dinvV (dst : IVec S1700000 32) : FVec Ideal S100000 .f32 :=
  select (cmpf .ogt (degV dst) (broadcastInDim S100000 ![] bcast_S_S100000 (constant (F := Ideal) S_ .f32 0x00000000#32)))
    (Host.rsqrt (maximumf (degV dst) (broadcastInDim S100000 ![] bcast_S_S100000 (constant (F := Ideal) S_ .f32 0x3F800000#32))))
    (broadcastInDim S100000 ![] bcast_S_S100000 (constant (F := Ideal) S_ .f32 0x00000000#32))

/-- The two columns of a link query list, as columns of wrapped node words. -/
def queryV (ri : IVec S8192x2 32) (k : Fin 2) : IVec S8192x1 32 :=
  let v : IVec S8192 32 := match k with
    | 0 => shapeCast S8192 (extractStridedSlice S8192x1 ![0, 0] ri slices_S8192x2_S8192x1_0_0) shapeCasts_S8192x1_S8192
    | 1 => shapeCast S8192 (extractStridedSlice S8192x1 ![0, 1] ri slices_S8192x2_S8192x1_0_1) shapeCasts_S8192x1_S8192
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 100000#32))) v)

theorem hN : 0 < 100000 := by decide

/-- The kernel's result as one function of its arguments, entry by entry: three convolution layers in the split
    arrangement over the message list (d as a column, the biases as one-row matrices), then the link predictor on the
    queried pairs of rows. -/
def kerNet (x : FVec Ideal S100000x128 .f32) (ei : IVec S2x1600000 32) (ri : IVec S8192x2 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (P1 : FVec Ideal S128x128 .f32) (pb1 : FVec Ideal S128 .f32)
    (P2 : FVec Ideal S128x1 .f32) (pb2 : FVec Ideal S1 .f32) : FVec Ideal S8192 .f32 :=
  colVec (mlp (pairRows hN (queryV ri 0) (queryV ri 1)
    (gcnSplit hN (colV (dstV ei)) (colV (wrapV (srcV ei))) (shapeCast S100000x1 (dinvV (dstV ei)) shapeCasts_S100000_S100000x1)
      x W1 (shapeCast S1x128 b1 shapeCasts_S128_S1x128) W2 (shapeCast S1x128 b2 shapeCasts_S128_S1x128)
      W3 (shapeCast S1x128 b3 shapeCasts_S128_S1x128)))
    P1 (shapeCast S1x128 pb1 shapeCasts_S128_S1x128) P2 (shapeCast S1x1 pb2 shapeCasts_S1_S1x1))

end Cert.KernelIdeal.Forms

end
-- ==== Proof.KerHost.lean ====
/-
  What the host operations between the launches compute, stretch by stretch, from any buffer contents: the message
  words, the normalisation column, the gathered and collected rows, the bias rows, the queried rows.
-/
import proofs.«129134_j22308060135895_2_alg».proof.Proof.Gen.KernelIdeal.Frame
import proofs.«129134_j22308060135895_2_alg».proof.Proof.KerForms
import Idealize.ShloMosaic.Lib.StableHlo.Run

set_option maxRecDepth 16384
set_option maxHeartbeats 4000000

noncomputable section

namespace Cert.KernelIdeal.HostV

open Idealize.ShloMosaic Idealize.ShloMosaic.TcCoe Idealize.SL.Sem Idealize.ShloMosaic.StableHlo
open Cert.KernelIdeal Cert.KernelIdeal.Gen Cert.KernelIdeal.Forms

/-- Rows of a table gathered at the wrapped source words and added into zeros at the destination words. -/
def aggV (hw : FVec Ideal S100000x128 .bf16) (src dst : IVec S1700000 32) : FVec Ideal S100000x128 .f32 :=
  Host.scatterAdd scatter_S100000x128_S1700000x1_S1700000x128_1_0_0_1
    (broadcastInDim S100000x128 ![] bcast_S_S100000x128 (constant (F := Ideal) S_ .f32 0x00000000#32)) (colV dst)
    (extf .f32 (Host.gather gather_S100000x128_S1700000x1_S1700000x128_1_0_n_n_0_1_1128 hw (colV (wrapV src))) bitsLt_bf16_f32)

variable (Wv : Valuation τ sig (Elt Ideal))

/-! ## Before the first launch -/

section Split
variable {F : FTy → Type} [FloatOps F]
/-- The operations before the first launch that prepare the message words: the first seven of `hostOps0`. -/
abbrev opsWords : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The rest of `hostOps0`: the degree and the inverse square root. -/
abbrev opsDegree : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32) ]
theorem hostOps0_split : (hostOps0 : List (HloOp τ sig (Elt F))) = opsWords ++ opsDegree := rfl
/-- The called selection's three operations, spelt with the plain builders. -/
abbrev opsWhere : List (HloOp τ sig (Elt F)) :=
  [ StableHlo.unary main_cst_3 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
theorem hostOps0_1_plain : (hostOps0_1 : List (HloOp τ sig (Elt F))) = opsWhere := rfl
end Split

theorem after_append (a b : List (HloOp τ sig (Elt Ideal))) (V : Valuation τ sig (Elt Ideal)) :
    StableHlo.after (a ++ b) V = StableHlo.after b (StableHlo.after a V) := by
  induction a generalizing V with
  | nil => rfl
  | cons op l ih => exact ih _

theorem words_v6 : StableHlo.after opsWords Wv (Proc.devRef .tc main_v6) = dstV (Wv (Proc.devRef .tc main_arg1)) := by
  dsimp only [opsWords]
  after_results_simp
  rfl

/-- The normalisation column from any contents, given the destination words. -/
theorem degree_v17 :
    StableHlo.after hostOps0_2 (StableHlo.after hostOps0_1 (StableHlo.after opsDegree Wv)) (Proc.devRef .tc main_v17)
      = shapeCast S100000x1 (dinvV (Wv (Proc.devRef .tc main_v6))) shapeCasts_S100000_S100000x1 := by
  rw [hostOps0_1_plain]
  dsimp only [hostOps0_2, opsWhere, opsDegree]
  after_results_simp
  rfl

theorem pre_v3 :
    StableHlo.after hostOps0_2 (StableHlo.after hostOps0_1 (StableHlo.after hostOps0 Wv)) (Proc.devRef .tc main_v3)
      = srcV (Wv (Proc.devRef .tc main_arg1)) := by
  dsimp only [hostOps0_2, hostOps0_1, hostOps0]
  after_results_simp
  rfl

theorem pre_v6 :
    StableHlo.after hostOps0_2 (StableHlo.after hostOps0_1 (StableHlo.after hostOps0 Wv)) (Proc.devRef .tc main_v6)
      = dstV (Wv (Proc.devRef .tc main_arg1)) := by
  dsimp only [hostOps0_2, hostOps0_1, hostOps0]
  after_results_simp
  rfl

theorem pre_v17 :
    StableHlo.after hostOps0_2 (StableHlo.after hostOps0_1 (StableHlo.after hostOps0 Wv)) (Proc.devRef .tc main_v17)
      = shapeCast S100000x1 (dinvV (dstV (Wv (Proc.devRef .tc main_arg1)))) shapeCasts_S100000_S100000x1 := by
  rw [hostOps0_split, after_append, degree_v17, words_v6]

/-! ## Between the launches -/

theorem host1_v29 :
    StableHlo.after hostOps1 Wv (Proc.devRef .tc main_v29) = aggV (Wv (Proc.devRef .tc main_v18)) (Wv (Proc.devRef .tc main_v3)) (Wv (Proc.devRef .tc main_v6)) := by
  dsimp only [hostOps1]
  after_results_simp
  rfl
theorem host1_v30 :
    StableHlo.after hostOps1 Wv (Proc.devRef .tc main_v30) = shapeCast S1x128 (Wv (Proc.devRef .tc main_arg4)) shapeCasts_S128_S1x128 := by
  dsimp only [hostOps1]
  after_results_simp
  rfl
theorem host2_v42 :
    StableHlo.after hostOps2 Wv (Proc.devRef .tc main_v42) = aggV (Wv (Proc.devRef .tc main_v31)) (Wv (Proc.devRef .tc main_v3)) (Wv (Proc.devRef .tc main_v6)) := by
  dsimp only [hostOps2]
  after_results_simp
  rfl
theorem host2_v43 :
    StableHlo.after hostOps2 Wv (Proc.devRef .tc main_v43) = shapeCast S1x128 (Wv (Proc.devRef .tc main_arg6)) shapeCasts_S128_S1x128 := by
  dsimp only [hostOps2]
  after_results_simp
  rfl
theorem host3_v55 :
    StableHlo.after hostOps3 Wv (Proc.devRef .tc main_v55) = aggV (Wv (Proc.devRef .tc main_v44)) (Wv (Proc.devRef .tc main_v3)) (Wv (Proc.devRef .tc main_v6)) := by
  dsimp only [hostOps3]
  after_results_simp
  rfl
theorem host3_v56 :
    StableHlo.after hostOps3 Wv (Proc.devRef .tc main_v56) = shapeCast S1x128 (Wv (Proc.devRef .tc main_arg8)) shapeCasts_S128_S1x128 := by
  dsimp only [hostOps3]
  after_results_simp
  rfl
theorem host4_v66 :
    StableHlo.after hostOps4 Wv (Proc.devRef .tc main_v66)
      = Host.gather gather_S100000x128_S8192x1_S8192x128_1_0_n_n_0_1_1128 (Wv (Proc.devRef .tc main_v57)) (queryV (Wv (Proc.devRef .tc main_arg2)) 0) := by
  dsimp only [hostOps4]
  after_results_simp
  rfl
theorem host4_v75 :
    StableHlo.after hostOps4 Wv (Proc.devRef .tc main_v75)
      = Host.gather gather_S100000x128_S8192x1_S8192x128_1_0_n_n_0_1_1128 (Wv (Proc.devRef .tc main_v57)) (queryV (Wv (Proc.devRef .tc main_arg2)) 1) := by
  dsimp only [hostOps4]
  after_results_simp
  rfl
theorem host4_v76 :
    StableHlo.after hostOps4 Wv (Proc.devRef .tc main_v76) = shapeCast S1x128 (Wv (Proc.devRef .tc main_arg10)) shapeCasts_S128_S1x128 := by
  dsimp only [hostOps4]
  after_results_simp
  rfl
theorem host4_v77 :
    StableHlo.after hostOps4 Wv (Proc.devRef .tc main_v77) = shapeCast S1x1 (Wv (Proc.devRef .tc main_arg12)) shapeCasts_S1_S1x1 := by
  dsimp only [hostOps4]
  after_results_simp
  rfl
theorem host5_v79 :
    StableHlo.after hostOps5 Wv (Proc.devRef .tc main_v79) = shapeCast S8192 (Wv (Proc.devRef .tc main_v78)) shapeCasts_S8192x1_S8192 := by
  dsimp only [hostOps5]
  after_results_simp
  rfl

end Cert.KernelIdeal.HostV

end
-- ==== Proof.KerKeep.lean ====
/-
  Which buffers each segment of the idealized kernel's @main leaves alone: a stretch of host operations changes only the
  buffers its operations write, a launch only its output array. So the arguments, the message words and the
  normalisation column are read at any later boundary as they stood before the first launch.
-/
import proofs.«129134_j22308060135895_2_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem
open Idealize.ShloMosaic.Pipeline (Dat Cfg Window)
open Cert.KernelIdeal Cert.KernelIdeal.Gen

/-- The buffers `hostOps0` writes. -/
abbrev wr0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem wr0_writes : (hostOps0 : List (HloOp τ sig (Elt Ideal))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps0_1` writes. -/
abbrev wr0_1 : List (Ref sig .tc) := [main_call0_v0, main_call0_v1, main_v16]
theorem wr0_1_writes : (hostOps0_1 : List (HloOp τ sig (Elt Ideal))).Forall fun op => op.writes ⊆ (wr0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps0_2` writes. -/
abbrev wr0_2 : List (Ref sig .tc) := [main_v17]
theorem wr0_2_writes : (hostOps0_2 : List (HloOp τ sig (Elt Ideal))).Forall fun op => op.writes ⊆ (wr0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps1` writes. -/
abbrev wr1 : List (Ref sig .tc) := [main_c, main_v19, main_v20, main_c_4, main_v21, main_v22, main_v23, main_v24, main_v25, main_v26, main_cst_5, main_v27, main_v28, main_v29, main_v30]
theorem wr1_writes : (hostOps1 : List (HloOp τ sig (Elt Ideal))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps2` writes. -/
abbrev wr2 : List (Ref sig .tc) := [main_c_6, main_v32, main_v33, main_c_7, main_v34, main_v35, main_v36, main_v37, main_v38, main_v39, main_cst_8, main_v40, main_v41, main_v42, main_v43]
theorem wr2_writes : (hostOps2 : List (HloOp τ sig (Elt Ideal))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps3` writes. -/
abbrev wr3 : List (Ref sig .tc) := [main_c_9, main_v45, main_v46, main_c_10, main_v47, main_v48, main_v49, main_v50, main_v51, main_v52, main_cst_11, main_v53, main_v54, main_v55, main_v56]
theorem wr3_writes : (hostOps3 : List (HloOp τ sig (Elt Ideal))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps4` writes. -/
abbrev wr4 : List (Ref sig .tc) := [main_v58, main_v59, main_c_12, main_v60, main_v61, main_c_13, main_v62, main_v63, main_v64, main_v65, main_v66, main_v67, main_v68, main_c_14, main_v69, main_v70, main_c_15, main_v71, main_v72, main_v73, main_v74, main_v75, main_v76, main_v77]
theorem wr4_writes : (hostOps4 : List (HloOp τ sig (Elt Ideal))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers `hostOps5` writes. -/
abbrev wr5 : List (Ref sig .tc) := [main_v79]
theorem wr5_writes : (hostOps5 : List (HloOp τ sig (Elt Ideal))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt Ideal) ℓ) (ρ : Dev nD → PrngReg)

/-- Launch 0 changes only its output array. -/
theorem W4_keep (c : Dev nD) (r : Ref sig .tc) (hr : r ≠ main_v18) :
    W4 m ρ c (Proc.devRef .tc r) = W3 m ρ c (Proc.devRef .tc r) := by
  by_cases h0 : r = main_arg0
  · subst h0; exact (W4_arr m ρ c 0).trans (((dat0 (V3 m ρ) c).arrAt_in 0 rfl _).trans (A_eq0 (V3 m ρ) c 0))
  by_cases h1 : r = main_arg3
  · subst h1; exact (W4_arr m ρ c 1).trans (((dat0 (V3 m ρ) c).arrAt_in 1 rfl _).trans (A_eq0 (V3 m ρ) c 1))
  by_cases h2 : r = main_v17
  · subst h2; exact (W4_arr m ρ c 2).trans (((dat0 (V3 m ρ) c).arrAt_in 2 rfl _).trans (A_eq0 (V3 m ρ) c 2))
  refine W4_of_ne m ρ c r fun w => ?_
  match w with
  | ⟨0, _⟩ => exact Ne.symm h0
  | ⟨1, _⟩ => exact Ne.symm h1
  | ⟨2, _⟩ => exact Ne.symm h2
  | ⟨3, _⟩ => exact Ne.symm hr

/-- Launch 1 changes only its output array. -/
theorem W6_keep (c : Dev nD) (r : Ref sig .tc) (hr : r ≠ main_v31) :
    W6 m ρ c (Proc.devRef .tc r) = W5 m ρ c (Proc.devRef .tc r) := by
  by_cases h0 : r = main_v29
  · subst h0; exact (W6_arr m ρ c 0).trans (((dat1 (V5 m ρ) c).arrAt_in 0 rfl _).trans (A_eq1 (V5 m ρ) c 0))
  by_cases h1 : r = main_v17
  · subst h1; exact (W6_arr m ρ c 1).trans (((dat1 (V5 m ρ) c).arrAt_in 1 rfl _).trans (A_eq1 (V5 m ρ) c 1))
  by_cases h2 : r = main_v30
  · subst h2; exact (W6_arr m ρ c 2).trans (((dat1 (V5 m ρ) c).arrAt_in 2 rfl _).trans (A_eq1 (V5 m ρ) c 2))
  by_cases h3 : r = main_arg5
  · subst h3; exact (W6_arr m ρ c 3).trans (((dat1 (V5 m ρ) c).arrAt_in 3 rfl _).trans (A_eq1 (V5 m ρ) c 3))
  refine W6_of_ne m ρ c r fun w => ?_
  match w with
  | ⟨0, _⟩ => exact Ne.symm h0
  | ⟨1, _⟩ => exact Ne.symm h1
  | ⟨2, _⟩ => exact Ne.symm h2
  | ⟨3, _⟩ => exact Ne.symm h3
  | ⟨4, _⟩ => exact Ne.symm hr

/-- Launch 2 changes only its output array. -/
theorem W8_keep (c : Dev nD) (r : Ref sig .tc) (hr : r ≠ main_v44) :
    W8 m ρ c (Proc.devRef .tc r) = W7 m ρ c (Proc.devRef .tc r) := by
  by_cases h0 : r = main_v42
  · subst h0; exact (W8_arr m ρ c 0).trans (((dat2 (V7 m ρ) c).arrAt_in 0 rfl _).trans (A_eq2 (V7 m ρ) c 0))
  by_cases h1 : r = main_v17
  · subst h1; exact (W8_arr m ρ c 1).trans (((dat2 (V7 m ρ) c).arrAt_in 1 rfl _).trans (A_eq2 (V7 m ρ) c 1))
  by_cases h2 : r = main_v43
  · subst h2; exact (W8_arr m ρ c 2).trans (((dat2 (V7 m ρ) c).arrAt_in 2 rfl _).trans (A_eq2 (V7 m ρ) c 2))
  by_cases h3 : r = main_arg7
  · subst h3; exact (W8_arr m ρ c 3).trans (((dat2 (V7 m ρ) c).arrAt_in 3 rfl _).trans (A_eq2 (V7 m ρ) c 3))
  refine W8_of_ne m ρ c r fun w => ?_
  match w with
  | ⟨0, _⟩ => exact Ne.symm h0
  | ⟨1, _⟩ => exact Ne.symm h1
  | ⟨2, _⟩ => exact Ne.symm h2
  | ⟨3, _⟩ => exact Ne.symm h3
  | ⟨4, _⟩ => exact Ne.symm hr

/-- Launch 3 changes only its output array. -/
theorem W10_keep (c : Dev nD) (r : Ref sig .tc) (hr : r ≠ main_v57) :
    W10 m ρ c (Proc.devRef .tc r) = W9 m ρ c (Proc.devRef .tc r) := by
  by_cases h0 : r = main_v55
  · subst h0; exact (W10_arr m ρ c 0).trans (((dat3 (V9 m ρ) c).arrAt_in 0 rfl _).trans (A_eq3 (V9 m ρ) c 0))
  by_cases h1 : r = main_v17
  · subst h1; exact (W10_arr m ρ c 1).trans (((dat3 (V9 m ρ) c).arrAt_in 1 rfl _).trans (A_eq3 (V9 m ρ) c 1))
  by_cases h2 : r = main_v56
  · subst h2; exact (W10_arr m ρ c 2).trans (((dat3 (V9 m ρ) c).arrAt_in 2 rfl _).trans (A_eq3 (V9 m ρ) c 2))
  refine W10_of_ne m ρ c r fun w => ?_
  match w with
  | ⟨0, _⟩ => exact Ne.symm h0
  | ⟨1, _⟩ => exact Ne.symm h1
  | ⟨2, _⟩ => exact Ne.symm h2
  | ⟨3, _⟩ => exact Ne.symm hr

/-- Launch 4 changes only its output array. -/
theorem W12_keep (c : Dev nD) (r : Ref sig .tc) (hr : r ≠ main_v78) :
    W12 m ρ c (Proc.devRef .tc r) = W11 m ρ c (Proc.devRef .tc r) := by
  by_cases h0 : r = main_v66
  · subst h0; exact (W12_arr m ρ c 0).trans (((dat4 (V11 m ρ) c).arrAt_in 0 rfl _).trans (A_eq4 (V11 m ρ) c 0))
  by_cases h1 : r = main_v75
  · subst h1; exact (W12_arr m ρ c 1).trans (((dat4 (V11 m ρ) c).arrAt_in 1 rfl _).trans (A_eq4 (V11 m ρ) c 1))
  by_cases h2 : r = main_arg9
  · subst h2; exact (W12_arr m ρ c 2).trans (((dat4 (V11 m ρ) c).arrAt_in 2 rfl _).trans (A_eq4 (V11 m ρ) c 2))
  by_cases h3 : r = main_v76
  · subst h3; exact (W12_arr m ρ c 3).trans (((dat4 (V11 m ρ) c).arrAt_in 3 rfl _).trans (A_eq4 (V11 m ρ) c 3))
  by_cases h4 : r = main_arg11
  · subst h4; exact (W12_arr m ρ c 4).trans (((dat4 (V11 m ρ) c).arrAt_in 4 rfl _).trans (A_eq4 (V11 m ρ) c 4))
  by_cases h5 : r = main_v77
  · subst h5; exact (W12_arr m ρ c 5).trans (((dat4 (V11 m ρ) c).arrAt_in 5 rfl _).trans (A_eq4 (V11 m ρ) c 5))
  refine W12_of_ne m ρ c r fun w => ?_
  match w with
  | ⟨0, _⟩ => exact Ne.symm h0
  | ⟨1, _⟩ => exact Ne.symm h1
  | ⟨2, _⟩ => exact Ne.symm h2
  | ⟨3, _⟩ => exact Ne.symm h3
  | ⟨4, _⟩ => exact Ne.symm h4
  | ⟨5, _⟩ => exact Ne.symm h5
  | ⟨6, _⟩ => exact Ne.symm hr

end Cert.KernelIdeal.Keep

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«129134_j22308060135895_2_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.Region0.lean ====
/-
  The first convolution's linear step, one launch of the kernel over 25 row blocks of 4000 nodes: what the output array
  holds afterwards. At a grid point the body multiplies the block of feature rows by the whole weight matrix and then,
  row by row, by the block of the normalisation column. Block t of the output is rows 4000·t … 4000·t + 3999, the feature
  and column blocks are the same rows of their arrays, the weight matrix is its one block; so the write-back of point t
  is block t of one whole-array function of the arrays as the region finds them, and the 25 blocks cover the array.
-/
import proofs.«129134_j22308060135895_2_alg».proof.Proof.Gen.KernelIdeal.Frame
import proofs.«129134_j22308060135895_2_alg».proof.Proof.Net
import proofs.«129134_j22308060135895_2_alg».proof.Proof.LibKeepdims
import proofs.«129134_j22308060135895_2_alg».proof.Proof.LibAffineAt
import proofs.«129134_j22308060135895_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLinear Cert.LinkGcn

/-- The body's arithmetic at one entry: the row of the feature block times the column of the weight block, summed over the
    contracted coordinate, times the normalisation column's entry of the row. Rounding to the narrow format is the
    identity at the ideal values. -/
theorem pay_apply (x0 : Vec Ideal S4000x128 .f32) (x1 : Vec Ideal S128x128 .f32) (x2 : Vec Ideal S4000x1 .f32)
    (p : Fin 4000) (q : Fin 128) :
    k0_pay1 x0 x1 x2 (ix2 p q) = (∑ k : Fin 128, x0 (ix2 p k) * x1 (ix2 k q)) * x2 (ix2 p (0 : Fin 1)) := by
  unfold k0_pay1
  rw [truncf_apply, mulf_apply, shapeCast_self, Cert.Lib.Keepdims.broadcastTo_a1_ab_apply,
    Cert.KernelIdeal.Hand.matmul_zero_plain_apply (M := 4000) (K := 128) (N := 128)
      dot_S4000x128_S128x128_S4000x128_1_0_0_1_n_n rfl]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the weight matrix at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem flushed_eq (c : Dev nD) (t : Fin cfg0.N) :
    (dat0 V c).flushed 3 t = ((cfg0.win 3).blk t).view.read (Elt Ideal)
      (scaled (N := 100000) (K := 128) (C := 128) (V c main_arg0) (V c main_arg3) (V c main_v17)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨e00, e01, e10, e11, e20, e21, e30, e31⟩ := idx_facts t
  have ht : t.val < 25 := lt_of_lt_of_eq t.isLt N_0
  funext j
  show k0_pay1 (iblk0 V c 0 t) (iblk0 V c 1 t) (iblk0 V c 2 t) j
     = scaled (N := 100000) (K := 128) (C := 128) (V c main_arg0) (V c main_arg3) (V c main_v17) (((cfg0.win 3).blk t).view.emb j)
  obtain ⟨p, q, rfl⟩ : ∃ (p : Fin 4000) (q : Fin 128), j = ix2 p q := ⟨j 0, j 1, eq_ix2 j⟩
  rw [pay_apply]
  have hp := p.isLt
  have hq := q.isLt
  have hemb : ((cfg0.win 3).blk t).view.emb (ix2 p q) = ix2 (⟨t.val * 4000 + p.val, by omega⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  rw [hemb, scaled_apply]
  have h0 : ∀ k : Fin 128, iblk0 V c 0 t (ix2 p k) = V c main_arg0 (ix2 (⟨t.val * 4000 + p.val, by omega⟩ : Fin 100000) k) := by
    intro k
    have hk := k.isLt
    show V c main_arg0 (((cfg0.win 0).blk t).view.emb (ix2 p k)) = _
    refine congrArg _ ?_
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  have h1 : ∀ k : Fin 128, iblk0 V c 1 t (ix2 k q) = V c main_arg3 (ix2 k q) := by
    intro k
    have hk := k.isLt
    show V c main_arg3 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 p (0 : Fin 1)) = V c main_v17 (ix2 (⟨t.val * 4000 + p.val, by omega⟩ : Fin 100000) (0 : Fin 1)) := by
    show V c main_v17 (((cfg0.win 2).blk t).view.emb (ix2 p (0 : Fin 1))) = _
    refine congrArg _ ?_
    funext a; apply Fin.ext
    match a with
    | ⟨0, _⟩ => show win0_2.index t (0 : Fin 2) * 4000 + 1 * p.val = t.val * 4000 + p.val; omega
    | ⟨1, _⟩ => show win0_2.index t (1 : Fin 2) * 1 + 1 * 0 = 0; omega
  rw [h2]
  exact congrArg (fun z => z * _) (Finset.sum_congr rfl fun k _ => by rw [h0 k, h1 k])

/-- An index of the array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v18).slice (win0_3.rect t)).set ↔ _
  rw [View.set_slice_whole, Rect.mem_set_unit]
  exact Iff.rfl

/-- Every entry of the output array is in the block of the point that holds its row: row r belongs to point r / 4000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨e00, e01, e10, e11, e20, e21, e30, e31⟩ := idx_facts t
  have htv : t.val = (i 0).val / 4000 := rfl
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The array the region leaves: every row of the features times the weight matrix, scaled by the row's entry of the
    normalisation column. -/
theorem final (c : Dev nD) :
    (dat0 V c).arrAt 3 cfg0.N = scaled (N := 100000) (K := 128) (C := 128) (V c main_arg0) (V c main_arg3) (V c main_v17) :=
  (dat0 V c).arrAt_eq_of_cover 3 _ (fun t _ => flushed_eq V c t) cover

end Cert.KernelIdeal.Region0

end
-- ==== Proof.Region1.lean ====
/-
  The first convolution's epilogue fused with the next linear step, one launch of the kernel over 25 row blocks of 4000
  nodes: what the output array holds afterwards. At a grid point the body scales the block of collected sums, row by row,
  by the block of the normalisation column, adds the bias row to every row and takes the maximum with zero; it multiplies
  the result by the whole weight matrix and again, row by row, by the block of the normalisation column. Block t of the
  output is rows 4000·t … 4000·t + 3999, the collected and column blocks are the same rows of their arrays, the bias row
  and the weight matrix are their one block; so the write-back of point t is block t of one whole-array function of the
  arrays as the region finds them, and the 25 blocks cover the array.
-/
import proofs.«129134_j22308060135895_2_alg».proof.Proof.Gen.KernelIdeal.Frame
import proofs.«129134_j22308060135895_2_alg».proof.Proof.Net
import proofs.«129134_j22308060135895_2_alg».proof.Proof.LibKeepdims
import proofs.«129134_j22308060135895_2_alg».proof.Proof.LibAffineAt
import proofs.«129134_j22308060135895_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLinear Cert.LinkGcn

/-- The block product into the zero accumulator at one entry: the sum over the contracted coordinate of the products. -/
theorem mm_apply (A : FVec Ideal S4000x128 .bf16) (B : FVec Ideal S128x128 .bf16) (p : Fin 4000) (q : Fin 128) :
    matmul dot_S4000x128_S128x128_S4000x128_1_0_0_1_n_n none A B (constant S4000x128 .f32 0x00000000#32) (ix2 p q)
      = ∑ k : Fin 128, A (ix2 p k) * B (ix2 k q) :=
  Cert.KernelIdeal.Hand.matmul_zero_plain_apply (M := 4000) (K := 128) (N := 128)
    dot_S4000x128_S128x128_S4000x128_1_0_0_1_n_n rfl none A B (ix2 p q)

/-- The body's arithmetic at one entry: the collected block scaled row by row by the normalisation column, plus the bias
    row, maximum with zero; that row times the column of the weight block, summed over the contracted coordinate; times
    the normalisation column's entry of the row. Rounding to the narrow format is the identity at the ideal values. -/
theorem pay_apply (x0 : Vec Ideal S4000x128 .f32) (x1 : Vec Ideal S4000x1 .f32) (x2 : Vec Ideal S1x128 .f32)
    (x3 : Vec Ideal S128x128 .f32) (x4 : Vec Ideal S4000x1 .f32) (p : Fin 4000) (q : Fin 128) :
    k1_pay1 x0 x1 x2 x3 x4 (ix2 p q)
      = (∑ k : Fin 128, max (x0 (ix2 p k) * x1 (ix2 p (0 : Fin 1)) + x2 (ix2 (0 : Fin 1) k)) (0 : EReal) * x3 (ix2 k q))
        * x4 (ix2 p (0 : Fin 1)) := by
  unfold k1_pay1
  simp only [shapeCast_self]
  rw [truncf_apply, mulf_apply, Cert.Lib.Keepdims.broadcastTo_a1_ab_apply, mm_apply]
  simp only [truncf_apply, maximumf_apply, addf_apply, mulf_apply, Cert.Lib.Keepdims.broadcastTo_a1_ab_apply,
    Cert.LibAffineAt.broadcastTo_oneRow_apply, broadcast_apply]
  have hzero : (FloatOps.ofBits (F := Ideal) .f32 0x00000000#32) = (0 : EReal) := Ideal.ofBits_zero_f32
  rw [hzero]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the bias row and the weight matrix
    at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem flushed_eq (c : Dev nD) (t : Fin cfg1.N) :
    (dat1 V c).flushed 4 t = ((cfg1.win 4).blk t).view.read (Elt Ideal)
      (scaled (N := 100000) (K := 128) (C := 128) (biasRelu (V c main_v29) (V c main_v17) (V c main_v30)) (V c main_arg5) (V c main_v17)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz,
    View.ld_unit_zero (S := S128x128) hz]
  obtain ⟨e00, e01, e10, e11, e20, e21, e30, e31, e40, e41⟩ := idx_facts t
  have ht : t.val < 25 := lt_of_lt_of_eq t.isLt N_1
  funext j
  show k1_pay1 (iblk1 V c 0 t) (iblk1 V c 1 t) (iblk1 V c 2 t) (iblk1 V c 3 t) (iblk1 V c 1 t) j
     = scaled (N := 100000) (K := 128) (C := 128) (biasRelu (V c main_v29) (V c main_v17) (V c main_v30)) (V c main_arg5) (V c main_v17)
        (((cfg1.win 4).blk t).view.emb j)
  obtain ⟨p, q, rfl⟩ : ∃ (p : Fin 4000) (q : Fin 128), j = ix2 p q := ⟨j 0, j 1, eq_ix2 j⟩
  rw [pay_apply]
  have hp := p.isLt
  have hq := q.isLt
  have hemb : ((cfg1.win 4).blk t).view.emb (ix2 p q) = ix2 (⟨t.val * 4000 + p.val, by omega⟩ : Fin 100000) q := by
    funext a; apply Fin.ext
    match a with
    | ⟨0, _⟩ => show win1_4.index t (0 : Fin 2) * 4000 + 1 * p.val = t.val * 4000 + p.val; omega
    | ⟨1, _⟩ => show win1_4.index t (1 : Fin 2) * 128 + 1 * q.val = q.val; omega
  rw [hemb, scaled_apply]
  have h0 : ∀ k : Fin 128, iblk1 V c 0 t (ix2 p k) = V c main_v29 (ix2 (⟨t.val * 4000 + p.val, by omega⟩ : Fin 100000) k) := by
    intro k
    have hk := k.isLt
    show V c main_v29 (((cfg1.win 0).blk t).view.emb (ix2 p k)) = _
    refine congrArg _ ?_
    funext a; apply Fin.ext
    match a with
    | ⟨0, _⟩ => show win1_0.index t (0 : Fin 2) * 4000 + 1 * p.val = t.val * 4000 + p.val; omega
    | ⟨1, _⟩ => show win1_0.index t (1 : Fin 2) * 128 + 1 * k.val = k.val; omega
  have h1 : iblk1 V c 1 t (ix2 p (0 : Fin 1)) = V c main_v17 (ix2 (⟨t.val * 4000 + p.val, by omega⟩ : Fin 100000) (0 : Fin 1)) := by
    show V c main_v17 (((cfg1.win 1).blk t).view.emb (ix2 p (0 : Fin 1))) = _
    refine congrArg _ ?_
    funext a; apply Fin.ext
    match a with
    | ⟨0, _⟩ => show win1_1.index t (0 : Fin 2) * 4000 + 1 * p.val = t.val * 4000 + p.val; omega
    | ⟨1, _⟩ => show win1_1.index t (1 : Fin 2) * 1 + 1 * 0 = 0; omega
  have h2 : ∀ k : Fin 128, iblk1 V c 2 t (ix2 (0 : Fin 1) k) = V c main_v30 (ix2 (0 : Fin 1) k) := by
    intro k
    have hk := k.isLt
    show V c main_v30 (((cfg1.win 2).blk t).view.emb (ix2 (0 : Fin 1) k)) = _
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, iblk1 V c 3 t (ix2 k q) = V c main_arg5 (ix2 k q) := by
    intro k
    have hk := k.isLt
    show V c main_arg5 (((cfg1.win 3).blk t).view.emb (ix2 k q)) = _
    refine congrArg _ ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [h1]
  exact congrArg (fun z => z * _) (Finset.sum_congr rfl fun k _ => by rw [h0 k, h2 k, h3 k, biasRelu_apply])

/-- An index of the array is in point t's block iff each coordinate is in the block's range on its axis. -/
theorem mem_blk (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v31).slice (win1_4.rect t)).set ↔ _
  rw [View.set_slice_whole, Rect.mem_set_unit]
  exact Iff.rfl

/-- Every entry of the output array is in the block of the point that holds its row: row r belongs to point r / 4000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 4000, by rw [show cfg1.N = 25 from N_1]; omega⟩
  obtain ⟨e00, e01, e10, e11, e20, e21, e30, e31, e40, e41⟩ := idx_facts t
  have htv : t.val = (i 0).val / 4000 := rfl
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The array the region leaves: the collected sums scaled by the normalisation column, plus the bias row, maximum with
    zero; every such row times the weight matrix, scaled by the row's entry of the normalisation column. -/
theorem final (c : Dev nD) :
    (dat1 V c).arrAt 4 cfg1.N = scaled (N := 100000) (K := 128) (C := 128)
      (biasRelu (V c main_v29) (V c main_v17) (V c main_v30)) (V c main_arg5) (V c main_v17) :=
  (dat1 V c).arrAt_eq_of_cover 4 _ (fun t _ => flushed_eq V c t) cover

end Cert.KernelIdeal.Region1

end
-- ==== Proof.Region2.lean ====
/-
  The second convolution's epilogue fused with the next linear step, one launch of the kernel over 25 row blocks of 4000
  nodes: what the output array holds afterwards. At a grid point the body scales the block of collected sums, row by row,
  by the block of the normalisation column, adds the bias row to every row and takes the maximum with zero; it multiplies
  the result by the whole weight matrix and again, row by row, by the block of the normalisation column. Block t of the
  output is rows 4000·t … 4000·t + 3999, the collected and column blocks are the same rows of their arrays, the bias row
  and the weight matrix are their one block; so the write-back of point t is block t of one whole-array function of the
  arrays as the region finds them, and the 25 blocks cover the array.
-/
import proofs.«129134_j22308060135895_2_alg».proof.Proof.Gen.KernelIdeal.Frame
import proofs.«129134_j22308060135895_2_alg».proof.Proof.Net
import proofs.«129134_j22308060135895_2_alg».proof.Proof.LibKeepdims
import proofs.«129134_j22308060135895_2_alg».proof.Proof.LibAffineAt
import proofs.«129134_j22308060135895_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLinear Cert.LinkGcn

/-- The block product into the zero accumulator at one entry: the sum over the contracted coordinate of the products. -/
theorem mm_apply (A : FVec Ideal S4000x128 .bf16) (B : FVec Ideal S128x128 .bf16) (p : Fin 4000) (q : Fin 128) :
    matmul dot_S4000x128_S128x128_S4000x128_1_0_0_1_n_n none A B (constant S4000x128 .f32 0x00000000#32) (ix2 p q)
      = ∑ k : Fin 128, A (ix2 p k) * B (ix2 k q) :=
  Cert.KernelIdeal.Hand.matmul_zero_plain_apply (M := 4000) (K := 128) (N := 128)
    dot_S4000x128_S128x128_S4000x128_1_0_0_1_n_n rfl none A B (ix2 p q)

/-- The body's arithmetic at one entry: the collected block scaled row by row by the normalisation column, plus the bias
    row, maximum with zero; that row times the column of the weight block, summed over the contracted coordinate; times
    the normalisation column's entry of the row. Rounding to the narrow format is the identity at the ideal values. -/
theorem pay_apply (x0 : Vec Ideal S4000x128 .f32) (x1 : Vec Ideal S4000x1 .f32) (x2 : Vec Ideal S1x128 .f32)
    (x3 : Vec Ideal S128x128 .f32) (x4 : Vec Ideal S4000x1 .f32) (p : Fin 4000) (q : Fin 128) :
    k2_pay1 x0 x1 x2 x3 x4 (ix2 p q)
      = (∑ k : Fin 128, max (x0 (ix2 p k) * x1 (ix2 p (0 : Fin 1)) + x2 (ix2 (0 : Fin 1) k)) (0 : EReal) * x3 (ix2 k q))
        * x4 (ix2 p (0 : Fin 1)) := by
  unfold k2_pay1
  simp only [shapeCast_self]
  rw [truncf_apply, mulf_apply, Cert.Lib.Keepdims.broadcastTo_a1_ab_apply, mm_apply]
  simp only [truncf_apply, maximumf_apply, addf_apply, mulf_apply, Cert.Lib.Keepdims.broadcastTo_a1_ab_apply,
    Cert.LibAffineAt.broadcastTo_oneRow_apply, broadcast_apply]
  have hzero : (FloatOps.ofBits (F := Ideal) .f32 0x00000000#32) = (0 : EReal) := Ideal.ofBits_zero_f32
  rw [hzero]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the bias row and the weight matrix
    at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem flushed_eq (c : Dev nD) (t : Fin cfg2.N) :
    (dat2 V c).flushed 4 t = ((cfg2.win 4).blk t).view.read (Elt Ideal)
      (scaled (N := 100000) (K := 128) (C := 128) (biasRelu (V c main_v42) (V c main_v17) (V c main_v43)) (V c main_arg7) (V c main_v17)) := by
  show (cfg2.win 4).cut (grid2.coords t) ((dat2 V c).after 4 t) = _
  rw [after2_4]
  unfold out2_4
  rw [View.canon_unit_zero hz]
  simp only [View.ld_unit_zero (S := S4000x128) hz, View.ld_unit_zero (S := S4000x1) hz, View.ld_unit_zero (S := S1x128) hz,
    View.ld_unit_zero (S := S128x128) hz]
  obtain ⟨e00, e01, e10, e11, e20, e21, e30, e31, e40, e41⟩ := idx_facts t
  have ht : t.val < 25 := lt_of_lt_of_eq t.isLt N_2
  funext j
  show k2_pay1 (iblk2 V c 0 t) (iblk2 V c 1 t) (iblk2 V c 2 t) (iblk2 V c 3 t) (iblk2 V c 1 t) j
     = scaled (N := 100000) (K := 128) (C := 128) (biasRelu (V c main_v42) (V c main_v17) (V c main_v43)) (V c main_arg7) (V c main_v17)
        (((cfg2.win 4).blk t).view.emb j)
  obtain ⟨p, q, rfl⟩ : ∃ (p : Fin 4000) (q : Fin 128), j = ix2 p q := ⟨j 0, j 1, eq_ix2 j⟩
  rw [pay_apply]
  have hp := p.isLt
  have hq := q.isLt
  have hemb : ((cfg2.win 4).blk t).view.emb (ix2 p q) = ix2 (⟨t.val * 4000 + p.val, by omega⟩ : Fin 100000) q := by
    funext a; apply Fin.ext
    match a with
    | ⟨0, _⟩ => show win2_4.index t (0 : Fin 2) * 4000 + 1 * p.val = t.val * 4000 + p.val; omega
    | ⟨1, _⟩ => show win2_4.index t (1 : Fin 2) * 128 + 1 * q.val = q.val; omega
  rw [hemb, scaled_apply]
  have h0 : ∀ k : Fin 128, iblk2 V c 0 t (ix2 p k) = V c main_v42 (ix2 (⟨t.val * 4000 + p.val, by omega⟩ : Fin 100000) k) := by
    intro k
    have hk := k.isLt
    show V c main_v42 (((cfg2.win 0).blk t).view.emb (ix2 p k)) = _
    refine congrArg _ ?_
    funext a; apply Fin.ext
    match a with
    | ⟨0, _⟩ => show win2_0.index t (0 : Fin 2) * 4000 + 1 * p.val = t.val * 4000 + p.val; omega
    | ⟨1, _⟩ => show win2_0.index t (1 : Fin 2) * 128 + 1 * k.val = k.val; omega
  have h1 : iblk2 V c 1 t (ix2 p (0 : Fin 1)) = V c main_v17 (ix2 (⟨t.val * 4000 + p.val, by omega⟩ : Fin 100000) (0 : Fin 1)) := by
    show V c main_v17 (((cfg2.win 1).blk t).view.emb (ix2 p (0 : Fin 1))) = _
    refine congrArg _ ?_
    funext a; apply Fin.ext
    match a with
    | ⟨0, _⟩ => show win2_1.index t (0 : Fin 2) * 4000 + 1 * p.val = t.val * 4000 + p.val; omega
    | ⟨1, _⟩ => show win2_1.index t (1 : Fin 2) * 1 + 1 * 0 = 0; omega
  have h2 : ∀ k : Fin 128, iblk2 V c 2 t (ix2 (0 : Fin 1) k) = V c main_v43 (ix2 (0 : Fin 1) k) := by
    intro k
    have hk := k.isLt
    show V c main_v43 (((cfg2.win 2).blk t).view.emb (ix2 (0 : Fin 1) k)) = _
    refine congrArg _ ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, iblk2 V c 3 t (ix2 k q) = V c main_arg7 (ix2 k q) := by
    intro k
    have hk := k.isLt
    show V c main_arg7 (((cfg2.win 3).blk t).view.emb (ix2 k q)) = _
    refine congrArg _ ?_
    funext a; apply Fin.ext
    match a with
    | ⟨0, _⟩ => show win2_3.index t (0 : Fin 2) * 128 + 1 * k.val = k.val; omega
    | ⟨1, _⟩ => show win2_3.index t (1 : Fin 2) * 128 + 1 * q.val = q.val; omega
  rw [h1]
  exact congrArg (fun z => z * _) (Finset.sum_congr rfl fun k _ => by rw [h0 k, h2 k, h3 k, biasRelu_apply])

/-- An index of the array is in point t's block iff each coordinate is in the block's range on its axis. -/
theorem mem_blk (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v44).slice (win2_4.rect t)).set ↔ _
  rw [View.set_slice_whole, Rect.mem_set_unit]
  exact Iff.rfl

/-- Every entry of the output array is in the block of the point that holds its row: row r belongs to point r / 4000. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 4000, by rw [show cfg2.N = 25 from N_2]; omega⟩
  obtain ⟨e00, e01, e10, e11, e20, e21, e30, e31, e40, e41⟩ := idx_facts t
  have htv : t.val = (i 0).val / 4000 := rfl
  refine ⟨t, flush2_4 t, ?_⟩
  rw [mem_blk]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-- The array the region leaves: the collected sums scaled by the normalisation column, plus the bias row, maximum with
    zero; every such row times the weight matrix, scaled by the row's entry of the normalisation column. -/
theorem final (c : Dev nD) :
    (dat2 V c).arrAt 4 cfg2.N = scaled (N := 100000) (K := 128) (C := 128)
      (biasRelu (V c main_v42) (V c main_v17) (V c main_v43)) (V c main_arg7) (V c main_v17) :=
  (dat2 V c).arrAt_eq_of_cover 4 _ (fun t _ => flushed_eq V c t) cover

end Cert.KernelIdeal.Region2

end
-- ==== Proof.Region3.lean ====
/-
  The last convolution's epilogue, one launch of the kernel over 25 row blocks of 4000 nodes: what the output array
  holds afterwards. At a grid point the body multiplies the block of collected sums, row by row, by the block of the
  normalisation column, and adds the bias row to every row. Block t of the output is rows 4000·t … 4000·t + 3999, the
  input blocks are the same rows of their arrays (the bias row is its one block), so the write-back of point t is block t
  of one whole-array function of the arrays as the region finds them; the 25 blocks cover the array.
-/
import proofs.«129134_j22308060135895_2_alg».proof.Proof.Gen.KernelIdeal.Frame
import proofs.«129134_j22308060135895_2_alg».proof.Proof.Net
import proofs.«129134_j22308060135895_2_alg».proof.Proof.LibKeepdims
import proofs.«129134_j22308060135895_2_alg».proof.Proof.LibAffineAt
import Idealize.ShloMosaic.Lib.Pipeline.Value
import Idealize.ShloMosaic.Lib.ValueIdx
import Idealize.ShloMosaic.Lib.ValueLayout

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLinear Cert.LinkGcn

/-- The body's arithmetic at one entry: the block's entry times the column's entry of its row, plus the bias row's entry of
    its column. -/
theorem pay_apply (x0 : Vec Ideal S4000x128 .f32) (x1 : Vec Ideal S4000x1 .f32) (x2 : Vec Ideal S1x128 .f32)
    (p : Fin 4000) (q : Fin 128) :
    k3_pay1 x0 x1 x2 (ix2 p q) = x0 (ix2 p q) * x1 (ix2 p (0 : Fin 1)) + x2 (ix2 (0 : Fin 1) q) := by
  unfold k3_pay1
  rw [addf_apply, mulf_apply, shapeCast_self, shapeCast_self, shapeCast_self,
    Cert.Lib.Keepdims.broadcastTo_a1_ab_apply, Cert.LibAffineAt.broadcastTo_oneRow_apply]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row t, the bias row at its one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed_eq (c : Dev nD) (t : Fin cfg3.N) :
    (dat3 V c).flushed 3 t = ((cfg3.win 3).blk t).view.read (Elt Ideal)
      (scaleBias (N := 100000) (C := 128) (V c main_v55) (V c main_v17) (V c main_v56)) := by
  show (cfg3.win 3).cut (grid3.coords t) ((dat3 V c).after 3 t) = _
  rw [after3_3]
  unfold out3_3
  rw [View.canon_unit_zero hz]
  simp only [View.ld_unit_zero (S := S4000x128) hz, View.ld_unit_zero (S := S4000x1) hz, View.ld_unit_zero (S := S1x128) hz]
  obtain ⟨e00, e01, e10, e11, e20, e21, e30, e31⟩ := idx_facts t
  have ht : t.val < 25 := lt_of_lt_of_eq t.isLt N_3
  funext j
  show k3_pay1 (iblk3 V c 0 t) (iblk3 V c 1 t) (iblk3 V c 2 t) j
     = scaleBias (N := 100000) (C := 128) (V c main_v55) (V c main_v17) (V c main_v56) (((cfg3.win 3).blk t).view.emb j)
  obtain ⟨p, q, rfl⟩ : ∃ (p : Fin 4000) (q : Fin 128), j = ix2 p q := ⟨j 0, j 1, eq_ix2 j⟩
  rw [pay_apply]
  have hp := p.isLt
  have hq := q.isLt
  have hemb : ((cfg3.win 3).blk t).view.emb (ix2 p q) = ix2 (⟨t.val * 4000 + p.val, by omega⟩ : Fin 100000) q := by
    funext a; apply Fin.ext
    match a with
    | ⟨0, _⟩ => show win3_3.index t (0 : Fin 2) * 4000 + 1 * p.val = t.val * 4000 + p.val; omega
    | ⟨1, _⟩ => show win3_3.index t (1 : Fin 2) * 128 + 1 * q.val = q.val; omega
  rw [hemb, scaleBias_apply]
  have h0 : iblk3 V c 0 t (ix2 p q) = V c main_v55 (ix2 (⟨t.val * 4000 + p.val, by omega⟩ : Fin 100000) q) := by
    show V c main_v55 (((cfg3.win 0).blk t).view.emb (ix2 p q)) = _
    refine congrArg _ ?_
    funext a; apply Fin.ext
    match a with
    | ⟨0, _⟩ => show win3_0.index t (0 : Fin 2) * 4000 + 1 * p.val = t.val * 4000 + p.val; omega
    | ⟨1, _⟩ => show win3_0.index t (1 : Fin 2) * 128 + 1 * q.val = q.val; omega
  have h1 : iblk3 V c 1 t (ix2 p (0 : Fin 1)) = V c main_v17 (ix2 (⟨t.val * 4000 + p.val, by omega⟩ : Fin 100000) (0 : Fin 1)) := by
    show V c main_v17 (((cfg3.win 1).blk t).view.emb (ix2 p (0 : Fin 1))) = _
    refine congrArg _ ?_
    funext a; apply Fin.ext
    match a with
    | ⟨0, _⟩ => show win3_1.index t (0 : Fin 2) * 4000 + 1 * p.val = t.val * 4000 + p.val; omega
    | ⟨1, _⟩ => show win3_1.index t (1 : Fin 2) * 1 + 1 * 0 = 0; omega
  have h2 : iblk3 V c 2 t (ix2 (0 : Fin 1) q) = V c main_v56 (ix2 (0 : Fin 1) q) := by
    show V c main_v56 (((cfg3.win 2).blk t).view.emb (ix2 (0 : Fin 1) q)) = _
    refine congrArg _ ?_
    funext a; apply Fin.ext
    match a with
    | ⟨0, _⟩ => show win3_2.index t (0 : Fin 2) * 1 + 1 * 0 = 0; omega
    | ⟨1, _⟩ => show win3_2.index t (1 : Fin 2) * 128 + 1 * q.val = q.val; omega
  rw [h0, h1, h2]

/-- An index of the array is in point t's block iff each coordinate is in the block's range on its axis. -/
theorem mem_blk (t : Fin cfg3.N) (i : S100000x128.Idx) :
    i ∈ ((cfg3.win 3).blk t).view.set ↔ ∀ a : Fin 2, win3_3.index t a * S4000x128.size a ≤ (i a).val
      ∧ (i a).val < win3_3.index t a * S4000x128.size a + S4000x128.size a := by
  show i ∈ ((View.whole main_v57).slice (win3_3.rect t)).set ↔ _
  rw [View.set_slice_whole, Rect.mem_set_unit]
  exact Iff.rfl

/-- Every entry of the output array is in the block of the point that holds its row: row r belongs to point r / 4000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 4000, by rw [show cfg3.N = 25 from N_3]; omega⟩
  obtain ⟨e00, e01, e10, e11, e20, e21, e30, e31⟩ := idx_facts t
  have htv : t.val = (i 0).val / 4000 := rfl
  refine ⟨t, flush3_3 t, ?_⟩
  rw [mem_blk]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 128 ≤ (i 1).val ∧ (i 1).val < win3_3.index t (1 : Fin 2) * 128 + 128; omega

/-- The array the region leaves: every entry of the collected sums times its row's entry of the column, plus the bias
    row's entry of its column. -/
theorem final (c : Dev nD) :
    (dat3 V c).arrAt 3 cfg3.N = scaleBias (N := 100000) (C := 128) (V c main_v55) (V c main_v17) (V c main_v56) :=
  (dat3 V c).arrAt_eq_of_cover 3 _ (fun t _ => flushed_eq V c t) cover

end Cert.KernelIdeal.Region3

end
-- ==== Proof.Region4.lean ====
/-
  The link predictor, one launch of the kernel over 4 blocks of 2048 queries: what the output array holds afterwards.
  At a grid point the body multiplies the two blocks of query rows entry by entry, applies the first weight matrix and
  adds the first bias row to every row, takes the maximum with zero, applies the weight column and adds the last bias
  entry. Block t of the output is rows 2048·t … 2048·t + 2047, the two row blocks are the same rows of their arrays,
  the weights and biases are their one block, so the write-back of point t is block t of one whole-array function of
  the arrays as the region finds them; the 4 blocks cover the array.
-/
import proofs.«129134_j22308060135895_2_alg».proof.Proof.Gen.KernelIdeal.Frame
import proofs.«129134_j22308060135895_2_alg».proof.Proof.Net
import proofs.«129134_j22308060135895_2_alg».proof.Proof.LibKeepdims
import proofs.«129134_j22308060135895_2_alg».proof.Proof.LibAffineAt
import proofs.«129134_j22308060135895_2_alg».proof.Proof.LibMatmulAt
import Idealize.ShloMosaic.Lib.Pipeline.Value
import Idealize.ShloMosaic.Lib.ValueIdx
import Idealize.ShloMosaic.Lib.ValueLayout

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphLinear Cert.LinkGcn

/-- The body's arithmetic at one entry: the two query rows multiplied entry by entry, times the first weights plus the
    first bias row, the maximum with zero, times the weight column, plus the last bias entry. -/
theorem pay_apply (x0 x1 : Vec Ideal S2048x128 .f32) (x2 : Vec Ideal S128x128 .f32) (x3 : Vec Ideal S1x128 .f32)
    (x4 : Vec Ideal S128x1 .f32) (x5 : Vec Ideal S1x1 .f32) (p : Fin 2048) (q : Fin 1) :
    k4_pay1 x0 x1 x2 x3 x4 x5 (ix2 p q)
      = (∑ j : Fin 128, max ((∑ k : Fin 128, (x0 (ix2 p k) * x1 (ix2 p k)) * x2 (ix2 k j)) + x3 (ix2 (0 : Fin 1) j)) (0 : EReal)
          * x4 (ix2 j q)) + x5 (ix2 (0 : Fin 1) q) := by
  unfold k4_pay1
  rw [shapeCast_self, shapeCast_self, shapeCast_self, shapeCast_self,
    Cert.LibAffineAt.block_at (M := 2048) (K := 128) (N := 1) dot_S2048x128_S128x1_S2048x1_1_0_0_1_n_n rfl]
  refine congrArg (fun z => z + x5 (ix2 (0 : Fin 1) q)) (Finset.sum_congr rfl fun j _ => ?_)
  rw [maximumf_apply, Cert.LibAffineAt.block_at (M := 2048) (K := 128) (N := 128) dot_S2048x128_S128x128_S2048x128_1_0_0_1_n_n rfl,
    broadcast_apply]
  exact congrArg (fun z => max ((∑ k : Fin 128, (x0 (ix2 p k) * x1 (ix2 p k)) * x2 (ix2 k j)) + x3 (ix2 (0 : Fin 1) j)) z
    * x4 (ix2 j q)) Ideal.ofBits_zero_f32

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two query-row windows and the output sit at block row t, the weights and
    the biases at their one block. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of point t's block of the first query rows is row 2048·t + p of the array. -/
theorem blk0_apply (c : Dev nD) (t : Fin cfg4.N) (p : Fin 2048) (k : Fin 128) (h : t.val * 2048 + p.val < 8192) :
    iblk4 V c 0 t (ix2 p k) = V c main_v66 (ix2 (⟨t.val * 2048 + p.val, h⟩ : Fin 8192) k) := by
  obtain ⟨e00, e01, -⟩ := idx_facts t
  show V c main_v66 (((cfg4.win 0).blk t).view.emb (ix2 p k)) = _
  refine congrArg _ ?_
  funext a; apply Fin.ext
  match a with
  | ⟨0, _⟩ => show win4_0.index t (0 : Fin 2) * 2048 + 1 * p.val = t.val * 2048 + p.val; omega
  | ⟨1, _⟩ => show win4_0.index t (1 : Fin 2) * 128 + 1 * k.val = k.val; omega

/-- Row p of point t's block of the second query rows is row 2048·t + p of the array. -/
theorem blk1_apply (c : Dev nD) (t : Fin cfg4.N) (p : Fin 2048) (k : Fin 128) (h : t.val * 2048 + p.val < 8192) :
    iblk4 V c 1 t (ix2 p k) = V c main_v75 (ix2 (⟨t.val * 2048 + p.val, h⟩ : Fin 8192) k) := by
  obtain ⟨-, -, e10, e11, -⟩ := idx_facts t
  show V c main_v75 (((cfg4.win 1).blk t).view.emb (ix2 p k)) = _
  refine congrArg _ ?_
  funext a; apply Fin.ext
  match a with
  | ⟨0, _⟩ => show win4_1.index t (0 : Fin 2) * 2048 + 1 * p.val = t.val * 2048 + p.val; omega
  | ⟨1, _⟩ => show win4_1.index t (1 : Fin 2) * 128 + 1 * k.val = k.val; omega

/-- The first weights' block is the whole matrix at every point. -/
theorem blk2_apply (c : Dev nD) (t : Fin cfg4.N) (k j : Fin 128) :
    iblk4 V c 2 t (ix2 k j) = V c main_arg9 (ix2 k j) := by
  obtain ⟨-, -, -, -, e20, e21, -⟩ := idx_facts t
  show V c main_arg9 (((cfg4.win 2).blk t).view.emb (ix2 k j)) = _
  refine congrArg _ ?_
  funext a; apply Fin.ext
  match a with
  | ⟨0, _⟩ => show win4_2.index t (0 : Fin 2) * 128 + 1 * k.val = k.val; omega
  | ⟨1, _⟩ => show win4_2.index t (1 : Fin 2) * 128 + 1 * j.val = j.val; omega

/-- The first bias row's block is the whole row at every point. -/
theorem blk3_apply (c : Dev nD) (t : Fin cfg4.N) (j : Fin 128) :
    iblk4 V c 3 t (ix2 (0 : Fin 1) j) = V c main_v76 (ix2 (0 : Fin 1) j) := by
  obtain ⟨-, -, -, -, -, -, e30, e31, -⟩ := idx_facts t
  show V c main_v76 (((cfg4.win 3).blk t).view.emb (ix2 (0 : Fin 1) j)) = _
  refine congrArg _ ?_
  funext a; apply Fin.ext
  match a with
  | ⟨0, _⟩ => show win4_3.index t (0 : Fin 2) * 1 + 1 * 0 = 0; omega
  | ⟨1, _⟩ => show win4_3.index t (1 : Fin 2) * 128 + 1 * j.val = j.val; omega

/-- The weight column's block is the whole column at every point. -/
theorem blk4_apply (c : Dev nD) (t : Fin cfg4.N) (j : Fin 128) (q : Fin 1) :
    iblk4 V c 4 t (ix2 j q) = V c main_arg11 (ix2 j q) := by
  obtain ⟨-, -, -, -, -, -, -, -, e40, e41, -⟩ := idx_facts t
  show V c main_arg11 (((cfg4.win 4).blk t).view.emb (ix2 j q)) = _
  refine congrArg _ ?_
  funext a; apply Fin.ext
  match a with
  | ⟨0, _⟩ => show win4_4.index t (0 : Fin 2) * 128 + 1 * j.val = j.val; omega
  | ⟨1, _⟩ => show win4_4.index t (1 : Fin 2) * 1 + 1 * q.val = q.val; omega

/-- The last bias entry's block is the entry itself at every point. -/
theorem blk5_apply (c : Dev nD) (t : Fin cfg4.N) (q : Fin 1) :
    iblk4 V c 5 t (ix2 (0 : Fin 1) q) = V c main_v77 (ix2 (0 : Fin 1) q) := by
  obtain ⟨-, -, -, -, -, -, -, -, -, -, e50, e51, -⟩ := idx_facts t
  show V c main_v77 (((cfg4.win 5).blk t).view.emb (ix2 (0 : Fin 1) q)) = _
  refine congrArg _ ?_
  funext a; apply Fin.ext
  match a with
  | ⟨0, _⟩ => show win4_5.index t (0 : Fin 2) * 1 + 1 * 0 = 0; omega
  | ⟨1, _⟩ => show win4_5.index t (1 : Fin 2) * 1 + 1 * q.val = q.val; omega

/-- Entry (p, q) of point t's output block is entry (2048·t + p, q) of the array. -/
theorem emb6 (t : Fin cfg4.N) (p : Fin 2048) (q : Fin 1) (h : t.val * 2048 + p.val < 8192) :
    ((cfg4.win 6).blk t).view.emb (ix2 p q) = ix2 (⟨t.val * 2048 + p.val, h⟩ : Fin 8192) q := by
  obtain ⟨-, -, -, -, -, -, -, -, -, -, -, -, e60, e61⟩ := idx_facts t
  funext a; apply Fin.ext
  match a with
  | ⟨0, _⟩ => show win4_6.index t (0 : Fin 2) * 2048 + 1 * p.val = t.val * 2048 + p.val; omega
  | ⟨1, _⟩ => show win4_6.index t (1 : Fin 2) * 1 + 1 * q.val = q.val; omega

theorem flushed_eq (c : Dev nD) (t : Fin cfg4.N) :
    (dat4 V c).flushed 6 t = ((cfg4.win 6).blk t).view.read (Elt Ideal)
      (mlp (B := 8192) (H := 128) (O := 1) (rowsMul (V c main_v66) (V c main_v75)) (V c main_arg9) (V c main_v76)
        (V c main_arg11) (V c main_v77)) := by
  show (cfg4.win 6).cut (grid4.coords t) ((dat4 V c).after 6 t) = _
  rw [after4_6]
  unfold out4_6
  rw [View.canon_unit_zero hz]
  simp only [View.ld_unit_zero (S := S2048x128) hz, View.ld_unit_zero (S := S128x128) hz, View.ld_unit_zero (S := S1x128) hz,
    View.ld_unit_zero (S := S128x1) hz, View.ld_unit_zero (S := S1x1) hz]
  have ht : t.val < 4 := lt_of_lt_of_eq t.isLt N_4
  funext j
  show k4_pay1 (iblk4 V c 0 t) (iblk4 V c 1 t) (iblk4 V c 2 t) (iblk4 V c 3 t) (iblk4 V c 4 t) (iblk4 V c 5 t) j
     = mlp (B := 8192) (H := 128) (O := 1) (rowsMul (V c main_v66) (V c main_v75)) (V c main_arg9) (V c main_v76)
        (V c main_arg11) (V c main_v77) (((cfg4.win 6).blk t).view.emb j)
  obtain ⟨p, q, rfl⟩ : ∃ (p : Fin 2048) (q : Fin 1), j = ix2 p q := ⟨j 0, j 1, eq_ix2 j⟩
  have hp := p.isLt
  have hr : t.val * 2048 + p.val < 8192 := by omega
  rw [pay_apply, emb6 t p q hr, mlp_apply, blk5_apply]
  refine congrArg (fun z => z + V c main_v77 (ix2 (0 : Fin 1) q)) (Finset.sum_congr rfl fun j _ => ?_)
  rw [blk3_apply, blk4_apply]
  refine congrArg (fun z => max (z + V c main_v76 (ix2 (0 : Fin 1) j)) (0 : EReal) * V c main_arg11 (ix2 j q))
    (Finset.sum_congr rfl fun k _ => ?_)
  rw [blk0_apply V c t p k hr, blk1_apply V c t p k hr, blk2_apply]
  rfl

/-- An index of the array is in point t's block iff each coordinate is in the block's range on its axis. -/
theorem mem_blk (t : Fin cfg4.N) (i : S8192x1.Idx) :
    i ∈ ((cfg4.win 6).blk t).view.set ↔ ∀ a : Fin 2, win4_6.index t a * S2048x1.size a ≤ (i a).val
      ∧ (i a).val < win4_6.index t a * S2048x1.size a + S2048x1.size a := by
  show i ∈ ((View.whole main_v78).slice (win4_6.rect t)).set ↔ _
  rw [View.set_slice_whole, Rect.mem_set_unit]
  exact Iff.rfl

/-- Every entry of the output array is in the block of the point that holds its row: row r belongs to point r / 2048. -/
theorem cover (i : S8192x1.Idx) :
    ∃ t : Fin cfg4.N, (cfg4.win 6).flush t = true ∧ i ∈ ((cfg4.win 6).blk t).view.set := by
  have hi0 : (i 0).val < 8192 := (i 0).isLt
  have hi1 : (i 1).val < 1 := (i 1).isLt
  let t : Fin cfg4.N := ⟨(i 0).val / 2048, by rw [show cfg4.N = 4 from N_4]; omega⟩
  obtain ⟨-, -, -, -, -, -, -, -, -, -, -, -, e60, e61⟩ := idx_facts t
  have htv : t.val = (i 0).val / 2048 := rfl
  refine ⟨t, flush4_6 t, ?_⟩
  rw [mem_blk]
  intro a
  match a with
  | ⟨0, _⟩ => show win4_6.index t (0 : Fin 2) * 2048 ≤ (i 0).val ∧ (i 0).val < win4_6.index t (0 : Fin 2) * 2048 + 2048; omega
  | ⟨1, _⟩ => show win4_6.index t (1 : Fin 2) * 1 ≤ (i 1).val ∧ (i 1).val < win4_6.index t (1 : Fin 2) * 1 + 1; omega

/-- The array the region leaves: for every query, the predictor's two dense layers on the entry-by-entry product of its
    two rows. -/
theorem final (c : Dev nD) :
    (dat4 V c).arrAt 6 cfg4.N = mlp (B := 8192) (H := 128) (O := 1) (rowsMul (V c main_v66) (V c main_v75))
      (V c main_arg9) (V c main_v76) (V c main_arg11) (V c main_v77) :=
  (dat4 V c).arrAt_eq_of_cover 6 _ (fun t _ => flushed_eq V c t) cover

end Cert.KernelIdeal.Region4

end
-- ==== Proof.LibCollect.lean ====
/-
  Rows gathered along the messages and added into zeros, read as one collecting sum.

  A row gather of a table at the source column followed by a segment sum into an array of zeros at the destination column
  leaves at (n, k) the sum, over the messages that land on n, of the table's entry at (the message's source row, k): the
  gather keeps columns, the segment sum adds the updates of column k that land on row n, and the zero it starts from adds
  nothing. No finiteness is needed.
-/
import Idealize.ShloMosaic.Lib.IdealHost
import proofs.«129134_j22308060135895_2_alg».proof.Proof.LibGraphLayers

noncomputable section

namespace Cert.GraphLinear

open Idealize.ShloMosaic Idealize.ShloMosaic.ValueIdx Cert.SegmentSum Cert.KernelIdeal.Hand

theorem scatter_gather_eq_collect {N E C w w' : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowDims N E C wf)
    (hb : (⟨0, ![]⟩ : Shape).BroadcastsInDim ⟨2, ![N, C]⟩ ![])
    (dstc : IVec ⟨2, ![E, 1]⟩ w) (srcc : IVec ⟨2, ![E, 1]⟩ w') (t : FVec Ideal ⟨2, ![N, C]⟩ .f32) :
    Host.scatterAdd ds (broadcastInDim ⟨2, ![N, C]⟩ ![] hb (constant (F := Ideal) ⟨0, ![]⟩ .f32 0x00000000#32)) dstc
        (Host.gather dg t srcc)
      = collect hN dstc srcc t := by
  subst hdg
  funext i
  obtain ⟨n, k, rfl⟩ : ∃ (n : Fin N) (k : Fin C), i = ix2 n k := ⟨i 0, i 1, eq_ix2 i⟩
  show Ideal.hostScatterAdd ds (broadcastInDim ⟨2, ![N, C]⟩ ![] hb (constant (F := Ideal) ⟨0, ![]⟩ .f32 0x00000000#32)) dstc
      (fun j => Host.gather (rowDims N E C wf) t srcc j) (ix2 n k) = _
  rw [scatterAdd_rows_apply ds h1 h2 h3 h4, collect_apply, broadcastInDim_scalar_apply, constant_apply,
    Ideal.ofBits_zero_f32, zero_add]
  exact Finset.sum_congr rfl fun e _ => gather_rows_apply hN wf t srcc e k

end Cert.GraphLinear

end
-- ==== Proof.KerChain.lean ====
/-
  The idealized kernel's result buffer at the last boundary, followed back through the thirteen segments of @main to the
  arguments: each launch leaves its output array at its whole-array function of the arrays it found, each stretch of host
  operations gathers the rows along the messages and adds them into zeros (which is the collecting sum), and nothing in
  between touches the arguments, the message words or the normalisation column. Put together, the result is the
  three-layer network in the split arrangement followed by the link predictor.
-/
import proofs.«129134_j22308060135895_2_alg».proof.Proof.Gen.KernelIdeal.Frame
import proofs.«129134_j22308060135895_2_alg».proof.Proof.KerForms
import proofs.«129134_j22308060135895_2_alg».proof.Proof.KerHost
import proofs.«129134_j22308060135895_2_alg».proof.Proof.KerKeep
import proofs.«129134_j22308060135895_2_alg».proof.Proof.Region0
import proofs.«129134_j22308060135895_2_alg».proof.Proof.Region1
import proofs.«129134_j22308060135895_2_alg».proof.Proof.Region2
import proofs.«129134_j22308060135895_2_alg».proof.Proof.Region3
import proofs.«129134_j22308060135895_2_alg».proof.Proof.Region4
import proofs.«129134_j22308060135895_2_alg».proof.Proof.LibCollect
import proofs.«129134_j22308060135895_2_alg».proof.Proof.LibKeepdims

set_option maxRecDepth 16384

noncomputable section

namespace Cert.KernelIdeal.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Forms Cert.KernelIdeal.HostV Cert.KernelIdeal.Keep
open Cert.GraphLinear Cert.LinkGcn Cert.KernelIdeal.Hand

/-! ## Gathered rows added into zeros are the collecting sum; a row gather reads rows -/

/-- The host stretch between two launches: rows of the table at the wrapped source words, added into zeros at the
    destination words, is every node's sum over the messages that land on it. -/
theorem aggV_eq_collect (hw : FVec Ideal S100000x128 .bf16) (src dst : IVec S1700000 32) :
    aggV hw src dst = collect (N := 100000) (E := 1700000) (C := 128) hN (colV dst) (colV (wrapV src)) hw :=
  scatter_gather_eq_collect hN scatter_S100000x128_S1700000x1_S1700000x128_1_0_0_1 rfl rfl rfl rfl
    gather_S100000x128_S1700000x1_S1700000x128_1_0_n_n_0_1_1128.wf gather_S100000x128_S1700000x1_S1700000x128_1_0_n_n_0_1_1128 rfl
    bcast_S_S100000x128 (colV dst) (colV (wrapV src)) hw

variable (m : (ℓ : Loc nD τ sig) → Buf (Elt Ideal) ℓ) (ρ : Dev nD → PrngReg) (c : Dev nD)

/-! ## What no later segment writes -/

/-- The arguments, the message words and the normalisation column. -/
abbrev stab : List (Ref sig .tc) := [main_arg0, main_arg1, main_arg2, main_arg3, main_arg4, main_arg5, main_arg6, main_arg7, main_arg8, main_arg9, main_arg10, main_arg11, main_arg12, main_v3, main_v6, main_v17]

theorem stab_ne18 : ∀ r ∈ stab, r ≠ main_v18 := by decide
theorem stab_n1 : ∀ r ∈ stab, r ∉ wr1 := by decide
theorem stab_ne31 : ∀ r ∈ stab, r ≠ main_v31 := by decide
theorem stab_n2 : ∀ r ∈ stab, r ∉ wr2 := by decide
theorem stab_ne44 : ∀ r ∈ stab, r ≠ main_v44 := by decide
theorem stab_n3 : ∀ r ∈ stab, r ∉ wr3 := by decide
theorem stab_ne57 : ∀ r ∈ stab, r ≠ main_v57 := by decide
theorem stab_n4 : ∀ r ∈ stab, r ∉ wr4 := by decide

theorem keep4 (r : Ref sig .tc) (hr : r ∈ stab) : W4 m ρ c (Proc.devRef .tc r) = W3 m ρ c (Proc.devRef .tc r) :=
  W4_keep m ρ c r (stab_ne18 r hr)
theorem keep5 (r : Ref sig .tc) (hr : r ∈ stab) : W5 m ρ c (Proc.devRef .tc r) = W3 m ρ c (Proc.devRef .tc r) :=
  (StableHlo.after_of_writes_sub hostOps1 _ wr1_writes (stab_n1 r hr)).trans (keep4 m ρ c r hr)
theorem keep6 (r : Ref sig .tc) (hr : r ∈ stab) : W6 m ρ c (Proc.devRef .tc r) = W3 m ρ c (Proc.devRef .tc r) :=
  (W6_keep m ρ c r (stab_ne31 r hr)).trans (keep5 m ρ c r hr)
theorem keep7 (r : Ref sig .tc) (hr : r ∈ stab) : W7 m ρ c (Proc.devRef .tc r) = W3 m ρ c (Proc.devRef .tc r) :=
  (StableHlo.after_of_writes_sub hostOps2 _ wr2_writes (stab_n2 r hr)).trans (keep6 m ρ c r hr)
theorem keep8 (r : Ref sig .tc) (hr : r ∈ stab) : W8 m ρ c (Proc.devRef .tc r) = W3 m ρ c (Proc.devRef .tc r) :=
  (W8_keep m ρ c r (stab_ne44 r hr)).trans (keep7 m ρ c r hr)
theorem keep9 (r : Ref sig .tc) (hr : r ∈ stab) : W9 m ρ c (Proc.devRef .tc r) = W3 m ρ c (Proc.devRef .tc r) :=
  (StableHlo.after_of_writes_sub hostOps3 _ wr3_writes (stab_n3 r hr)).trans (keep8 m ρ c r hr)
theorem keep10 (r : Ref sig .tc) (hr : r ∈ stab) : W10 m ρ c (Proc.devRef .tc r) = W3 m ρ c (Proc.devRef .tc r) :=
  (W10_keep m ρ c r (stab_ne57 r hr)).trans (keep9 m ρ c r hr)
theorem keep11 (r : Ref sig .tc) (hr : r ∈ stab) : W11 m ρ c (Proc.devRef .tc r) = W3 m ρ c (Proc.devRef .tc r) :=
  (StableHlo.after_of_writes_sub hostOps4 _ wr4_writes (stab_n4 r hr)).trans (keep10 m ρ c r hr)

/-! ## The first boundary -/

/-- An argument is still as launched when the first launch starts. -/
theorem W3_arg (r : Ref sig .tc) (h0 : r ∉ wr0) (h1 : r ∉ wr0_1) (h2 : r ∉ wr0_2) :
    W3 m ρ c (Proc.devRef .tc r) = m ((c.tc : Thread nD τ).loc r) :=
  (StableHlo.after_of_writes_sub hostOps0_2 _ wr0_2_writes h2).trans
    ((StableHlo.after_of_writes_sub hostOps0_1 _ wr0_1_writes h1).trans
      (StableHlo.after_of_writes_sub hostOps0 _ wr0_writes h0))

theorem W3_v3 : W3 m ρ c (Proc.devRef .tc main_v3) = srcV (m ((c.tc : Thread nD τ).loc main_arg1)) := pre_v3 (W0 m ρ c)
theorem W3_v6 : W3 m ρ c (Proc.devRef .tc main_v6) = dstV (m ((c.tc : Thread nD τ).loc main_arg1)) := pre_v6 (W0 m ρ c)
theorem W3_v17 : W3 m ρ c (Proc.devRef .tc main_v17) = (shapeCast S100000x1 (dinvV (dstV (m ((c.tc : Thread nD τ).loc main_arg1)))) shapeCasts_S100000_S100000x1) := pre_v17 (W0 m ρ c)

/-! ## Launch by launch -/

theorem W4_v18 : W4 m ρ c (Proc.devRef .tc main_v18) = (scaled (N := 100000) (K := 128) (C := 128) (m ((c.tc : Thread nD τ).loc main_arg0)) (m ((c.tc : Thread nD τ).loc main_arg3)) (shapeCast S100000x1 (dinvV (dstV (m ((c.tc : Thread nD τ).loc main_arg1)))) shapeCasts_S100000_S100000x1)) := by
  rw [W4_arr m ρ c 3, Cert.KernelIdeal.Region0.final (V3 m ρ) c]
  show scaled (W3 m ρ c (Proc.devRef .tc main_arg0)) (W3 m ρ c (Proc.devRef .tc main_arg3)) (W3 m ρ c (Proc.devRef .tc main_v17)) = _
  rw [W3_arg m ρ c main_arg0 (by decide) (by decide) (by decide), W3_arg m ρ c main_arg3 (by decide) (by decide) (by decide), W3_v17]

theorem W5_v29 : W5 m ρ c (Proc.devRef .tc main_v29) = (collect (N := 100000) (E := 1700000) (C := 128) hN (colV (dstV (m ((c.tc : Thread nD τ).loc main_arg1)))) (colV (wrapV (srcV (m ((c.tc : Thread nD τ).loc main_arg1))))) (scaled (N := 100000) (K := 128) (C := 128) (m ((c.tc : Thread nD τ).loc main_arg0)) (m ((c.tc : Thread nD τ).loc main_arg3)) (shapeCast S100000x1 (dinvV (dstV (m ((c.tc : Thread nD τ).loc main_arg1)))) shapeCasts_S100000_S100000x1))) := by
  show StableHlo.after hostOps1 (W4 m ρ c) (Proc.devRef .tc main_v29) = _
  rw [host1_v29, W4_v18, keep4 m ρ c main_v3 (by decide), keep4 m ρ c main_v6 (by decide), W3_v3, W3_v6, aggV_eq_collect]

theorem W5_v30 : W5 m ρ c (Proc.devRef .tc main_v30) = (shapeCast S1x128 (m ((c.tc : Thread nD τ).loc main_arg4)) shapeCasts_S128_S1x128) := by
  show StableHlo.after hostOps1 (W4 m ρ c) (Proc.devRef .tc main_v30) = _
  rw [host1_v30, keep4 m ρ c main_arg4 (by decide), W3_arg m ρ c main_arg4 (by decide) (by decide) (by decide)]

theorem W6_v31 : W6 m ρ c (Proc.devRef .tc main_v31) = (scaled (N := 100000) (K := 128) (C := 128) (layerSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128)) (m ((c.tc : Thread nD τ).loc main_arg5)) (shapeCast S100000x1 (dinvV (dstV (m ((c.tc : Thread nD τ).loc main_arg1)))) shapeCasts_S100000_S100000x1)) := by
  rw [W6_arr m ρ c 4, Cert.KernelIdeal.Region1.final (V5 m ρ) c]
  show scaled (biasRelu (W5 m ρ c (Proc.devRef .tc main_v29)) (W5 m ρ c (Proc.devRef .tc main_v17)) (W5 m ρ c (Proc.devRef .tc main_v30)))
    (W5 m ρ c (Proc.devRef .tc main_arg5)) (W5 m ρ c (Proc.devRef .tc main_v17)) = _
  rw [W5_v29, W5_v30, keep5 m ρ c main_v17 (by decide), keep5 m ρ c main_arg5 (by decide), W3_v17,
    W3_arg m ρ c main_arg5 (by decide) (by decide) (by decide)]
  rfl

theorem W7_v42 : W7 m ρ c (Proc.devRef .tc main_v42) = (collect (N := 100000) (E := 1700000) (C := 128) hN (colV (dstV (m ((c.tc : Thread nD τ).loc main_arg1)))) (colV (wrapV (srcV (m ((c.tc : Thread nD τ).loc main_arg1))))) (scaled (N := 100000) (K := 128) (C := 128) (layerSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128)) (m ((c.tc : Thread nD τ).loc main_arg5)) (shapeCast S100000x1 (dinvV (dstV (m ((c.tc : Thread nD τ).loc main_arg1)))) shapeCasts_S100000_S100000x1))) := by
  show StableHlo.after hostOps2 (W6 m ρ c) (Proc.devRef .tc main_v42) = _
  rw [host2_v42, W6_v31, keep6 m ρ c main_v3 (by decide), keep6 m ρ c main_v6 (by decide), W3_v3, W3_v6, aggV_eq_collect]

theorem W7_v43 : W7 m ρ c (Proc.devRef .tc main_v43) = (shapeCast S1x128 (m ((c.tc : Thread nD τ).loc main_arg6)) shapeCasts_S128_S1x128) := by
  show StableHlo.after hostOps2 (W6 m ρ c) (Proc.devRef .tc main_v43) = _
  rw [host2_v43, keep6 m ρ c main_arg6 (by decide), W3_arg m ρ c main_arg6 (by decide) (by decide) (by decide)]

theorem W8_v44 : W8 m ρ c (Proc.devRef .tc main_v44) = (scaled (N := 100000) (K := 128) (C := 128) (layerSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (layerSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128)) (m ((c.tc : Thread nD τ).loc main_arg5)) (shapeCast S1x128 (m ((c.tc : Thread nD τ).loc main_arg6)) shapeCasts_S128_S1x128)) (m ((c.tc : Thread nD τ).loc main_arg7)) (shapeCast S100000x1 (dinvV (dstV (m ((c.tc : Thread nD τ).loc main_arg1)))) shapeCasts_S100000_S100000x1)) := by
  rw [W8_arr m ρ c 4, Cert.KernelIdeal.Region2.final (V7 m ρ) c]
  show scaled (biasRelu (W7 m ρ c (Proc.devRef .tc main_v42)) (W7 m ρ c (Proc.devRef .tc main_v17)) (W7 m ρ c (Proc.devRef .tc main_v43)))
    (W7 m ρ c (Proc.devRef .tc main_arg7)) (W7 m ρ c (Proc.devRef .tc main_v17)) = _
  rw [W7_v42, W7_v43, keep7 m ρ c main_v17 (by decide), keep7 m ρ c main_arg7 (by decide), W3_v17,
    W3_arg m ρ c main_arg7 (by decide) (by decide) (by decide)]
  rfl

theorem W9_v55 : W9 m ρ c (Proc.devRef .tc main_v55) = (collect (N := 100000) (E := 1700000) (C := 128) hN (colV (dstV (m ((c.tc : Thread nD τ).loc main_arg1)))) (colV (wrapV (srcV (m ((c.tc : Thread nD τ).loc main_arg1))))) (scaled (N := 100000) (K := 128) (C := 128) (layerSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (layerSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128)) (m ((c.tc : Thread nD τ).loc main_arg5)) (shapeCast S1x128 (m ((c.tc : Thread nD τ).loc main_arg6)) shapeCasts_S128_S1x128)) (m ((c.tc : Thread nD τ).loc main_arg7)) (shapeCast S100000x1 (dinvV (dstV (m ((c.tc : Thread nD τ).loc main_arg1)))) shapeCasts_S100000_S100000x1))) := by
  show StableHlo.after hostOps3 (W8 m ρ c) (Proc.devRef .tc main_v55) = _
  rw [host3_v55, W8_v44, keep8 m ρ c main_v3 (by decide), keep8 m ρ c main_v6 (by decide), W3_v3, W3_v6, aggV_eq_collect]

theorem W9_v56 : W9 m ρ c (Proc.devRef .tc main_v56) = (shapeCast S1x128 (m ((c.tc : Thread nD τ).loc main_arg8)) shapeCasts_S128_S1x128) := by
  show StableHlo.after hostOps3 (W8 m ρ c) (Proc.devRef .tc main_v56) = _
  rw [host3_v56, keep8 m ρ c main_arg8 (by decide), W3_arg m ρ c main_arg8 (by decide) (by decide) (by decide)]

/-- After the fourth launch the node embeddings are the three layers in the split arrangement. -/
theorem W10_v57 : W10 m ρ c (Proc.devRef .tc main_v57) = (gcnSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128) (m ((c.tc : Thread nD τ).loc main_arg5)) (shapeCast S1x128 (m ((c.tc : Thread nD τ).loc main_arg6)) shapeCasts_S128_S1x128) (m ((c.tc : Thread nD τ).loc main_arg7)) (shapeCast S1x128 (m ((c.tc : Thread nD τ).loc main_arg8)) shapeCasts_S128_S1x128)) := by
  rw [W10_arr m ρ c 3, Cert.KernelIdeal.Region3.final (V9 m ρ) c]
  show scaleBias (W9 m ρ c (Proc.devRef .tc main_v55)) (W9 m ρ c (Proc.devRef .tc main_v17)) (W9 m ρ c (Proc.devRef .tc main_v56)) = _
  rw [W9_v55, W9_v56, keep9 m ρ c main_v17 (by decide), W3_v17]
  rfl

/-! ## The link predictor -/

theorem W11_v66 : W11 m ρ c (Proc.devRef .tc main_v66) = (Host.gather gather_S100000x128_S8192x1_S8192x128_1_0_n_n_0_1_1128 (gcnSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128) (m ((c.tc : Thread nD τ).loc main_arg5)) (shapeCast S1x128 (m ((c.tc : Thread nD τ).loc main_arg6)) shapeCasts_S128_S1x128) (m ((c.tc : Thread nD τ).loc main_arg7)) (shapeCast S1x128 (m ((c.tc : Thread nD τ).loc main_arg8)) shapeCasts_S128_S1x128)) (queryV (m ((c.tc : Thread nD τ).loc main_arg2)) 0)) := by
  show StableHlo.after hostOps4 (W10 m ρ c) (Proc.devRef .tc main_v66) = _
  rw [host4_v66, W10_v57, keep10 m ρ c main_arg2 (by decide), W3_arg m ρ c main_arg2 (by decide) (by decide) (by decide)]
theorem W11_v75 : W11 m ρ c (Proc.devRef .tc main_v75) = (Host.gather gather_S100000x128_S8192x1_S8192x128_1_0_n_n_0_1_1128 (gcnSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128) (m ((c.tc : Thread nD τ).loc main_arg5)) (shapeCast S1x128 (m ((c.tc : Thread nD τ).loc main_arg6)) shapeCasts_S128_S1x128) (m ((c.tc : Thread nD τ).loc main_arg7)) (shapeCast S1x128 (m ((c.tc : Thread nD τ).loc main_arg8)) shapeCasts_S128_S1x128)) (queryV (m ((c.tc : Thread nD τ).loc main_arg2)) 1)) := by
  show StableHlo.after hostOps4 (W10 m ρ c) (Proc.devRef .tc main_v75) = _
  rw [host4_v75, W10_v57, keep10 m ρ c main_arg2 (by decide), W3_arg m ρ c main_arg2 (by decide) (by decide) (by decide)]
theorem W11_v76 : W11 m ρ c (Proc.devRef .tc main_v76) = (shapeCast S1x128 (m ((c.tc : Thread nD τ).loc main_arg10)) shapeCasts_S128_S1x128) := by
  show StableHlo.after hostOps4 (W10 m ρ c) (Proc.devRef .tc main_v76) = _
  rw [host4_v76, keep10 m ρ c main_arg10 (by decide), W3_arg m ρ c main_arg10 (by decide) (by decide) (by decide)]
theorem W11_v77 : W11 m ρ c (Proc.devRef .tc main_v77) = (shapeCast S1x1 (m ((c.tc : Thread nD τ).loc main_arg12)) shapeCasts_S1_S1x1) := by
  show StableHlo.after hostOps4 (W10 m ρ c) (Proc.devRef .tc main_v77) = _
  rw [host4_v77, keep10 m ρ c main_arg12 (by decide), W3_arg m ρ c main_arg12 (by decide) (by decide) (by decide)]

/-- The two gathered arrays of rows, multiplied entry by entry, are the queried pairs of rows multiplied. -/
theorem gathered_eq_pairRows (h : FVec Ideal S100000x128 .f32) (ri : IVec S8192x2 32) :
    rowsMul (B := 8192) (C := 128) (Host.gather gather_S100000x128_S8192x1_S8192x128_1_0_n_n_0_1_1128 h (queryV ri 0)) (Host.gather gather_S100000x128_S8192x1_S8192x128_1_0_n_n_0_1_1128 h (queryV ri 1))
      = pairRows (N := 100000) (B := 8192) (C := 128) hN (queryV ri 0) (queryV ri 1) h := by
  funext i
  obtain ⟨b, k, rfl⟩ : ∃ (b : Fin 8192) (k : Fin 128), i = ix2 b k := ⟨i 0, i 1, eq_ix2 i⟩
  have hg : ∀ idx : IVec S8192x1 32, Host.gather gather_S100000x128_S8192x1_S8192x128_1_0_n_n_0_1_1128 h idx (ix2 b k) = h (ix2 (rowOf hN idx b) k) :=
    fun idx => gather_rows_apply hN gather_S100000x128_S8192x1_S8192x128_1_0_n_n_0_1_1128_wf h idx b k
  show Host.gather gather_S100000x128_S8192x1_S8192x128_1_0_n_n_0_1_1128 h (queryV ri 0) (ix2 b k) * Host.gather gather_S100000x128_S8192x1_S8192x128_1_0_n_n_0_1_1128 h (queryV ri 1) (ix2 b k) = _
  rw [hg, hg]
  rfl

theorem W12_v78 : W12 m ρ c (Proc.devRef .tc main_v78)
    = mlp (B := 8192) (H := 128) (O := 1) (pairRows (N := 100000) (B := 8192) (C := 128) hN (queryV (m ((c.tc : Thread nD τ).loc main_arg2)) 0) (queryV (m ((c.tc : Thread nD τ).loc main_arg2)) 1) (gcnSplit (N := 100000) (E := 1700000) (C := 128) hN (colV (dstV (m ((c.tc : Thread nD τ).loc main_arg1)))) (colV (wrapV (srcV (m ((c.tc : Thread nD τ).loc main_arg1))))) (shapeCast S100000x1 (dinvV (dstV (m ((c.tc : Thread nD τ).loc main_arg1)))) shapeCasts_S100000_S100000x1) (m ((c.tc : Thread nD τ).loc main_arg0)) (m ((c.tc : Thread nD τ).loc main_arg3)) (shapeCast S1x128 (m ((c.tc : Thread nD τ).loc main_arg4)) shapeCasts_S128_S1x128) (m ((c.tc : Thread nD τ).loc main_arg5)) (shapeCast S1x128 (m ((c.tc : Thread nD τ).loc main_arg6)) shapeCasts_S128_S1x128) (m ((c.tc : Thread nD τ).loc main_arg7)) (shapeCast S1x128 (m ((c.tc : Thread nD τ).loc main_arg8)) shapeCasts_S128_S1x128)))
        (m ((c.tc : Thread nD τ).loc main_arg9)) (shapeCast S1x128 (m ((c.tc : Thread nD τ).loc main_arg10)) shapeCasts_S128_S1x128) (m ((c.tc : Thread nD τ).loc main_arg11)) (shapeCast S1x1 (m ((c.tc : Thread nD τ).loc main_arg12)) shapeCasts_S1_S1x1) := by
  rw [W12_arr m ρ c 6, Cert.KernelIdeal.Region4.final (V11 m ρ) c]
  show mlp (rowsMul (W11 m ρ c (Proc.devRef .tc main_v66)) (W11 m ρ c (Proc.devRef .tc main_v75))) (W11 m ρ c (Proc.devRef .tc main_arg9))
    (W11 m ρ c (Proc.devRef .tc main_v76)) (W11 m ρ c (Proc.devRef .tc main_arg11)) (W11 m ρ c (Proc.devRef .tc main_v77)) = _
  rw [W11_v66, W11_v75, W11_v76, W11_v77, keep11 m ρ c main_arg9 (by decide), keep11 m ρ c main_arg11 (by decide),
    W3_arg m ρ c main_arg9 (by decide) (by decide) (by decide), W3_arg m ρ c main_arg11 (by decide) (by decide) (by decide),
    gathered_eq_pairRows]

/-- A one-column array [B, 1] recast as a vector [B] reads, at b, the column's entry of row b. -/
theorem shapeCast_col (a : FVec Ideal S8192x1 .f32) : shapeCast S8192 a shapeCasts_S8192x1_S8192 = colVec (B := 8192) a := by
  funext i
  refine shapeCast_apply a shapeCasts_S8192x1_S8192 i (ix2 (i 0) (0 : Fin 1)) ?_
  rw [Shape.rowMajor_val_two, Shape.rowMajor_val_one]
  show (i 0).val * 1 + 0 = (i 0).val
  omega

/-- THE KERNEL'S RESULT: the last boundary's contents of the result buffer are the network of the arguments. -/
theorem result : W13 m ρ c (Proc.devRef .tc main_v79)
    = kerNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps5 (W12 m ρ c) (Proc.devRef .tc main_v79) = _
  rw [host5_v79, W12_v78, shapeCast_col]
  rfl

end Cert.KernelIdeal.Chain

end
-- ==== Proof.KerValue.lean ====
/-
  The idealized kernel's run, with its result: every weakly fair execution terminates, nothing faulting, the result buffer
  holding the network of the arguments in the split arrangement and the arguments unchanged.
-/
import proofs.«129134_j22308060135895_2_alg».proof.Proof.KernelRun
import proofs.«129134_j22308060135895_2_alg».proof.Proof.KerChain

set_option maxRecDepth 16384

noncomputable section

namespace Cert.KernelIdeal.Chain

open Idealize.ShloMosaic Idealize.ShloMosaic.TcCoe Idealize.SL.Sem
open Cert.KernelIdeal Cert.KernelIdeal.Gen Cert.KernelIdeal.Forms

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79) = kerNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (result m ρ c), (h c).2⟩) (Cert.KernelIdeal.RunV.run_result m ρ)

end Cert.KernelIdeal.Chain

end
-- ==== Proof.RefForms.lean ====
/-
  The host-side preparations of the message list and of the link queries, as the program's operations spell them.

  From the edge list [2, E0] : the source words (row 0, then the loop words 0 … N − 1), the destination words (row 1,
  then the same loop words); a vector of words as a column; array indexing's wrap of a negative word; the degree of a
  node as ones added into zeros at the destination words; d = 1/√max(degree, 1) where the degree is positive and 0
  elsewhere; the weight of a message d(wrapped source) · d(wrapped destination); from the query list [B, 2] the two
  columns of wrapped node words. Definitions only.
-/
import proofs.«129134_j22308060135895_2_alg».proof.Proof.Gen.ReferenceIdeal
import proofs.«129134_j22308060135895_2_alg».proof.Proof.Net
import Idealize.ShloMosaic.PureOps.Ideal

noncomputable section

namespace Cert.ReferenceIdeal.Forms

open Idealize.ShloMosaic Cert.ReferenceIdeal Cert.ReferenceIdeal.Gen Cert.GraphLinear Cert.LinkGcn

/-- The source word of every message: row 0 of the edge list, then one loop per node. -/
def srcV (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination word of every message: row 1 of the edge list, then one loop per node. -/
def dstV (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A vector of message words as a column [E, 1]. -/
def colV (v : IVec S1700000 32) : IVec S1700000x1 32 := broadcastInDim S1700000x1 ![0] bcast_S1700000_S1700000x1_0 v

/-- Array indexing's wrap: a negative word has the number of nodes added. -/
def wrapV (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The degree of every node: ones added into zeros at the destination words. -/
def degV (dst : IVec S1700000 32) : FVec Ideal S100000 .f32 :=
  Host.scatterAdd scatter_S100000_S1700000x1_S1700000_n_0_0_1
    (broadcastInDim S100000 ![] bcast_S_S100000 (constant (F := Ideal) S_ .f32 0x00000000#32)) (colV dst)
    (broadcastInDim S1700000 ![] bcast_S_S1700000 (constant (F := Ideal) S_ .f32 0x3F800000#32))

/-- d(n): the inverse square root of max(degree, 1) where the degree is positive, 0 elsewhere. -/
def dinvV (dst : IVec S1700000 32) : FVec Ideal S100000 .f32 :=
  select (cmpf .ogt (degV dst) (broadcastInDim S100000 ![] bcast_S_S100000 (constant (F := Ideal) S_ .f32 0x00000000#32)))
    (Host.rsqrt (maximumf (degV dst) (broadcastInDim S100000 ![] bcast_S_S100000 (constant (F := Ideal) S_ .f32 0x3F800000#32))))
    (broadcastInDim S100000 ![] bcast_S_S100000 (constant (F := Ideal) S_ .f32 0x00000000#32))

/-- The two columns of a link query list, as columns of wrapped node words. -/
def queryV (ri : IVec S8192x2 32) (k : Fin 2) : IVec S8192x1 32 :=
  let v : IVec S8192 32 := match k with
    | 0 => shapeCast S8192 (extractStridedSlice S8192x1 ![0, 0] ri slices_S8192x2_S8192x1_0_0) shapeCasts_S8192x1_S8192
    | 1 => shapeCast S8192 (extractStridedSlice S8192x1 ![0, 1] ri slices_S8192x2_S8192x1_0_1) shapeCasts_S8192x1_S8192
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 100000#32))) v)

/-- The weight of every message: d at its wrapped source word times d at its wrapped destination word. -/
def normV (src dst : IVec S1700000 32) : FVec Ideal S1700000 .f32 :=
  mulf (Host.gather gather_S100000_S1700000x1_S1700000_n_0_n_n_0_1_1 (dinvV dst) (colV (wrapV src)))
    (Host.gather gather_S100000_S1700000x1_S1700000_n_0_n_n_0_1_1 (dinvV dst) (colV (wrapV dst)))

theorem hN : 0 < 100000 := by decide

/-- The reference's result as one function of its arguments, entry by entry: three convolution layers in the
    whole-weight arrangement over the message list, then the link predictor on the queried pairs of rows. -/
def refNet (x : FVec Ideal S100000x128 .f32) (ei : IVec S2x1600000 32) (ri : IVec S8192x2 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (P1 : FVec Ideal S128x128 .f32) (pb1 : FVec Ideal S128 .f32)
    (P2 : FVec Ideal S128x1 .f32) (pb2 : FVec Ideal S1 .f32) : FVec Ideal S8192 .f32 :=
  colVec (mlpVec (pairRows hN (queryV ri 0) (queryV ri 1)
    (gcnWhole hN (colV (dstV ei)) (colV (wrapV (srcV ei))) (normV (srcV ei) (dstV ei)) x W1 b1 W2 b2 W3 b3)) P1 pb1 P2 pb2)

end Cert.ReferenceIdeal.Forms

end
-- ==== Proof.LibDegreeNorm.lean ====
/-
  The index columns, the degrees and the normalisation of a message list, as the host operations compute them.

  From a vector of source words and a vector of destination words (E messages): an index column [E, 1]; a word made
  non-negative the way array indexing does it (a negative word has the number of nodes added); the degree of a node, the
  number of messages whose destination word names it, as a sum of ones added into zeros; d(n), the inverse square root of
  the degree where the degree is positive and 0 elsewhere; and the weight of message e, d(source of e) · d(destination of
  e), both read through a gather at the wrapped words. Definitions only; the dimension records and side conditions are
  parameters, so that each printed program instantiates them at its own.
-/
import Idealize.ShloMosaic.PureOps
import Idealize.ShloMosaic.PureOps.Ideal
import Idealize.ShloMosaic.Lib.ValueIdx

noncomputable section

namespace Cert.GraphLinear

open Idealize.ShloMosaic Idealize.ShloMosaic.ValueIdx

section Defs
variable {N E : Nat}
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (dg : GatherDims ⟨1, ![N]⟩ ⟨2, ![E, 1]⟩ ⟨1, ![E]⟩)

/-- A vector of words as a column [E, 1]. -/
def idxCol (v : IVec ⟨1, ![E]⟩ 32) : IVec ⟨2, ![E, 1]⟩ 32 :=
  broadcastInDim ⟨2, ![E, 1]⟩ ![0] hcol v

/-- Array indexing's wrap: a negative word has `nWord` added, any other word is kept. -/
def wrapIdx (nWord : BitVec 32) (v : IVec ⟨1, ![E]⟩ 32) : IVec ⟨1, ![E]⟩ 32 :=
  select (cmpi .slt v (broadcastInDim ⟨1, ![E]⟩ ![] hbE (constantI ⟨0, ![]⟩ 32 0#32)))
    (addi v (broadcastInDim ⟨1, ![E]⟩ ![] hbE (constantI ⟨0, ![]⟩ 32 nWord))) v

/-- The degree of every node: ones, one per message, added into zeros at the destination words. -/
def degree (dst : IVec ⟨1, ![E]⟩ 32) : FVec Ideal ⟨1, ![N]⟩ .f32 :=
  Host.scatterAdd ds (broadcastInDim ⟨1, ![N]⟩ ![] hbN (constant (F := Ideal) ⟨0, ![]⟩ .f32 0x00000000#32)) (idxCol hcol dst)
    (broadcastInDim ⟨1, ![E]⟩ ![] hbE (constant (F := Ideal) ⟨0, ![]⟩ .f32 0x3F800000#32))

/-- d(n): the inverse square root of the degree where it is positive, 0 elsewhere. -/
def dinv (dst : IVec ⟨1, ![E]⟩ 32) : FVec Ideal ⟨1, ![N]⟩ .f32 :=
  select (cmpf .ogt (degree hbN hbE hcol ds dst) (broadcastInDim ⟨1, ![N]⟩ ![] hbN (constant (F := Ideal) ⟨0, ![]⟩ .f32 0x00000000#32)))
    (Host.rsqrt (degree hbN hbE hcol ds dst))
    (broadcastInDim ⟨1, ![N]⟩ ![] hbN (constant (F := Ideal) ⟨0, ![]⟩ .f32 0x00000000#32))

/-- The weight of every message: d at its wrapped source word times d at its wrapped destination word. -/
def norm (nWord : BitVec 32) (src dst : IVec ⟨1, ![E]⟩ 32) : FVec Ideal ⟨1, ![E]⟩ .f32 :=
  mulf (Host.gather dg (dinv hbN hbE hcol ds dst) (idxCol hcol (wrapIdx hbE nWord src)))
    (Host.gather dg (dinv hbN hbE hcol ds dst) (idxCol hcol (wrapIdx hbE nWord dst)))

end Defs

end Cert.GraphLinear

end
-- ==== Proof.LibGatherVec.lean ====
/-
  A gather from a vector read at an index. What `x[idx]` of a vector `x : [N]` at an integer vector lowers to: a gather
  along the one axis with single entries as slices (no offset axis, axis 0 collapsed, slice sizes `[1]`) over the indices
  laid out as a column `[R, 1]`. Result entry `f` is the vector's entry `row f`, where `row f` is the start index at `f`
  read as a signed integer and clamped into `[0, N − 1]`: the same row a gather of whole rows of a table with N rows
  reads at these indices. Nothing here depends on a program.
-/
import Idealize.ShloMosaic.Lib.ValueIdx
import proofs.«129134_j22308060135895_2_alg».proof.Proof.LibGatherRows

namespace Cert.LibGatherVec

open Idealize.ShloMosaic Idealize.ShloMosaic.ValueIdx Cert.KernelIdeal.Hand

variable {α : Type}

/-- The dimension numbers of a gather of single entries from a vector `[N]` at start indices `[R, 1]` into `[R]`; their
    conditions `wf` are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `f`: the vector at `rowOf f`, the start index at `f` read signed and clamped. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (f : Fin R) :
    Host.gather (vecDims N R wf) x idx (ix1 f) = x (ix1 (rowOf hN idx f)) := by
  unfold Host.gather
  congr 1
  funext a
  refine Fin.ext ?_
  match a with
  | ⟨0, _⟩ =>
    show (vecDims N R wf).start (ix1 f) idx 0 + (vecDims N R wf).batchCoord (ix1 f) 0
      + (vecDims N R wf).offCoord (ix1 f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 f) ⟨List.idxOf (0 : Fin 1) (vecDims N R wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl

end Cert.LibGatherVec
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibClippedDegree.lean ====
/-
  The degree normalisation with the degree clipped at one under the root, and the weight of a message for any vector d.

  d(n) = 1/√max(degree(n), 1) where the degree is positive and 0 elsewhere. The degree of a node is a count, so it is a
  natural number as an extended real; where the count is 0 the comparison fails and d(n) is the zero literal; where it
  is positive, max(count, 1) is a real number at least 1 and its inverse square root is the real (√·)⁻¹, which is not
  negative. Either way d(n) is a non-negative real number, whatever the index words are.

  For ANY vector d over the nodes, the weight d(wrapped source) · d(wrapped destination) of a message that lands on node n
  is d(its source row) · d(n): the destination word read signed is n, so it is not negative, the wrap keeps it, and the
  clamp into [0, N − 1] keeps it.
-/
import Idealize.ShloMosaic.Lib.IdealHost
import proofs.«129134_j22308060135895_2_alg».proof.Proof.LibDegreeNorm
import proofs.«129134_j22308060135895_2_alg».proof.Proof.LibSegmentSum
import proofs.«129134_j22308060135895_2_alg».proof.Proof.LibGatherRows
import proofs.«129134_j22308060135895_2_alg».proof.Proof.LibGatherVec
import proofs.«129134_j22308060135895_2_alg».proof.Proof.LibColumn

noncomputable section

namespace Cert.ClippedDegree

open Idealize.ShloMosaic Idealize.ShloMosaic.ValueIdx Cert.SegmentSum Cert.KernelIdeal.Hand Cert.LibGatherVec Cert.GraphLinear

section Defs
variable {N E : Nat}
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (dg : GatherDims ⟨1, ![N]⟩ ⟨2, ![E, 1]⟩ ⟨1, ![E]⟩)

/-- d(n): the inverse square root of max(degree, 1) where the degree is positive, 0 elsewhere. -/
def dinvClip (dst : IVec ⟨1, ![E]⟩ 32) : FVec Ideal ⟨1, ![N]⟩ .f32 :=
  select (cmpf .ogt (degree hbN hbE hcol ds dst) (broadcastInDim ⟨1, ![N]⟩ ![] hbN (constant (F := Ideal) ⟨0, ![]⟩ .f32 0x00000000#32)))
    (Host.rsqrt (maximumf (degree hbN hbE hcol ds dst) (broadcastInDim ⟨1, ![N]⟩ ![] hbN (constant (F := Ideal) ⟨0, ![]⟩ .f32 0x3F800000#32))))
    (broadcastInDim ⟨1, ![N]⟩ ![] hbN (constant (F := Ideal) ⟨0, ![]⟩ .f32 0x00000000#32))

/-- The weight of every message for a vector d: d at its wrapped source word times d at its wrapped destination word. -/
def normOf (d : FVec Ideal ⟨1, ![N]⟩ .f32) (nWord : BitVec 32) (src dst : IVec ⟨1, ![E]⟩ 32) : FVec Ideal ⟨1, ![E]⟩ .f32 :=
  mulf (Host.gather dg d (idxCol hcol (wrapIdx hbE nWord src))) (Host.gather dg d (idxCol hcol (wrapIdx hbE nWord dst)))

end Defs

section Facts
variable {N E : Nat} (hN : 0 < N)
variable (hbN : (⟨0, ![]⟩ : Shape).BroadcastsInDim ⟨1, ![N]⟩ ![])
variable (hbE : (⟨0, ![]⟩ : Shape).BroadcastsInDim ⟨1, ![E]⟩ ![])
variable (hcol : (⟨1, ![E]⟩ : Shape).BroadcastsInDim ⟨2, ![E, 1]⟩ ![0])
variable (ds : ScatterDims ⟨1, ![N]⟩ ⟨2, ![E, 1]⟩ ⟨1, ![E]⟩)
variable (h1 : ds.updateWindowDims = []) (h2 : ds.insertedWindowDims = [0]) (h3 : ds.scatterDimsToOperandDims = [0]) (h4 : ds.indexVectorDim = 1)
variable (wf : GatherDims.WF ⟨1, ![N]⟩ ⟨2, ![E, 1]⟩ ⟨1, ![E]⟩ [] [0] [] [0] [] 1 ![1])
variable (dg : GatherDims ⟨1, ![N]⟩ ⟨2, ![E, 1]⟩ ⟨1, ![E]⟩) (hdg : dg = vecDims N E wf)

/-- A literal spread over a vector reads the literal's value everywhere. -/
theorem splat_apply {M : Nat} (hb : (⟨0, ![]⟩ : Shape).BroadcastsInDim ⟨1, ![M]⟩ ![]) (wd : BitVec 32) (i : (⟨1, ![M]⟩ : Shape).Idx) :
    broadcastInDim ⟨1, ![M]⟩ ![] hb (constant (F := Ideal) ⟨0, ![]⟩ .f32 wd) i = Ideal.ofBits .f32 wd := by
  rw [broadcastInDim_scalar_apply]
  rfl

include h1 h2 h3 h4 in
/-- The degree of node n is the number of messages whose destination word names it. -/
theorem degree_eq_card (dst : IVec ⟨1, ![E]⟩ 32) (n : Fin N) :
    degree hbN hbE hcol ds dst (ix1 n) = (((edgesAt (idxCol hcol dst) n).card : ℝ) : EReal) := by
  show Ideal.hostScatterAdd ds _ (idxCol hcol dst) _ (ix1 n) = _
  rw [scatterAdd_vec_apply ds h1 h2 h3 h4, splat_apply, Ideal.ofBits_zero_f32, zero_add]
  have hs : ∑ _e ∈ edgesAt (idxCol hcol dst) n, (1 : EReal) = (((edgesAt (idxCol hcol dst) n).card : ℝ) : EReal) := by
    have h := Cert.RealEntries.coe_sum (edgesAt (idxCol hcol dst) n) (fun _ => (1 : ℝ))
    rw [Finset.sum_const, nsmul_eq_mul, mul_one] at h
    exact h.symm
  refine (Finset.sum_congr rfl fun e _ => ?_).trans hs
  rw [splat_apply, Ideal.ofBits_one_f32]

include h1 h2 h3 h4 in
/-- d(n) is a non-negative real number. -/
theorem dinvClip_nonneg_real (dst : IVec ⟨1, ![E]⟩ 32) (n : Fin N) :
    ∃ r : ℝ, 0 ≤ r ∧ dinvClip hbN hbE hcol ds dst (ix1 n) = (r : EReal) := by
  have hd := degree_eq_card hbN hbE hcol ds h1 h2 h3 h4 dst n
  show ∃ r : ℝ, 0 ≤ r ∧ Scalar.select (Ideal.cmp .ogt (degree hbN hbE hcol ds dst (ix1 n))
      (broadcastInDim ⟨1, ![N]⟩ ![] hbN (constant (F := Ideal) ⟨0, ![]⟩ .f32 0x00000000#32) (ix1 n)))
      (Ideal.rsqrt (max (degree hbN hbE hcol ds dst (ix1 n))
        (broadcastInDim ⟨1, ![N]⟩ ![] hbN (constant (F := Ideal) ⟨0, ![]⟩ .f32 0x3F800000#32) (ix1 n))))
      (broadcastInDim ⟨1, ![N]⟩ ![] hbN (constant (F := Ideal) ⟨0, ![]⟩ .f32 0x00000000#32) (ix1 n)) = (r : EReal)
  rw [hd, splat_apply, splat_apply, Ideal.ofBits_zero_f32, Ideal.ofBits_one_f32]
  generalize (edgesAt (idxCol hcol dst) n).card = c
  rcases Nat.eq_zero_or_pos c with h0 | hpos
  · refine ⟨0, le_rfl, ?_⟩
    subst h0
    have hc : Ideal.cmp .ogt (((0 : ℕ) : ℝ) : EReal) 0 = 0#1 := by simp [Ideal.cmp]
    rw [hc, select_zero]
    rfl
  · have hc : Ideal.cmp .ogt ((c : ℝ) : EReal) 0 = 1#1 := by simp [Ideal.cmp, hpos]
    have hmax : max (((c : ℝ)) : EReal) (1 : EReal) = ((max (c : ℝ) 1 : ℝ) : EReal) := by
      rw [← EReal.coe_one]
      exact (EReal.coe_strictMono.monotone.map_max).symm
    have hpos' : (0 : ℝ) < max (c : ℝ) 1 := lt_of_lt_of_le one_pos (le_max_right _ _)
    refine ⟨(Real.sqrt (max (c : ℝ) 1))⁻¹, inv_nonneg.2 (Real.sqrt_nonneg _), ?_⟩
    rw [hc, select_one, hmax, Ideal.rsqrt_coe, if_neg (not_lt.2 hpos'.le), if_neg (ne_of_gt hpos')]

/-- A vector laid out as a column reads, at (e, 0), the vector's word e. -/
theorem idxCol_apply (v : IVec ⟨1, ![E]⟩ 32) (e : Fin E) :
    idxCol hcol v (ix2 e (0 : Fin 1)) = v (ix1 e) :=
  Cert.LibColumn.broadcastInDim_a_a1_apply v hcol e 0

/-- The wrap keeps a word that, read signed, is not negative. -/
theorem wrapIdx_of_nonneg (nWord : BitVec 32) (v : IVec ⟨1, ![E]⟩ 32) (e : Fin E)
    (h : 0 ≤ (v (ix1 e)).toInt) : wrapIdx hbE nWord v (ix1 e) = v (ix1 e) := by
  show Scalar.select (IntOp.cmpi .slt (v (ix1 e))
      (broadcastInDim ⟨1, ![E]⟩ ![] hbE (constantI ⟨0, ![]⟩ 32 0#32) (ix1 e))) _ _ = _
  rw [broadcastInDim_scalar_apply]
  have hs : (v (ix1 e)).slt 0#32 = false := by
    simp only [BitVec.slt, BitVec.toInt_zero, decide_eq_false_iff_not, not_lt]
    exact h
  have hc : IntOp.cmpi .slt (v (ix1 e)) (constantI ⟨0, ![]⟩ 32 0#32 ix0) = 0#1 := by
    show BitVec.ofBool ((v (ix1 e)).slt 0#32) = 0#1
    rw [hs]
    rfl
  rw [hc, select_zero]

include hdg in
/-- A message that lands on node n weighs d(its source row) · d(n), for any vector d. -/
theorem normOf_of_lands (d : FVec Ideal ⟨1, ![N]⟩ .f32) (nWord : BitVec 32) (src dst : IVec ⟨1, ![E]⟩ 32) (n : Fin N) (e : Fin E)
    (he : e ∈ edgesAt (idxCol hcol dst) n) :
    normOf hbE hcol dg d nWord src dst (ix1 e)
      = d (ix1 (rowOf hN (idxCol hcol (wrapIdx hbE nWord src)) e)) * d (ix1 n) := by
  subst hdg
  have hword : (dst (ix1 e)).toInt = ((n.val : Nat) : Int) := by
    have h := (mem_edgesAt (idxCol hcol dst) n e).1 he
    rwa [idxCol_apply] at h
  have hrow : rowOf hN (idxCol hcol (wrapIdx hbE nWord dst)) e = n := by
    refine Fin.ext ?_
    show min ((idxCol hcol (wrapIdx hbE nWord dst)) (ix2 e (0 : Fin 1))).toInt.toNat (N - 1) = n.val
    rw [idxCol_apply, wrapIdx_of_nonneg hbE nWord dst e (by rw [hword]; exact Int.natCast_nonneg _), hword,
      Int.toNat_natCast]
    have := n.isLt
    omega
  show Host.gather (vecDims N E wf) _ _ (ix1 e) * Host.gather (vecDims N E wf) _ _ (ix1 e) = _
  rw [gather_vec_apply hN wf, gather_vec_apply hN wf, hrow]

end Facts

end Cert.ClippedDegree

end
-- ==== Proof.Bridge.lean ====
/-
  The two arrangements of the network are one function of the arguments.

  The kernel's side multiplies d(source) into the rows before they are collected and d(destination) into the collected
  sums; the reference's side lets every collected row carry its whole weight d(source) · d(destination). Both read the
  same message words, the same d and the same queried rows. Every d(n) is a non-negative real (a clipped inverse square
  root of a count, or zero), and a message that lands on n weighs d(its source row) · d(n); so the three layers agree by
  the law of the split and the whole-weight arrangements, and the predictor differs only in how its biases are laid out
  (a one-row matrix against a vector). No entry of the features, weights or biases needs to be finite.
-/
import proofs.«129134_j22308060135895_2_alg».proof.Proof.KerForms
import proofs.«129134_j22308060135895_2_alg».proof.Proof.RefForms
import proofs.«129134_j22308060135895_2_alg».proof.Proof.LibClippedDegree
import proofs.«129134_j22308060135895_2_alg».proof.Proof.LibKeepdims
import Idealize.ShloMosaic.Lib.Pipeline.Value

set_option maxRecDepth 16384

noncomputable section

namespace Cert.Bridge

open Idealize.ShloMosaic Idealize.ShloMosaic.ValueIdx Cert.GraphLinear Cert.LinkGcn Cert.SegmentSum Cert.KernelIdeal.Hand

/-- A vector [n] recast as a one-row matrix [1, n] reads, at (0, q), the vector's entry q. -/
theorem rowCast_apply {n : Nat} (b : (⟨1, ![n]⟩ : Shape).Idx → EReal) (h : (⟨1, ![n]⟩ : Shape).ShapeCasts ⟨2, ![1, n]⟩) (q : Fin n) :
    shapeCast ⟨2, ![1, n]⟩ b h (ix2 (0 : Fin 1) q) = b (ix1 q) :=
  shapeCast_apply b h _ _ (by
    rw [Shape.rowMajor_val_one, Shape.rowMajor_val_two]
    show q.val = 0 * n + q.val
    omega)

section
open Cert.KernelIdeal Cert.KernelIdeal.Gen

/-- The kernel's normalisation column holds non-negative reals. -/
theorem dcol_nonneg_real (ei : IVec S2x1600000 32) (n : Fin 100000) :
    ∃ r : ℝ, 0 ≤ r ∧ shapeCast S100000x1 (Cert.KernelIdeal.Forms.dinvV (Cert.KernelIdeal.Forms.dstV ei)) shapeCasts_S100000_S100000x1
      (ix2 n (0 : Fin 1)) = (r : EReal) := by
  rw [Cert.Lib.Keepdims.shapeCast_a_a1_apply]
  exact Cert.ClippedDegree.dinvClip_nonneg_real bcast_S_S100000 bcast_S_S1700000 bcast_S1700000_S1700000x1_0
    scatter_S100000_S1700000x1_S1700000_n_0_0_1 rfl rfl rfl rfl (Cert.KernelIdeal.Forms.dstV ei) n

/-- A message that lands on node n weighs d(its source row) · d(n), d read off the kernel's column. -/
theorem weight_of_lands (ei : IVec S2x1600000 32) (n : Fin 100000) (e : Fin 1700000)
    (he : e ∈ edgesAt (Cert.KernelIdeal.Forms.colV (Cert.KernelIdeal.Forms.dstV ei)) n) :
    Cert.ReferenceIdeal.Forms.normV (Cert.ReferenceIdeal.Forms.srcV ei) (Cert.ReferenceIdeal.Forms.dstV ei) (ix1 e)
      = shapeCast S100000x1 (Cert.KernelIdeal.Forms.dinvV (Cert.KernelIdeal.Forms.dstV ei)) shapeCasts_S100000_S100000x1
          (ix2 (rowOf Cert.KernelIdeal.Forms.hN (Cert.KernelIdeal.Forms.colV (Cert.KernelIdeal.Forms.wrapV (Cert.KernelIdeal.Forms.srcV ei))) e) (0 : Fin 1))
        * shapeCast S100000x1 (Cert.KernelIdeal.Forms.dinvV (Cert.KernelIdeal.Forms.dstV ei)) shapeCasts_S100000_S100000x1 (ix2 n (0 : Fin 1)) := by
  rw [Cert.Lib.Keepdims.shapeCast_a_a1_apply, Cert.Lib.Keepdims.shapeCast_a_a1_apply]
  exact Cert.ClippedDegree.normOf_of_lands Cert.KernelIdeal.Forms.hN bcast_S_S1700000 bcast_S1700000_S1700000x1_0
    Cert.ReferenceIdeal.Gen.gather_S100000_S1700000x1_S1700000_n_0_n_n_0_1_1_wf
    Cert.ReferenceIdeal.gather_S100000_S1700000x1_S1700000_n_0_n_n_0_1_1 rfl
    (Cert.KernelIdeal.Forms.dinvV (Cert.KernelIdeal.Forms.dstV ei)) 100000#32 (Cert.KernelIdeal.Forms.srcV ei) (Cert.KernelIdeal.Forms.dstV ei) n e he

/-- THE TWO NETWORKS ARE ONE FUNCTION of the arguments. -/
theorem kerNet_eq_refNet (x : FVec Ideal S100000x128 .f32) (ei : IVec S2x1600000 32) (ri : IVec S8192x2 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (P1 : FVec Ideal S128x128 .f32) (pb1 : FVec Ideal S128 .f32)
    (P2 : FVec Ideal S128x1 .f32) (pb2 : FVec Ideal S1 .f32) :
    Cert.KernelIdeal.Forms.kerNet x ei ri W1 b1 W2 b2 W3 b3 P1 pb1 P2 pb2 = Cert.ReferenceIdeal.Forms.refNet x ei ri W1 b1 W2 b2 W3 b3 P1 pb1 P2 pb2 := by
  unfold Cert.KernelIdeal.Forms.kerNet Cert.ReferenceIdeal.Forms.refNet
  rw [mlp_eq_mlpVec _ P1 _ P2 _ pb1 pb2 (fun j => rowCast_apply pb1 shapeCasts_S128_S1x128 j)
      (fun q => rowCast_apply pb2 shapeCasts_S1_S1x1 q),
    gcnSplit_eq_gcnWhole Cert.KernelIdeal.Forms.hN _ _ _ (Cert.ReferenceIdeal.Forms.normV (Cert.ReferenceIdeal.Forms.srcV ei) (Cert.ReferenceIdeal.Forms.dstV ei)) (dcol_nonneg_real ei)
      (fun n e he => weight_of_lands ei n e he) x W1 W2 W3 _ _ _ b1 b2 b3
      (fun q => rowCast_apply b1 shapeCasts_S128_S1x128 q) (fun q => rowCast_apply b2 shapeCasts_S128_S1x128 q)
      (fun q => rowCast_apply b3 shapeCasts_S128_S1x128 q)]
  rfl

end

end Cert.Bridge

end
-- ==== Proof.RefHost.lean ====
/-
  The reference's layers and predictor as whole-array functions, as its host operations spell them: a layer's rows times
  weights, gathered at the wrapped source words, each scaled by its message's weight, added into zeros at the
  destination words, plus the bias row, with or without the maximum with zero; the predictor on the queried rows.
-/
import proofs.«129134_j22308060135895_2_alg».proof.Proof.RefForms

noncomputable section

namespace Cert.ReferenceIdeal.Stages

open Cert.ReferenceIdeal Cert.ReferenceIdeal.Gen Cert.ReferenceIdeal.Forms Idealize.ShloMosaic

/-- The rows collected along the messages, before the bias: rows times weights, gathered at the wrapped source words,
    each scaled by its message's weight, added into zeros at the destination words. -/
def gatherScatterH (h : FVec Ideal S100000x128 .f32) (Wt : FVec Ideal S128x128 .f32) (src dst : IVec S1700000 32)
    (nrm : FVec Ideal S1700000 .f32) : FVec Ideal S100000x128 .f32 :=
  Host.scatterAdd scatter_S100000x128_S1700000x1_S1700000x128_1_0_0_1
    (broadcastInDim S100000x128 ![] bcast_S_S100000x128 (constant (F := Ideal) S_ .f32 0x00000000#32)) (colV dst)
    (mulf (Host.gather gather_S100000x128_S1700000x1_S1700000x128_1_0_n_n_0_1_1128
        (Host.dotGeneral dot_S100000x128_S128x128_S100000x128_1_0_0_1_n_n none h Wt) (colV (wrapV src)))
      (broadcastInDim S1700000x128 ![0, 1] bcast_S1700000x1_S1700000x128_0_1
        (broadcastInDim S1700000x1 ![0] bcast_S1700000_S1700000x1_0 nrm)))

/-- The last layer as the operations spell it: the collected rows plus the bias row. -/
def lastH (h : FVec Ideal S100000x128 .f32) (Wt : FVec Ideal S128x128 .f32) (b : FVec Ideal S128 .f32)
    (src dst : IVec S1700000 32) (nrm : FVec Ideal S1700000 .f32) : FVec Ideal S100000x128 .f32 :=
  addf (gatherScatterH h Wt src dst nrm)
    (broadcastInDim S100000x128 ![0, 1] bcast_S1x128_S100000x128_0_1 (broadcastInDim S1x128 ![1] bcast_S128_S1x128_1 b))

/-- A layer with a maximum as the operations spell it. -/
def layerH (h : FVec Ideal S100000x128 .f32) (Wt : FVec Ideal S128x128 .f32) (b : FVec Ideal S128 .f32)
    (src dst : IVec S1700000 32) (nrm : FVec Ideal S1700000 .f32) : FVec Ideal S100000x128 .f32 :=
  maximumf (lastH h Wt b src dst nrm)
    (broadcastInDim S100000x128 ![] bcast_S_S100000x128 (constant (F := Ideal) S_ .f32 0x00000000#32))

/-- The link predictor as the operations spell it. -/
def predH (ri : IVec S8192x2 32) (h : FVec Ideal S100000x128 .f32) (P1 : FVec Ideal S128x128 .f32) (pb1 : FVec Ideal S128 .f32)
    (P2 : FVec Ideal S128x1 .f32) (pb2 : FVec Ideal S1 .f32) : FVec Ideal S8192 .f32 :=
  shapeCast S8192
    (addf (Host.dotGeneral dot_S8192x128_S128x1_S8192x1_1_0_0_1_n_n none
        (maximumf (addf (Host.dotGeneral dot_S8192x128_S128x128_S8192x128_1_0_0_1_n_n none
              (mulf (Host.gather gather_S100000x128_S8192x1_S8192x128_1_0_n_n_0_1_1128 h (queryV ri 0))
                (Host.gather gather_S100000x128_S8192x1_S8192x128_1_0_n_n_0_1_1128 h (queryV ri 1))) P1)
            (broadcastInDim S8192x128 ![0, 1] bcast_S1x128_S8192x128_0_1 (broadcastInDim S1x128 ![1] bcast_S128_S1x128_1 pb1)))
          (broadcastInDim S8192x128 ![] bcast_S_S8192x128 (constant (F := Ideal) S_ .f32 0x00000000#32))) P2)
      (broadcastInDim S8192x1 ![0, 1] bcast_S1x1_S8192x1_0_1 (broadcastInDim S1x1 ![1] bcast_S1_S1x1_1 pb2)))
    shapeCasts_S8192x1_S8192

end Cert.ReferenceIdeal.Stages

end
-- ==== Proof.RefRun.lean ====
/-
  The idealized reference's run, read at the level of its stages.

  The reference is a straight line of host operations. The line is cut into consecutive stretches: the source and
  destination words of the message list; the degrees and d(n); the message weights; the three layers; the link
  predictor. Running two lines one after the other is running their concatenation, so the contents after the whole line
  are the contents after the last stretch from the contents after the one before it, and so on. For each stretch, over
  any contents before it, the one buffer later stretches read is the stretch's whole-array function of the buffers it
  reads, and every other buffer later stretches read is unchanged. Composed from the launch contents this gives the
  result as the predictor of the third layer of the second of the first, applied to the arguments; no operation writes
  an argument.
-/
import proofs.«129134_j22308060135895_2_alg».proof.Proof.RefOps
import proofs.«129134_j22308060135895_2_alg».proof.Proof.RefForms
import proofs.«129134_j22308060135895_2_alg».proof.Proof.RefHost

noncomputable section
namespace Cert.ReferenceIdeal.Stages

open Cert.ReferenceIdeal Cert.ReferenceIdeal.Gen Cert.ReferenceIdeal.RunP Cert.ReferenceIdeal.Forms Idealize.ShloMosaic Idealize.ShloMosaic.TcCoe Idealize.SL.Sem Idealize.ShloMosaic.StableHlo

/-! ## The operations cut into consecutive stretches

An operation of a called function is written with the plain builder at the same buffers and the same function. -/

section Lines
variable {F : FTy → Type} [FloatOps F]

/-- The message list's source and destination words. -/
def a0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degrees and d(n). -/
def a1 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    unary main_cst_3 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The message weights. -/
def s1 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first layer. -/
def l1 : List (HloOp τ sig (Elt F)) :=
  [ binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v48 main_call1_v0 main_v49 (maximumf : (⟨S100000x128, .f32⟩ : BufTy).Contents (Elt F) → (⟨S100000x128, .f32⟩ : BufTy).Contents (Elt F) → (⟨S100000x128, .f32⟩ : BufTy).Contents (Elt F)) ]

/-- The second layer. -/
def l2 : List (HloOp τ sig (Elt F)) :=
  [ binary main_v49 main_arg5 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 (broadcastInDim S100000x128 ![] bcast_S_S100000x128 : (⟨S_, .f32⟩ : BufTy).Contents (Elt F) → (⟨S100000x128, .f32⟩ : BufTy).Contents (Elt F)),
    binary main_v66 main_call2_v0 main_v67 (maximumf : (⟨S100000x128, .f32⟩ : BufTy).Contents (Elt F) → (⟨S100000x128, .f32⟩ : BufTy).Contents (Elt F) → (⟨S100000x128, .f32⟩ : BufTy).Contents (Elt F)) ]

/-- The third layer. -/
def l3 : List (HloOp τ sig (Elt F)) :=
  [ binary main_v67 main_arg7 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x128 ![0, 1] bcast_S1700000x1_S1700000x128_0_1 : (⟨S1700000x1, .f32⟩ : BufTy).Contents (Elt F) → (⟨S1700000x128, .f32⟩ : BufTy).Contents (Elt F)),
    binary main_v75 main_v77 main_v78 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v79 (broadcastInDim S100000x128 ![] bcast_S_S100000x128 : (⟨S_, .f32⟩ : BufTy).Contents (Elt F) → (⟨S100000x128, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)) ]

/-- The link predictor. -/
def pr : List (HloOp τ sig (Elt F)) :=
  [ unary main_arg2 main_v85 ((extractStridedSlice S8192x1 ![0, 0] · slices_S8192x2_S8192x1_0_0) : (⟨S8192x2, .i32⟩ : BufTy).Contents (Elt F) → (⟨S8192x1, .i32⟩ : BufTy).Contents (Elt F)),
    reshape main_v85 main_v86 rfl shapeCasts_S8192x1_S8192,
    nullary main_c_16 (constantI S_ 32 0#32),
    unary main_c_16 main_v87 (broadcastInDim S8192 ![] bcast_S_S8192 : (⟨S_, .i32⟩ : BufTy).Contents (Elt F) → (⟨S8192, .i32⟩ : BufTy).Contents (Elt F)),
    binary main_v86 main_v87 main_v88 (cmpi .slt : (⟨S8192, .i32⟩ : BufTy).Contents (Elt F) → (⟨S8192, .i32⟩ : BufTy).Contents (Elt F) → (⟨S8192, .i1⟩ : BufTy).Contents (Elt F)),
    nullary main_c_17 (constantI S_ 32 100000#32),
    unary main_c_17 main_v89 (broadcastInDim S8192 ![] bcast_S_S8192 : (⟨S_, .i32⟩ : BufTy).Contents (Elt F) → (⟨S8192, .i32⟩ : BufTy).Contents (Elt F)),
    binary main_v86 main_v89 main_v90 (addi : (⟨S8192, .i32⟩ : BufTy).Contents (Elt F) → (⟨S8192, .i32⟩ : BufTy).Contents (Elt F) → (⟨S8192, .i32⟩ : BufTy).Contents (Elt F)),
    ternary main_v88 main_v90 main_v86 main_v91 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v91 main_v92 (broadcastInDim S8192x1 ![0] bcast_S8192_S8192x1_0 : (⟨S8192, .i32⟩ : BufTy).Contents (Elt F) → (⟨S8192x1, .i32⟩ : BufTy).Contents (Elt F)),
    binary main_v84 main_v92 main_v93 ((fun x i => Host.gather gather_S100000x128_S8192x1_S8192x128_1_0_n_n_0_1_1128 x i) : (⟨S100000x128, .f32⟩ : BufTy).Contents (Elt F) → (⟨S8192x1, .i32⟩ : BufTy).Contents (Elt F) → (⟨S8192x128, .f32⟩ : BufTy).Contents (Elt F)),
    unary main_arg2 main_v94 ((extractStridedSlice S8192x1 ![0, 1] · slices_S8192x2_S8192x1_0_1) : (⟨S8192x2, .i32⟩ : BufTy).Contents (Elt F) → (⟨S8192x1, .i32⟩ : BufTy).Contents (Elt F)),
    reshape main_v94 main_v95 rfl shapeCasts_S8192x1_S8192,
    nullary main_c_18 (constantI S_ 32 0#32),
    unary main_c_18 main_v96 (broadcastInDim S8192 ![] bcast_S_S8192 : (⟨S_, .i32⟩ : BufTy).Contents (Elt F) → (⟨S8192, .i32⟩ : BufTy).Contents (Elt F)),
    binary main_v95 main_v96 main_v97 (cmpi .slt : (⟨S8192, .i32⟩ : BufTy).Contents (Elt F) → (⟨S8192, .i32⟩ : BufTy).Contents (Elt F) → (⟨S8192, .i1⟩ : BufTy).Contents (Elt F)),
    nullary main_c_19 (constantI S_ 32 100000#32),
    unary main_c_19 main_v98 (broadcastInDim S8192 ![] bcast_S_S8192 : (⟨S_, .i32⟩ : BufTy).Contents (Elt F) → (⟨S8192, .i32⟩ : BufTy).Contents (Elt F)),
    binary main_v95 main_v98 main_v99 (addi : (⟨S8192, .i32⟩ : BufTy).Contents (Elt F) → (⟨S8192, .i32⟩ : BufTy).Contents (Elt F) → (⟨S8192, .i32⟩ : BufTy).Contents (Elt F)),
    ternary main_v97 main_v99 main_v95 main_v100 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v100 main_v101 (broadcastInDim S8192x1 ![0] bcast_S8192_S8192x1_0 : (⟨S8192, .i32⟩ : BufTy).Contents (Elt F) → (⟨S8192x1, .i32⟩ : BufTy).Contents (Elt F)),
    binary main_v84 main_v101 main_v102 ((fun x i => Host.gather gather_S100000x128_S8192x1_S8192x128_1_0_n_n_0_1_1128 x i) : (⟨S100000x128, .f32⟩ : BufTy).Contents (Elt F) → (⟨S8192x1, .i32⟩ : BufTy).Contents (Elt F) → (⟨S8192x128, .f32⟩ : BufTy).Contents (Elt F)),
    binary main_v93 main_v102 main_v103 (mulf : (⟨S8192x128, .f32⟩ : BufTy).Contents (Elt F) → (⟨S8192x128, .f32⟩ : BufTy).Contents (Elt F) → (⟨S8192x128, .f32⟩ : BufTy).Contents (Elt F)),
    binary main_v103 main_arg9 main_v104 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg10 main_v105 (broadcastInDim S1x128 ![1] bcast_S128_S1x128_1 : (⟨S128, .f32⟩ : BufTy).Contents (Elt F) → (⟨S1x128, .f32⟩ : BufTy).Contents (Elt F)),
    unary main_v105 main_v106 (broadcastInDim S8192x128 ![0, 1] bcast_S1x128_S8192x128_0_1 : (⟨S1x128, .f32⟩ : BufTy).Contents (Elt F) → (⟨S8192x128, .f32⟩ : BufTy).Contents (Elt F)),
    binary main_v104 main_v106 main_v107 (addf : (⟨S8192x128, .f32⟩ : BufTy).Contents (Elt F) → (⟨S8192x128, .f32⟩ : BufTy).Contents (Elt F) → (⟨S8192x128, .f32⟩ : BufTy).Contents (Elt F)),
    nullary main_call3_cst (constant S_ .f32 0x00000000#32),
    unary main_call3_cst main_call3_v0 (broadcastInDim S8192x128 ![] bcast_S_S8192x128 : (⟨S_, .f32⟩ : BufTy).Contents (Elt F) → (⟨S8192x128, .f32⟩ : BufTy).Contents (Elt F)),
    binary main_v107 main_call3_v0 main_v108 (maximumf : (⟨S8192x128, .f32⟩ : BufTy).Contents (Elt F) → (⟨S8192x128, .f32⟩ : BufTy).Contents (Elt F) → (⟨S8192x128, .f32⟩ : BufTy).Contents (Elt F)),
    binary main_v108 main_arg11 main_v109 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg12 main_v110 (broadcastInDim S1x1 ![1] bcast_S1_S1x1_1 : (⟨S1, .f32⟩ : BufTy).Contents (Elt F) → (⟨S1x1, .f32⟩ : BufTy).Contents (Elt F)),
    unary main_v110 main_v111 (broadcastInDim S8192x1 ![0, 1] bcast_S1x1_S8192x1_0_1 : (⟨S1x1, .f32⟩ : BufTy).Contents (Elt F) → (⟨S8192x1, .f32⟩ : BufTy).Contents (Elt F)),
    binary main_v109 main_v111 main_v112 (addf : (⟨S8192x1, .f32⟩ : BufTy).Contents (Elt F) → (⟨S8192x1, .f32⟩ : BufTy).Contents (Elt F) → (⟨S8192x1, .f32⟩ : BufTy).Contents (Elt F)),
    reshape main_v112 main_v113 rfl shapeCasts_S8192x1_S8192 ]

end Lines

/-- Running two lines one after the other is running their concatenation. -/
theorem after_append {Val : EltTy → Type} (a b : List (HloOp τ sig Val)) (V : Valuation τ sig Val) :
    after (a ++ b) V = after b (after a V) := by
  induction a generalizing V with
  | nil => rfl
  | cons op a ih => exact ih _

set_option maxRecDepth 8192 in
set_option maxHeartbeats 4000000 in
theorem ops_split {F : FTy → Type} [FloatOps F] :
    (ops : List (HloOp τ sig (Elt F))) = a0 ++ (a1 ++ (s1 ++ (l1 ++ (l2 ++ (l3 ++ pr))))) := rfl

theorem after_ops_eq (V : Valuation τ sig (Elt Ideal)) :
    after (ops (F := Ideal)) V
      = after (pr (F := Ideal)) (after (l3 (F := Ideal)) (after (l2 (F := Ideal)) (after (l1 (F := Ideal))
          (after (s1 (F := Ideal)) (after (a1 (F := Ideal)) (after (a0 (F := Ideal)) V)))))) := by
  rw [ops_split (F := Ideal), after_append, after_append, after_append, after_append, after_append, after_append]

/-! ## What each stretch leaves, over any contents before it -/

set_option maxRecDepth 8192 in
set_option maxHeartbeats 4000000 in
theorem a0_v3 (W : Valuation τ sig (Elt Ideal)) {ei : IVec S2x1600000 32}
    (e_arg1 : W (Proc.devRef .tc main_arg1) = ei) :
    after (a0 (F := Ideal)) W (Proc.devRef .tc main_v3) = srcV ei := by
  subst e_arg1
  unfold a0
  after_results_simp
  unfold srcV
  rfl

set_option maxRecDepth 8192 in
set_option maxHeartbeats 4000000 in
theorem a0_v6 (W : Valuation τ sig (Elt Ideal)) {ei : IVec S2x1600000 32}
    (e_arg1 : W (Proc.devRef .tc main_arg1) = ei) :
    after (a0 (F := Ideal)) W (Proc.devRef .tc main_v6) = dstV ei := by
  subst e_arg1
  unfold a0
  after_results_simp
  unfold dstV
  rfl

set_option maxRecDepth 8192 in
set_option maxHeartbeats 4000000 in
theorem a1_v16 (W : Valuation τ sig (Elt Ideal)) {dst : IVec S1700000 32}
    (e_v6 : W (Proc.devRef .tc main_v6) = dst) :
    after (a1 (F := Ideal)) W (Proc.devRef .tc main_v16) = dinvV dst := by
  subst e_v6
  unfold a1
  after_results_simp
  unfold dinvV degV colV
  rfl

set_option maxRecDepth 8192 in
set_option maxHeartbeats 4000000 in
theorem s1_v31 (W : Valuation τ sig (Elt Ideal)) {src : IVec S1700000 32} {dst : IVec S1700000 32} {dv : FVec Ideal S100000 .f32}
    (e_v3 : W (Proc.devRef .tc main_v3) = src) (e_v6 : W (Proc.devRef .tc main_v6) = dst) (e_v16 : W (Proc.devRef .tc main_v16) = dv) :
    after (s1 (F := Ideal)) W (Proc.devRef .tc main_v31) = mulf (Host.gather gather_S100000_S1700000x1_S1700000_n_0_n_n_0_1_1 dv (colV (wrapV src))) (Host.gather gather_S100000_S1700000x1_S1700000_n_0_n_n_0_1_1 dv (colV (wrapV dst))) := by
  subst e_v3 e_v6 e_v16
  unfold s1
  after_results_simp
  unfold colV wrapV
  rfl

set_option maxRecDepth 8192 in
set_option maxHeartbeats 4000000 in
theorem l1_v49 (W : Valuation τ sig (Elt Ideal)) {x : FVec Ideal S100000x128 .f32} {Wt : FVec Ideal S128x128 .f32} {b : FVec Ideal S128 .f32} {src : IVec S1700000 32} {dst : IVec S1700000 32} {nrm : FVec Ideal S1700000 .f32}
    (e_arg0 : W (Proc.devRef .tc main_arg0) = x) (e_arg3 : W (Proc.devRef .tc main_arg3) = Wt) (e_arg4 : W (Proc.devRef .tc main_arg4) = b) (e_v3 : W (Proc.devRef .tc main_v3) = src) (e_v6 : W (Proc.devRef .tc main_v6) = dst) (e_v31 : W (Proc.devRef .tc main_v31) = nrm) :
    after (l1 (F := Ideal)) W (Proc.devRef .tc main_v49) = layerH x Wt b src dst nrm := by
  subst e_arg0 e_arg3 e_arg4 e_v3 e_v6 e_v31
  unfold l1
  after_results_simp
  unfold layerH lastH gatherScatterH colV wrapV
  rfl

set_option maxRecDepth 8192 in
set_option maxHeartbeats 4000000 in
theorem l2_v67 (W : Valuation τ sig (Elt Ideal)) {x : FVec Ideal S100000x128 .f32} {Wt : FVec Ideal S128x128 .f32} {b : FVec Ideal S128 .f32} {src : IVec S1700000 32} {dst : IVec S1700000 32} {nrm : FVec Ideal S1700000 .f32}
    (e_v49 : W (Proc.devRef .tc main_v49) = x) (e_arg5 : W (Proc.devRef .tc main_arg5) = Wt) (e_arg6 : W (Proc.devRef .tc main_arg6) = b) (e_v3 : W (Proc.devRef .tc main_v3) = src) (e_v6 : W (Proc.devRef .tc main_v6) = dst) (e_v31 : W (Proc.devRef .tc main_v31) = nrm) :
    after (l2 (F := Ideal)) W (Proc.devRef .tc main_v67) = layerH x Wt b src dst nrm := by
  subst e_v49 e_arg5 e_arg6 e_v3 e_v6 e_v31
  unfold l2
  after_results_simp
  unfold layerH lastH gatherScatterH colV wrapV
  rfl

set_option maxRecDepth 8192 in
set_option maxHeartbeats 4000000 in
theorem l3_v84 (W : Valuation τ sig (Elt Ideal)) {x : FVec Ideal S100000x128 .f32} {Wt : FVec Ideal S128x128 .f32} {b : FVec Ideal S128 .f32} {src : IVec S1700000 32} {dst : IVec S1700000 32} {nrm : FVec Ideal S1700000 .f32}
    (e_v67 : W (Proc.devRef .tc main_v67) = x) (e_arg7 : W (Proc.devRef .tc main_arg7) = Wt) (e_arg8 : W (Proc.devRef .tc main_arg8) = b) (e_v3 : W (Proc.devRef .tc main_v3) = src) (e_v6 : W (Proc.devRef .tc main_v6) = dst) (e_v31 : W (Proc.devRef .tc main_v31) = nrm) :
    after (l3 (F := Ideal)) W (Proc.devRef .tc main_v84) = lastH x Wt b src dst nrm := by
  subst e_v67 e_arg7 e_arg8 e_v3 e_v6 e_v31
  unfold l3
  after_results_simp
  unfold lastH gatherScatterH colV wrapV
  rfl

set_option maxRecDepth 8192 in
set_option maxHeartbeats 4000000 in
theorem pr_v113 (W : Valuation τ sig (Elt Ideal)) {ri : IVec S8192x2 32} {h : FVec Ideal S100000x128 .f32} {P1 : FVec Ideal S128x128 .f32} {pb1 : FVec Ideal S128 .f32} {P2 : FVec Ideal S128x1 .f32} {pb2 : FVec Ideal S1 .f32}
    (e_arg2 : W (Proc.devRef .tc main_arg2) = ri) (e_v84 : W (Proc.devRef .tc main_v84) = h) (e_arg9 : W (Proc.devRef .tc main_arg9) = P1) (e_arg10 : W (Proc.devRef .tc main_arg10) = pb1) (e_arg11 : W (Proc.devRef .tc main_arg11) = P2) (e_arg12 : W (Proc.devRef .tc main_arg12) = pb2) :
    after (pr (F := Ideal)) W (Proc.devRef .tc main_v113) = predH ri h P1 pb1 P2 pb2 := by
  subst e_arg2 e_v84 e_arg9 e_arg10 e_arg11 e_arg12
  unfold pr
  after_results_simp
  unfold predH queryV
  rfl

set_option maxRecDepth 8192 in
set_option maxHeartbeats 4000000 in
theorem a0_keep_arg0 (W : Valuation τ sig (Elt Ideal)) {x : FVec Ideal S100000x128 .f32} (e : W (Proc.devRef .tc main_arg0) = x) :
    after (a0 (F := Ideal)) W (Proc.devRef .tc main_arg0) = x := by
  subst e
  unfold a0
  after_results_simp

set_option maxRecDepth 8192 in
set_option maxHeartbeats 4000000 in
theorem a0_keep_arg3 (W : Valuation τ sig (Elt Ideal)) {x : FVec Ideal S128x128 .f32} (e : W (Proc.devRef .tc main_arg3) = x) :
    after (a0 (F := Ideal)) W (Proc.devRef .tc main_arg3) = x := by
  subst e
  unfold a0
  after_results_simp

set_option maxRecDepth 8192 in
set_option maxHeartbeats 4000000 in
theorem a0_keep_arg4 (W : Valuation τ sig (Elt Ideal)) {x : FVec Ideal S128 .f32} (e : W (Proc.devRef .tc main_arg4) = x) :
    after (a0 (F := Ideal)) W (Proc.devRef .tc main_arg4) = x := by
  subst e
  unfold a0
  after_results_simp

set_option maxRecDepth 8192 in
set_option maxHeartbeats 4000000 in
theorem a0_keep_arg5 (W : Valuation τ sig (Elt Ideal)) {x : FVec Ideal S128x128 .f32} (e : W (Proc.devRef .tc main_arg5) = x) :
    after (a0 (F := Ideal)) W (Proc.devRef .tc main_arg5) = x := by
  subst e
  unfold a0
  after_results_simp

set_option maxRecDepth 8192 in
set_option maxHeartbeats 4000000 in
theorem a0_keep_arg6 (W : Valuation τ sig (Elt Ideal)) {x : FVec Ideal S128 .f32} (e : W (Proc.devRef .tc main_arg6) = x) :
    after (a0 (F := Ideal)) W (Proc.devRef .tc main_arg6) = x := by
  subst e
  unfold a0
  after_results_simp

set_option maxRecDepth 8192 in
set_option maxHeartbeats 4000000 in
theorem a0_keep_arg7 (W : Valuation τ sig (Elt Ideal)) {x : FVec Ideal S128x128 .f32} (e : W (Proc.devRef .tc main_arg7) = x) :
    after (a0 (F := Ideal)) W (Proc.devRef .tc main_arg7) = x := by
  subst e
  unfold a0
  after_results_simp

set_option maxRecDepth 8192 in
set_option maxHeartbeats 4000000 in
theorem a0_keep_arg8 (W : Valuation τ sig (Elt Ideal)) {x : FVec Ideal S128 .f32} (e : W (Proc.devRef .tc main_arg8) = x) :
    after (a0 (F := Ideal)) W (Proc.devRef .tc main_arg8) = x := by
  subst e
  unfold a0
  after_results_simp

set_option maxRecDepth 8192 in
set_option maxHeartbeats 4000000 in
theorem a0_keep_arg2 (W : Valuation τ sig (Elt Ideal)) {x : IVec S8192x2 32} (e : W (Proc.devRef .tc main_arg2) = x) :
    after (a0 (F := Ideal)) W (Proc.devRef .tc main_arg2) = x := by
  subst e
  unfold a0
  after_results_simp

set_option maxRecDepth 8192 in
set_option maxHeartbeats 4000000 in
theorem a0_keep_arg9 (W : Valuation τ sig (Elt Ideal)) {x : FVec Ideal S128x128 .f32} (e : W (Proc.devRef .tc main_arg9) = x) :
    after (a0 (F := Ideal)) W (Proc.devRef .tc main_arg9) = x := by
  subst e
  unfold a0
  after_results_simp

set_option maxRecDepth 8192 in
set_option maxHeartbeats 4000000 in
theorem a0_keep_arg10 (W : Valuation τ sig (Elt Ideal)) {x : FVec Ideal S128 .f32} (e : W (Proc.devRef .tc main_arg10) = x) :
    after (a0 (F := Ideal)) W (Proc.devRef .tc main_arg10) = x := by
  subst e
  unfold a0
  after_results_simp

set_option maxRecDepth 8192 in
set_option maxHeartbeats 4000000 in
theorem a0_keep_arg11 (W : Valuation τ sig (Elt Ideal)) {x : FVec Ideal S128x1 .f32} (e : W (Proc.devRef .tc main_arg11) = x) :
    after (a0 (F := Ideal)) W (Proc.devRef .tc main_arg11) = x := by
  subst e
  unfold a0
  after_results_simp

set_option maxRecDepth 8192 in
set_option maxHeartbeats 4000000 in
theorem a0_keep_arg12 (W : Valuation τ sig (Elt Ideal)) {x : FVec Ideal S1 .f32} (e : W (Proc.devRef .tc main_arg12) = x) :
    after (a0 (F := Ideal)) W (Proc.devRef .tc main_arg12) = x := by
  subst e
  unfold a0
  after_results_simp

set_option maxRecDepth 8192 in
set_option maxHeartbeats 4000000 in
theorem a1_keep_v3 (W : Valuation τ sig (Elt Ideal)) {x : IVec S1700000 32} (e : W (Proc.devRef .tc main_v3) = x) :
    after (a1 (F := Ideal)) W (Proc.devRef .tc main_v3) = x := by
  subst e
  unfold a1
  after_results_simp

set_option maxRecDepth 8192 in
set_option maxHeartbeats 4000000 in
theorem a1_keep_v6 (W : Valuation τ sig (Elt Ideal)) {x : IVec S1700000 32} (e : W (Proc.devRef .tc main_v6) = x) :
    after (a1 (F := Ideal)) W (Proc.devRef .tc main_v6) = x := by
  subst e
  unfold a1
  after_results_simp

set_option maxRecDepth 8192 in
set_option maxHeartbeats 4000000 in
theorem a1_keep_arg0 (W : Valuation τ sig (Elt Ideal)) {x : FVec Ideal S100000x128 .f32} (e : W (Proc.devRef .tc main_arg0) = x) :
    after (a1 (F := Ideal)) W (Proc.devRef .tc main_arg0) = x := by
  subst e
  unfold a1
  after_results_simp

set_option maxRecDepth 8192 in
set_option maxHeartbeats 4000000 in
theorem a1_keep_arg3 (W : Valuation τ sig (Elt Ideal)) {x : FVec Ideal S128x128 .f32} (e : W (Proc.devRef .tc main_arg3) = x) :
    after (a1 (F := Ideal)) W (Proc.devRef .tc main_arg3) = x := by
  subst e
  unfold a1
  after_results_simp

set_option maxRecDepth 8192 in
set_option maxHeartbeats 4000000 in
theorem a1_keep_arg4 (W : Valuation τ sig (Elt Ideal)) {x : FVec Ideal S128 .f32} (e : W (Proc.devRef .tc main_arg4) = x) :
    after (a1 (F := Ideal)) W (Proc.devRef .tc main_arg4) = x := by
  subst e
  unfold a1
  after_results_simp

set_option maxRecDepth 8192 in
set_option maxHeartbeats 4000000 in
theorem a1_keep_arg5 (W : Valuation τ sig (Elt Ideal)) {x : FVec Ideal S128x128 .f32} (e : W (Proc.devRef .tc main_arg5) = x) :
    after (a1 (F := Ideal)) W (Proc.devRef .tc main_arg5) = x := by
  subst e
  unfold a1
  after_results_simp

set_option maxRecDepth 8192 in
set_option maxHeartbeats 4000000 in
theorem a1_keep_arg6 (W : Valuation τ sig (Elt Ideal)) {x : FVec Ideal S128 .f32} (e : W (Proc.devRef .tc main_arg6) = x) :
    after (a1 (F := Ideal)) W (Proc.devRef .tc main_arg6) = x := by
  subst e
  unfold a1
  after_results_simp

set_option maxRecDepth 8192 in
set_option maxHeartbeats 4000000 in
theorem a1_keep_arg7 (W : Valuation τ sig (Elt Ideal)) {x : FVec Ideal S128x128 .f32} (e : W (Proc.devRef .tc main_arg7) = x) :
    after (a1 (F := Ideal)) W (Proc.devRef .tc main_arg7) = x := by
  subst e
  unfold a1
  after_results_simp

set_option maxRecDepth 8192 in
set_option maxHeartbeats 4000000 in
theorem a1_keep_arg8 (W : Valuation τ sig (Elt Ideal)) {x : FVec Ideal S128 .f32} (e : W (Proc.devRef .tc main_arg8) = x) :
    after (a1 (F := Ideal)) W (Proc.devRef .tc main_arg8) = x := by
  subst e
  unfold a1
  after_results_simp

set_option maxRecDepth 8192 in
set_option maxHeartbeats 4000000 in
theorem a1_keep_arg2 (W : Valuation τ sig (Elt Ideal)) {x : IVec S8192x2 32} (e : W (Proc.devRef .tc main_arg2) = x) :
    after (a1 (F := Ideal)) W (Proc.devRef .tc main_arg2) = x := by
  subst e
  unfold a1
  after_results_simp

set_option maxRecDepth 8192 in
set_option maxHeartbeats 4000000 in
theorem a1_keep_arg9 (W : Valuation τ sig (Elt Ideal)) {x : FVec Ideal S128x128 .f32} (e : W (Proc.devRef .tc main_arg9) = x) :
    after (a1 (F := Ideal)) W (Proc.devRef .tc main_arg9) = x := by
  subst e
  unfold a1
  after_results_simp

set_option maxRecDepth 8192 in
set_option maxHeartbeats 4000000 in
theorem a1_keep_arg10 (W : Valuation τ sig (Elt Ideal)) {x : FVec Ideal S128 .f32} (e : W (Proc.devRef .tc main_arg10) = x) :
    after (a1 (F := Ideal)) W (Proc.devRef .tc main_arg10) = x := by
  subst e
  unfold a1
  after_results_simp

set_option maxRecDepth 8192 in
set_option maxHeartbeats 4000000 in
theorem a1_keep_arg11 (W : Valuation τ sig (Elt Ideal)) {x : FVec Ideal S128x1 .f32} (e : W (Proc.devRef .tc main_arg11) = x) :
    after (a1 (F := Ideal)) W (Proc.devRef .tc main_arg11) = x := by
  subst e
  unfold a1
  after_results_simp

set_option maxRecDepth 8192 in
set_option maxHeartbeats 4000000 in
theorem a1_keep_arg12 (W : Valuation τ sig (Elt Ideal)) {x : FVec Ideal S1 .f32} (e : W (Proc.devRef .tc main_arg12) = x) :
    after (a1 (F := Ideal)) W (Proc.devRef .tc main_arg12) = x := by
  subst e
  unfold a1
  after_results_simp

set_option maxRecDepth 8192 in
set_option maxHeartbeats 4000000 in
theorem s1_keep_arg0 (W : Valuation τ sig (Elt Ideal)) {x : FVec Ideal S100000x128 .f32} (e : W (Proc.devRef .tc main_arg0) = x) :
    after (s1 (F := Ideal)) W (Proc.devRef .tc main_arg0) = x := by
  subst e
  unfold s1
  after_results_simp

set_option maxRecDepth 8192 in
set_option maxHeartbeats 4000000 in
theorem s1_keep_arg3 (W : Valuation τ sig (Elt Ideal)) {x : FVec Ideal S128x128 .f32} (e : W (Proc.devRef .tc main_arg3) = x) :
    after (s1 (F := Ideal)) W (Proc.devRef .tc main_arg3) = x := by
  subst e
  unfold s1
  after_results_simp

set_option maxRecDepth 8192 in
set_option maxHeartbeats 4000000 in
theorem s1_keep_arg4 (W : Valuation τ sig (Elt Ideal)) {x : FVec Ideal S128 .f32} (e : W (Proc.devRef .tc main_arg4) = x) :
    after (s1 (F := Ideal)) W (Proc.devRef .tc main_arg4) = x := by
  subst e
  unfold s1
  after_results_simp

set_option maxRecDepth 8192 in
set_option maxHeartbeats 4000000 in
theorem s1_keep_v3 (W : Valuation τ sig (Elt Ideal)) {x : IVec S1700000 32} (e : W (Proc.devRef .tc main_v3) = x) :
    after (s1 (F := Ideal)) W (Proc.devRef .tc main_v3) = x := by
  subst e
  unfold s1
  after_results_simp

set_option maxRecDepth 8192 in
set_option maxHeartbeats 4000000 in
theorem s1_keep_v6 (W : Valuation τ sig (Elt Ideal)) {x : IVec S1700000 32} (e : W (Proc.devRef .tc main_v6) = x) :
    after (s1 (F := Ideal)) W (Proc.devRef .tc main_v6) = x := by
  subst e
  unfold s1
  after_results_simp

set_option maxRecDepth 8192 in
set_option maxHeartbeats 4000000 in
theorem s1_keep_arg5 (W : Valuation τ sig (Elt Ideal)) {x : FVec Ideal S128x128 .f32} (e : W (Proc.devRef .tc main_arg5) = x) :
    after (s1 (F := Ideal)) W (Proc.devRef .tc main_arg5) = x := by
  subst e
  unfold s1
  after_results_simp

set_option maxRecDepth 8192 in
set_option maxHeartbeats 4000000 in
theorem s1_keep_arg6 (W : Valuation τ sig (Elt Ideal)) {x : FVec Ideal S128 .f32} (e : W (Proc.devRef .tc main_arg6) = x) :
    after (s1 (F := Ideal)) W (Proc.devRef .tc main_arg6) = x := by
  subst e
  unfold s1
  after_results_simp

set_option maxRecDepth 8192 in
set_option maxHeartbeats 4000000 in
theorem s1_keep_arg7 (W : Valuation τ sig (Elt Ideal)) {x : FVec Ideal S128x128 .f32} (e : W (Proc.devRef .tc main_arg7) = x) :
    after (s1 (F := Ideal)) W (Proc.devRef .tc main_arg7) = x := by
  subst e
  unfold s1
  after_results_simp

set_option maxRecDepth 8192 in
set_option maxHeartbeats 4000000 in
theorem s1_keep_arg8 (W : Valuation τ sig (Elt Ideal)) {x : FVec Ideal S128 .f32} (e : W (Proc.devRef .tc main_arg8) = x) :
    after (s1 (F := Ideal)) W (Proc.devRef .tc main_arg8) = x := by
  subst e
  unfold s1
  after_results_simp

set_option maxRecDepth 8192 in
set_option maxHeartbeats 4000000 in
theorem s1_keep_arg2 (W : Valuation τ sig (Elt Ideal)) {x : IVec S8192x2 32} (e : W (Proc.devRef .tc main_arg2) = x) :
    after (s1 (F := Ideal)) W (Proc.devRef .tc main_arg2) = x := by
  subst e
  unfold s1
  after_results_simp

set_option maxRecDepth 8192 in
set_option maxHeartbeats 4000000 in
theorem s1_keep_arg9 (W : Valuation τ sig (Elt Ideal)) {x : FVec Ideal S128x128 .f32} (e : W (Proc.devRef .tc main_arg9) = x) :
    after (s1 (F := Ideal)) W (Proc.devRef .tc main_arg9) = x := by
  subst e
  unfold s1
  after_results_simp

set_option maxRecDepth 8192 in
set_option maxHeartbeats 4000000 in
theorem s1_keep_arg10 (W : Valuation τ sig (Elt Ideal)) {x : FVec Ideal S128 .f32} (e : W (Proc.devRef .tc main_arg10) = x) :
    after (s1 (F := Ideal)) W (Proc.devRef .tc main_arg10) = x := by
  subst e
  unfold s1
  after_results_simp

set_option maxRecDepth 8192 in
set_option maxHeartbeats 4000000 in
theorem s1_keep_arg11 (W : Valuation τ sig (Elt Ideal)) {x : FVec Ideal S128x1 .f32} (e : W (Proc.devRef .tc main_arg11) = x) :
    after (s1 (F := Ideal)) W (Proc.devRef .tc main_arg11) = x := by
  subst e
  unfold s1
  after_results_simp

set_option maxRecDepth 8192 in
set_option maxHeartbeats 4000000 in
theorem s1_keep_arg12 (W : Valuation τ sig (Elt Ideal)) {x : FVec Ideal S1 .f32} (e : W (Proc.devRef .tc main_arg12) = x) :
    after (s1 (F := Ideal)) W (Proc.devRef .tc main_arg12) = x := by
  subst e
  unfold s1
  after_results_simp

set_option maxRecDepth 8192 in
set_option maxHeartbeats 4000000 in
theorem l1_keep_arg5 (W : Valuation τ sig (Elt Ideal)) {x : FVec Ideal S128x128 .f32} (e : W (Proc.devRef .tc main_arg5) = x) :
    after (l1 (F := Ideal)) W (Proc.devRef .tc main_arg5) = x := by
  subst e
  unfold l1
  after_results_simp

set_option maxRecDepth 8192 in
set_option maxHeartbeats 4000000 in
theorem l1_keep_arg6 (W : Valuation τ sig (Elt Ideal)) {x : FVec Ideal S128 .f32} (e : W (Proc.devRef .tc main_arg6) = x) :
    after (l1 (F := Ideal)) W (Proc.devRef .tc main_arg6) = x := by
  subst e
  unfold l1
  after_results_simp

set_option maxRecDepth 8192 in
set_option maxHeartbeats 4000000 in
theorem l1_keep_v3 (W : Valuation τ sig (Elt Ideal)) {x : IVec S1700000 32} (e : W (Proc.devRef .tc main_v3) = x) :
    after (l1 (F := Ideal)) W (Proc.devRef .tc main_v3) = x := by
  subst e
  unfold l1
  after_results_simp

set_option maxRecDepth 8192 in
set_option maxHeartbeats 4000000 in
theorem l1_keep_v6 (W : Valuation τ sig (Elt Ideal)) {x : IVec S1700000 32} (e : W (Proc.devRef .tc main_v6) = x) :
    after (l1 (F := Ideal)) W (Proc.devRef .tc main_v6) = x := by
  subst e
  unfold l1
  after_results_simp

set_option maxRecDepth 8192 in
set_option maxHeartbeats 4000000 in
theorem l1_keep_v31 (W : Valuation τ sig (Elt Ideal)) {x : FVec Ideal S1700000 .f32} (e : W (Proc.devRef .tc main_v31) = x) :
    after (l1 (F := Ideal)) W (Proc.devRef .tc main_v31) = x := by
  subst e
  unfold l1
  after_results_simp

set_option maxRecDepth 8192 in
set_option maxHeartbeats 4000000 in
theorem l1_keep_arg7 (W : Valuation τ sig (Elt Ideal)) {x : FVec Ideal S128x128 .f32} (e : W (Proc.devRef .tc main_arg7) = x) :
    after (l1 (F := Ideal)) W (Proc.devRef .tc main_arg7) = x := by
  subst e
  unfold l1
  after_results_simp

set_option maxRecDepth 8192 in
set_option maxHeartbeats 4000000 in
theorem l1_keep_arg8 (W : Valuation τ sig (Elt Ideal)) {x : FVec Ideal S128 .f32} (e : W (Proc.devRef .tc main_arg8) = x) :
    after (l1 (F := Ideal)) W (Proc.devRef .tc main_arg8) = x := by
  subst e
  unfold l1
  after_results_simp

set_option maxRecDepth 8192 in
set_option maxHeartbeats 4000000 in
theorem l1_keep_arg2 (W : Valuation τ sig (Elt Ideal)) {x : IVec S8192x2 32} (e : W (Proc.devRef .tc main_arg2) = x) :
    after (l1 (F := Ideal)) W (Proc.devRef .tc main_arg2) = x := by
  subst e
  unfold l1
  after_results_simp

set_option maxRecDepth 8192 in
set_option maxHeartbeats 4000000 in
theorem l1_keep_arg9 (W : Valuation τ sig (Elt Ideal)) {x : FVec Ideal S128x128 .f32} (e : W (Proc.devRef .tc main_arg9) = x) :
    after (l1 (F := Ideal)) W (Proc.devRef .tc main_arg9) = x := by
  subst e
  unfold l1
  after_results_simp

set_option maxRecDepth 8192 in
set_option maxHeartbeats 4000000 in
theorem l1_keep_arg10 (W : Valuation τ sig (Elt Ideal)) {x : FVec Ideal S128 .f32} (e : W (Proc.devRef .tc main_arg10) = x) :
    after (l1 (F := Ideal)) W (Proc.devRef .tc main_arg10) = x := by
  subst e
  unfold l1
  after_results_simp

set_option maxRecDepth 8192 in
set_option maxHeartbeats 4000000 in
theorem l1_keep_arg11 (W : Valuation τ sig (Elt Ideal)) {x : FVec Ideal S128x1 .f32} (e : W (Proc.devRef .tc main_arg11) = x) :
    after (l1 (F := Ideal)) W (Proc.devRef .tc main_arg11) = x := by
  subst e
  unfold l1
  after_results_simp

set_option maxRecDepth 8192 in
set_option maxHeartbeats 4000000 in
theorem l1_keep_arg12 (W : Valuation τ sig (Elt Ideal)) {x : FVec Ideal S1 .f32} (e : W (Proc.devRef .tc main_arg12) = x) :
    after (l1 (F := Ideal)) W (Proc.devRef .tc main_arg12) = x := by
  subst e
  unfold l1
  after_results_simp

set_option maxRecDepth 8192 in
set_option maxHeartbeats 4000000 in
theorem l2_keep_arg7 (W : Valuation τ sig (Elt Ideal)) {x : FVec Ideal S128x128 .f32} (e : W (Proc.devRef .tc main_arg7) = x) :
    after (l2 (F := Ideal)) W (Proc.devRef .tc main_arg7) = x := by
  subst e
  unfold l2
  after_results_simp

set_option maxRecDepth 8192 in
set_option maxHeartbeats 4000000 in
theorem l2_keep_arg8 (W : Valuation τ sig (Elt Ideal)) {x : FVec Ideal S128 .f32} (e : W (Proc.devRef .tc main_arg8) = x) :
    after (l2 (F := Ideal)) W (Proc.devRef .tc main_arg8) = x := by
  subst e
  unfold l2
  after_results_simp

set_option maxRecDepth 8192 in
set_option maxHeartbeats 4000000 in
theorem l2_keep_v3 (W : Valuation τ sig (Elt Ideal)) {x : IVec S1700000 32} (e : W (Proc.devRef .tc main_v3) = x) :
    after (l2 (F := Ideal)) W (Proc.devRef .tc main_v3) = x := by
  subst e
  unfold l2
  after_results_simp

set_option maxRecDepth 8192 in
set_option maxHeartbeats 4000000 in
theorem l2_keep_v6 (W : Valuation τ sig (Elt Ideal)) {x : IVec S1700000 32} (e : W (Proc.devRef .tc main_v6) = x) :
    after (l2 (F := Ideal)) W (Proc.devRef .tc main_v6) = x := by
  subst e
  unfold l2
  after_results_simp

set_option maxRecDepth 8192 in
set_option maxHeartbeats 4000000 in
theorem l2_keep_v31 (W : Valuation τ sig (Elt Ideal)) {x : FVec Ideal S1700000 .f32} (e : W (Proc.devRef .tc main_v31) = x) :
    after (l2 (F := Ideal)) W (Proc.devRef .tc main_v31) = x := by
  subst e
  unfold l2
  after_results_simp

set_option maxRecDepth 8192 in
set_option maxHeartbeats 4000000 in
theorem l2_keep_arg2 (W : Valuation τ sig (Elt Ideal)) {x : IVec S8192x2 32} (e : W (Proc.devRef .tc main_arg2) = x) :
    after (l2 (F := Ideal)) W (Proc.devRef .tc main_arg2) = x := by
  subst e
  unfold l2
  after_results_simp

set_option maxRecDepth 8192 in
set_option maxHeartbeats 4000000 in
theorem l2_keep_arg9 (W : Valuation τ sig (Elt Ideal)) {x : FVec Ideal S128x128 .f32} (e : W (Proc.devRef .tc main_arg9) = x) :
    after (l2 (F := Ideal)) W (Proc.devRef .tc main_arg9) = x := by
  subst e
  unfold l2
  after_results_simp

set_option maxRecDepth 8192 in
set_option maxHeartbeats 4000000 in
theorem l2_keep_arg10 (W : Valuation τ sig (Elt Ideal)) {x : FVec Ideal S128 .f32} (e : W (Proc.devRef .tc main_arg10) = x) :
    after (l2 (F := Ideal)) W (Proc.devRef .tc main_arg10) = x := by
  subst e
  unfold l2
  after_results_simp

set_option maxRecDepth 8192 in
set_option maxHeartbeats 4000000 in
theorem l2_keep_arg11 (W : Valuation τ sig (Elt Ideal)) {x : FVec Ideal S128x1 .f32} (e : W (Proc.devRef .tc main_arg11) = x) :
    after (l2 (F := Ideal)) W (Proc.devRef .tc main_arg11) = x := by
  subst e
  unfold l2
  after_results_simp

set_option maxRecDepth 8192 in
set_option maxHeartbeats 4000000 in
theorem l2_keep_arg12 (W : Valuation τ sig (Elt Ideal)) {x : FVec Ideal S1 .f32} (e : W (Proc.devRef .tc main_arg12) = x) :
    after (l2 (F := Ideal)) W (Proc.devRef .tc main_arg12) = x := by
  subst e
  unfold l2
  after_results_simp

set_option maxRecDepth 8192 in
set_option maxHeartbeats 4000000 in
theorem l3_keep_arg2 (W : Valuation τ sig (Elt Ideal)) {x : IVec S8192x2 32} (e : W (Proc.devRef .tc main_arg2) = x) :
    after (l3 (F := Ideal)) W (Proc.devRef .tc main_arg2) = x := by
  subst e
  unfold l3
  after_results_simp

set_option maxRecDepth 8192 in
set_option maxHeartbeats 4000000 in
theorem l3_keep_arg9 (W : Valuation τ sig (Elt Ideal)) {x : FVec Ideal S128x128 .f32} (e : W (Proc.devRef .tc main_arg9) = x) :
    after (l3 (F := Ideal)) W (Proc.devRef .tc main_arg9) = x := by
  subst e
  unfold l3
  after_results_simp

set_option maxRecDepth 8192 in
set_option maxHeartbeats 4000000 in
theorem l3_keep_arg10 (W : Valuation τ sig (Elt Ideal)) {x : FVec Ideal S128 .f32} (e : W (Proc.devRef .tc main_arg10) = x) :
    after (l3 (F := Ideal)) W (Proc.devRef .tc main_arg10) = x := by
  subst e
  unfold l3
  after_results_simp

set_option maxRecDepth 8192 in
set_option maxHeartbeats 4000000 in
theorem l3_keep_arg11 (W : Valuation τ sig (Elt Ideal)) {x : FVec Ideal S128x1 .f32} (e : W (Proc.devRef .tc main_arg11) = x) :
    after (l3 (F := Ideal)) W (Proc.devRef .tc main_arg11) = x := by
  subst e
  unfold l3
  after_results_simp

set_option maxRecDepth 8192 in
set_option maxHeartbeats 4000000 in
theorem l3_keep_arg12 (W : Valuation τ sig (Elt Ideal)) {x : FVec Ideal S1 .f32} (e : W (Proc.devRef .tc main_arg12) = x) :
    after (l3 (F := Ideal)) W (Proc.devRef .tc main_arg12) = x := by
  subst e
  unfold l3
  after_results_simp

/-! ## The whole line -/

/-- The whole line's result, from any contents whose arguments are named: the stages composed. -/
theorem after_ops_host (V : Valuation τ sig (Elt Ideal))
    {x : FVec Ideal S100000x128 .f32} {ei : IVec S2x1600000 32} {ri : IVec S8192x2 32} {W1 : FVec Ideal S128x128 .f32} {b1 : FVec Ideal S128 .f32} {W2 : FVec Ideal S128x128 .f32} {b2 : FVec Ideal S128 .f32} {W3 : FVec Ideal S128x128 .f32} {b3 : FVec Ideal S128 .f32} {P1 : FVec Ideal S128x128 .f32} {pb1 : FVec Ideal S128 .f32} {P2 : FVec Ideal S128x1 .f32} {pb2 : FVec Ideal S1 .f32}
    (h0_arg0 : V (Proc.devRef .tc main_arg0) = x) (h0_arg1 : V (Proc.devRef .tc main_arg1) = ei) (h0_arg2 : V (Proc.devRef .tc main_arg2) = ri) (h0_arg3 : V (Proc.devRef .tc main_arg3) = W1) (h0_arg4 : V (Proc.devRef .tc main_arg4) = b1) (h0_arg5 : V (Proc.devRef .tc main_arg5) = W2) (h0_arg6 : V (Proc.devRef .tc main_arg6) = b2) (h0_arg7 : V (Proc.devRef .tc main_arg7) = W3) (h0_arg8 : V (Proc.devRef .tc main_arg8) = b3) (h0_arg9 : V (Proc.devRef .tc main_arg9) = P1) (h0_arg10 : V (Proc.devRef .tc main_arg10) = pb1) (h0_arg11 : V (Proc.devRef .tc main_arg11) = P2) (h0_arg12 : V (Proc.devRef .tc main_arg12) = pb2) :
    after (ops (F := Ideal)) V (Proc.devRef .tc main_v113)
      = predH ri (lastH (layerH (layerH x W1 b1 (srcV ei) (dstV ei) (normV (srcV ei) (dstV ei))) W2 b2 (srcV ei) (dstV ei) (normV (srcV ei) (dstV ei))) W3 b3 (srcV ei) (dstV ei) (normV (srcV ei) (dstV ei))) P1 pb1 P2 pb2 := by
  rw [after_ops_eq]
  have h1_v3 := a0_v3 V h0_arg1
  have h1_v6 := a0_v6 V h0_arg1
  have h1_arg0 := a0_keep_arg0 V h0_arg0
  have h1_arg3 := a0_keep_arg3 V h0_arg3
  have h1_arg4 := a0_keep_arg4 V h0_arg4
  have h1_arg5 := a0_keep_arg5 V h0_arg5
  have h1_arg6 := a0_keep_arg6 V h0_arg6
  have h1_arg7 := a0_keep_arg7 V h0_arg7
  have h1_arg8 := a0_keep_arg8 V h0_arg8
  have h1_arg2 := a0_keep_arg2 V h0_arg2
  have h1_arg9 := a0_keep_arg9 V h0_arg9
  have h1_arg10 := a0_keep_arg10 V h0_arg10
  have h1_arg11 := a0_keep_arg11 V h0_arg11
  have h1_arg12 := a0_keep_arg12 V h0_arg12
  have h2_v16 := a1_v16 (after (a0 (F := Ideal)) V) h1_v6
  have h2_v3 := a1_keep_v3 (after (a0 (F := Ideal)) V) h1_v3
  have h2_v6 := a1_keep_v6 (after (a0 (F := Ideal)) V) h1_v6
  have h2_arg0 := a1_keep_arg0 (after (a0 (F := Ideal)) V) h1_arg0
  have h2_arg3 := a1_keep_arg3 (after (a0 (F := Ideal)) V) h1_arg3
  have h2_arg4 := a1_keep_arg4 (after (a0 (F := Ideal)) V) h1_arg4
  have h2_arg5 := a1_keep_arg5 (after (a0 (F := Ideal)) V) h1_arg5
  have h2_arg6 := a1_keep_arg6 (after (a0 (F := Ideal)) V) h1_arg6
  have h2_arg7 := a1_keep_arg7 (after (a0 (F := Ideal)) V) h1_arg7
  have h2_arg8 := a1_keep_arg8 (after (a0 (F := Ideal)) V) h1_arg8
  have h2_arg2 := a1_keep_arg2 (after (a0 (F := Ideal)) V) h1_arg2
  have h2_arg9 := a1_keep_arg9 (after (a0 (F := Ideal)) V) h1_arg9
  have h2_arg10 := a1_keep_arg10 (after (a0 (F := Ideal)) V) h1_arg10
  have h2_arg11 := a1_keep_arg11 (after (a0 (F := Ideal)) V) h1_arg11
  have h2_arg12 := a1_keep_arg12 (after (a0 (F := Ideal)) V) h1_arg12
  have h3_v31 := s1_v31 (after (a1 (F := Ideal)) (after (a0 (F := Ideal)) V)) h2_v3 h2_v6 h2_v16
  have h3_arg0 := s1_keep_arg0 (after (a1 (F := Ideal)) (after (a0 (F := Ideal)) V)) h2_arg0
  have h3_arg3 := s1_keep_arg3 (after (a1 (F := Ideal)) (after (a0 (F := Ideal)) V)) h2_arg3
  have h3_arg4 := s1_keep_arg4 (after (a1 (F := Ideal)) (after (a0 (F := Ideal)) V)) h2_arg4
  have h3_v3 := s1_keep_v3 (after (a1 (F := Ideal)) (after (a0 (F := Ideal)) V)) h2_v3
  have h3_v6 := s1_keep_v6 (after (a1 (F := Ideal)) (after (a0 (F := Ideal)) V)) h2_v6
  have h3_arg5 := s1_keep_arg5 (after (a1 (F := Ideal)) (after (a0 (F := Ideal)) V)) h2_arg5
  have h3_arg6 := s1_keep_arg6 (after (a1 (F := Ideal)) (after (a0 (F := Ideal)) V)) h2_arg6
  have h3_arg7 := s1_keep_arg7 (after (a1 (F := Ideal)) (after (a0 (F := Ideal)) V)) h2_arg7
  have h3_arg8 := s1_keep_arg8 (after (a1 (F := Ideal)) (after (a0 (F := Ideal)) V)) h2_arg8
  have h3_arg2 := s1_keep_arg2 (after (a1 (F := Ideal)) (after (a0 (F := Ideal)) V)) h2_arg2
  have h3_arg9 := s1_keep_arg9 (after (a1 (F := Ideal)) (after (a0 (F := Ideal)) V)) h2_arg9
  have h3_arg10 := s1_keep_arg10 (after (a1 (F := Ideal)) (after (a0 (F := Ideal)) V)) h2_arg10
  have h3_arg11 := s1_keep_arg11 (after (a1 (F := Ideal)) (after (a0 (F := Ideal)) V)) h2_arg11
  have h3_arg12 := s1_keep_arg12 (after (a1 (F := Ideal)) (after (a0 (F := Ideal)) V)) h2_arg12
  have h4_v49 := l1_v49 (after (s1 (F := Ideal)) (after (a1 (F := Ideal)) (after (a0 (F := Ideal)) V))) h3_arg0 h3_arg3 h3_arg4 h3_v3 h3_v6 h3_v31
  have h4_arg5 := l1_keep_arg5 (after (s1 (F := Ideal)) (after (a1 (F := Ideal)) (after (a0 (F := Ideal)) V))) h3_arg5
  have h4_arg6 := l1_keep_arg6 (after (s1 (F := Ideal)) (after (a1 (F := Ideal)) (after (a0 (F := Ideal)) V))) h3_arg6
  have h4_v3 := l1_keep_v3 (after (s1 (F := Ideal)) (after (a1 (F := Ideal)) (after (a0 (F := Ideal)) V))) h3_v3
  have h4_v6 := l1_keep_v6 (after (s1 (F := Ideal)) (after (a1 (F := Ideal)) (after (a0 (F := Ideal)) V))) h3_v6
  have h4_v31 := l1_keep_v31 (after (s1 (F := Ideal)) (after (a1 (F := Ideal)) (after (a0 (F := Ideal)) V))) h3_v31
  have h4_arg7 := l1_keep_arg7 (after (s1 (F := Ideal)) (after (a1 (F := Ideal)) (after (a0 (F := Ideal)) V))) h3_arg7
  have h4_arg8 := l1_keep_arg8 (after (s1 (F := Ideal)) (after (a1 (F := Ideal)) (after (a0 (F := Ideal)) V))) h3_arg8
  have h4_arg2 := l1_keep_arg2 (after (s1 (F := Ideal)) (after (a1 (F := Ideal)) (after (a0 (F := Ideal)) V))) h3_arg2
  have h4_arg9 := l1_keep_arg9 (after (s1 (F := Ideal)) (after (a1 (F := Ideal)) (after (a0 (F := Ideal)) V))) h3_arg9
  have h4_arg10 := l1_keep_arg10 (after (s1 (F := Ideal)) (after (a1 (F := Ideal)) (after (a0 (F := Ideal)) V))) h3_arg10
  have h4_arg11 := l1_keep_arg11 (after (s1 (F := Ideal)) (after (a1 (F := Ideal)) (after (a0 (F := Ideal)) V))) h3_arg11
  have h4_arg12 := l1_keep_arg12 (after (s1 (F := Ideal)) (after (a1 (F := Ideal)) (after (a0 (F := Ideal)) V))) h3_arg12
  have h5_v67 := l2_v67 (after (l1 (F := Ideal)) (after (s1 (F := Ideal)) (after (a1 (F := Ideal)) (after (a0 (F := Ideal)) V)))) h4_v49 h4_arg5 h4_arg6 h4_v3 h4_v6 h4_v31
  have h5_arg7 := l2_keep_arg7 (after (l1 (F := Ideal)) (after (s1 (F := Ideal)) (after (a1 (F := Ideal)) (after (a0 (F := Ideal)) V)))) h4_arg7
  have h5_arg8 := l2_keep_arg8 (after (l1 (F := Ideal)) (after (s1 (F := Ideal)) (after (a1 (F := Ideal)) (after (a0 (F := Ideal)) V)))) h4_arg8
  have h5_v3 := l2_keep_v3 (after (l1 (F := Ideal)) (after (s1 (F := Ideal)) (after (a1 (F := Ideal)) (after (a0 (F := Ideal)) V)))) h4_v3
  have h5_v6 := l2_keep_v6 (after (l1 (F := Ideal)) (after (s1 (F := Ideal)) (after (a1 (F := Ideal)) (after (a0 (F := Ideal)) V)))) h4_v6
  have h5_v31 := l2_keep_v31 (after (l1 (F := Ideal)) (after (s1 (F := Ideal)) (after (a1 (F := Ideal)) (after (a0 (F := Ideal)) V)))) h4_v31
  have h5_arg2 := l2_keep_arg2 (after (l1 (F := Ideal)) (after (s1 (F := Ideal)) (after (a1 (F := Ideal)) (after (a0 (F := Ideal)) V)))) h4_arg2
  have h5_arg9 := l2_keep_arg9 (after (l1 (F := Ideal)) (after (s1 (F := Ideal)) (after (a1 (F := Ideal)) (after (a0 (F := Ideal)) V)))) h4_arg9
  have h5_arg10 := l2_keep_arg10 (after (l1 (F := Ideal)) (after (s1 (F := Ideal)) (after (a1 (F := Ideal)) (after (a0 (F := Ideal)) V)))) h4_arg10
  have h5_arg11 := l2_keep_arg11 (after (l1 (F := Ideal)) (after (s1 (F := Ideal)) (after (a1 (F := Ideal)) (after (a0 (F := Ideal)) V)))) h4_arg11
  have h5_arg12 := l2_keep_arg12 (after (l1 (F := Ideal)) (after (s1 (F := Ideal)) (after (a1 (F := Ideal)) (after (a0 (F := Ideal)) V)))) h4_arg12
  have h6_v84 := l3_v84 (after (l2 (F := Ideal)) (after (l1 (F := Ideal)) (after (s1 (F := Ideal)) (after (a1 (F := Ideal)) (after (a0 (F := Ideal)) V))))) h5_v67 h5_arg7 h5_arg8 h5_v3 h5_v6 h5_v31
  have h6_arg2 := l3_keep_arg2 (after (l2 (F := Ideal)) (after (l1 (F := Ideal)) (after (s1 (F := Ideal)) (after (a1 (F := Ideal)) (after (a0 (F := Ideal)) V))))) h5_arg2
  have h6_arg9 := l3_keep_arg9 (after (l2 (F := Ideal)) (after (l1 (F := Ideal)) (after (s1 (F := Ideal)) (after (a1 (F := Ideal)) (after (a0 (F := Ideal)) V))))) h5_arg9
  have h6_arg10 := l3_keep_arg10 (after (l2 (F := Ideal)) (after (l1 (F := Ideal)) (after (s1 (F := Ideal)) (after (a1 (F := Ideal)) (after (a0 (F := Ideal)) V))))) h5_arg10
  have h6_arg11 := l3_keep_arg11 (after (l2 (F := Ideal)) (after (l1 (F := Ideal)) (after (s1 (F := Ideal)) (after (a1 (F := Ideal)) (after (a0 (F := Ideal)) V))))) h5_arg11
  have h6_arg12 := l3_keep_arg12 (after (l2 (F := Ideal)) (after (l1 (F := Ideal)) (after (s1 (F := Ideal)) (after (a1 (F := Ideal)) (after (a0 (F := Ideal)) V))))) h5_arg12
  have h7_v113 := pr_v113 (after (l3 (F := Ideal)) (after (l2 (F := Ideal)) (after (l1 (F := Ideal)) (after (s1 (F := Ideal)) (after (a1 (F := Ideal)) (after (a0 (F := Ideal)) V)))))) h6_arg2 h6_v84 h6_arg9 h6_arg10 h6_arg11 h6_arg12
  unfold normV
  exact h7_v113

end Cert.ReferenceIdeal.Stages

namespace Cert.ReferenceIdeal.RefValue

open Cert.ReferenceIdeal Cert.ReferenceIdeal.Gen Cert.ReferenceIdeal.RunP Cert.ReferenceIdeal.Forms Cert.ReferenceIdeal.Stages
open Idealize.ShloMosaic Idealize.ShloMosaic.TcCoe Idealize.SL.Sem Idealize.ShloMosaic.StableHlo

set_option maxRecDepth 8192 in
set_option maxHeartbeats 57600000 in
/-- On every device, from any memory with zero counters: every weakly fair execution of the reference terminates with
    its result at the composition of its stages applied to the arguments, and the arguments unchanged. -/
theorem run_host (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v113)
        = predH (m ((c.tc : Thread nD τ).loc main_arg2)) (lastH (layerH (layerH (m ((c.tc : Thread nD τ).loc main_arg0)) (m ((c.tc : Thread nD τ).loc main_arg3)) (m ((c.tc : Thread nD τ).loc main_arg4)) (srcV (m ((c.tc : Thread nD τ).loc main_arg1))) (dstV (m ((c.tc : Thread nD τ).loc main_arg1))) (normV (srcV (m ((c.tc : Thread nD τ).loc main_arg1))) (dstV (m ((c.tc : Thread nD τ).loc main_arg1))))) (m ((c.tc : Thread nD τ).loc main_arg5)) (m ((c.tc : Thread nD τ).loc main_arg6)) (srcV (m ((c.tc : Thread nD τ).loc main_arg1))) (dstV (m ((c.tc : Thread nD τ).loc main_arg1))) (normV (srcV (m ((c.tc : Thread nD τ).loc main_arg1))) (dstV (m ((c.tc : Thread nD τ).loc main_arg1))))) (m ((c.tc : Thread nD τ).loc main_arg7)) (m ((c.tc : Thread nD τ).loc main_arg8)) (srcV (m ((c.tc : Thread nD τ).loc main_arg1))) (dstV (m ((c.tc : Thread nD τ).loc main_arg1))) (normV (srcV (m ((c.tc : Thread nD τ).loc main_arg1))) (dstV (m ((c.tc : Thread nD τ).loc main_arg1))))) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun _ h c => ⟨(h c main_v113).trans
        (after_ops_host (launchContents m c)
          (x := m ((c.tc : Thread nD τ).loc main_arg0)) (ei := m ((c.tc : Thread nD τ).loc main_arg1)) (ri := m ((c.tc : Thread nD τ).loc main_arg2)) (W1 := m ((c.tc : Thread nD τ).loc main_arg3)) (b1 := m ((c.tc : Thread nD τ).loc main_arg4)) (W2 := m ((c.tc : Thread nD τ).loc main_arg5)) (b2 := m ((c.tc : Thread nD τ).loc main_arg6)) (W3 := m ((c.tc : Thread nD τ).loc main_arg7)) (b3 := m ((c.tc : Thread nD τ).loc main_arg8)) (P1 := m ((c.tc : Thread nD τ).loc main_arg9)) (pb1 := m ((c.tc : Thread nD τ).loc main_arg10)) (P2 := m ((c.tc : Thread nD τ).loc main_arg11)) (pb2 := m ((c.tc : Thread nD τ).loc main_arg12))
          rfl rfl rfl rfl rfl rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq (defs (F := Ideal)) (main (F := Ideal)) (fun _ => ops) main_eq (fun _ => ops_sub) m ρ)

end Cert.ReferenceIdeal.RefValue

end
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.RefEntry.lean ====
/-
  The reference's layers and predictor, read entry by entry.

  A layer: at (n, k) the segment sum starts from the zero literal and adds, over the messages that land on n, the update
  at (e, k); the update is the gathered row of the product, (Σ_j h(source row of e, j) · W(j, k)), times the message's
  weight laid out as a column and spread over the columns; the bias vector is laid along every row. That is the collecting
  sum with every row carrying its weight, plus the bias, with or without the maximum with zero. The predictor: the two
  gathered rows multiplied, two products with their biases, a maximum with zero between them, and the last column read as
  a vector. Composed, the stages are the network in the whole-weight arrangement.
-/
import proofs.«129134_j22308060135895_2_alg».proof.Proof.RefHost
import proofs.«129134_j22308060135895_2_alg».proof.Proof.LibMatmulAt
import proofs.«129134_j22308060135895_2_alg».proof.Proof.LibColumn
import proofs.«129134_j22308060135895_2_alg».proof.Proof.LibHostColumn
import proofs.«129134_j22308060135895_2_alg».proof.Proof.LibRowBias
import proofs.«129134_j22308060135895_2_alg».proof.Proof.LibGatherRows
import proofs.«129134_j22308060135895_2_alg».proof.Proof.LibSegmentSum
import Idealize.ShloMosaic.Lib.IdealHost

noncomputable section

namespace Cert.ReferenceIdeal.Stages
open Cert.ReferenceIdeal Cert.ReferenceIdeal.Gen Cert.ReferenceIdeal.Forms Idealize.ShloMosaic

/-- The reference's result as the composition of its stages. -/
def refHost (x : FVec Ideal S100000x128 .f32) (ei : IVec S2x1600000 32) (ri : IVec S8192x2 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (P1 : FVec Ideal S128x128 .f32) (pb1 : FVec Ideal S128 .f32)
    (P2 : FVec Ideal S128x1 .f32) (pb2 : FVec Ideal S1 .f32) : FVec Ideal S8192 .f32 :=
  predH ri (lastH (layerH (layerH x W1 b1 (srcV ei) (dstV ei) (normV (srcV ei) (dstV ei))) W2 b2 (srcV ei) (dstV ei)
    (normV (srcV ei) (dstV ei))) W3 b3 (srcV ei) (dstV ei) (normV (srcV ei) (dstV ei))) P1 pb1 P2 pb2
end Cert.ReferenceIdeal.Stages

namespace Cert.ReferenceIdeal.Stages

open Idealize.ShloMosaic Idealize.ShloMosaic.ValueIdx Cert.SegmentSum Cert.KernelIdeal.Hand Cert.GraphLinear Cert.LinkGcn
open Cert.ReferenceIdeal Cert.ReferenceIdeal.Gen Cert.ReferenceIdeal.Forms

/-- Rows gathered along the messages, each scaled by its message's weight laid across the columns, added into zeros:
    at (n, k) the sum over the messages landing on n of the table's entry at (source row, k) times the message's weight. -/
theorem scatter_weighted_gather_eq {N E C w w' : Nat} (hN : 0 < N)
    (ds : ScatterDims ⟨2, ![N, C]⟩ ⟨2, ![E, 1]⟩ ⟨2, ![E, C]⟩)
    (h1 : ds.updateWindowDims = [1]) (h2 : ds.insertedWindowDims = [0]) (h3 : ds.scatterDimsToOperandDims = [0])
    (h4 : ds.indexVectorDim = 1)
    (wf : GatherDims.WF ⟨2, ![N, C]⟩ ⟨2, ![E, 1]⟩ ⟨2, ![E, C]⟩ [1] [0] [] [0] [] 1 ![1, C])
    (dg : GatherDims ⟨2, ![N, C]⟩ ⟨2, ![E, 1]⟩ ⟨2, ![E, C]⟩) (hdg : dg = rowDims N E C wf)
    (hb : (⟨0, ![]⟩ : Shape).BroadcastsInDim ⟨2, ![N, C]⟩ ![])
    (hc1 : (⟨1, ![E]⟩ : Shape).BroadcastsInDim ⟨2, ![E, 1]⟩ ![0])
    (hc2 : (⟨2, ![E, 1]⟩ : Shape).BroadcastsInDim ⟨2, ![E, C]⟩ ![0, 1])
    (dstc : IVec ⟨2, ![E, 1]⟩ w) (srcc : IVec ⟨2, ![E, 1]⟩ w') (t : FVec Ideal ⟨2, ![N, C]⟩ .f32)
    (nrm : FVec Ideal ⟨1, ![E]⟩ .f32) :
    Host.scatterAdd ds (broadcastInDim ⟨2, ![N, C]⟩ ![] hb (constant (F := Ideal) ⟨0, ![]⟩ .f32 0x00000000#32)) dstc
        (mulf (Host.gather dg t srcc)
          (broadcastInDim ⟨2, ![E, C]⟩ ![0, 1] hc2 (broadcastInDim ⟨2, ![E, 1]⟩ ![0] hc1 nrm)))
      = collectWeighted hN dstc srcc t nrm := by
  subst hdg
  funext i
  obtain ⟨n, k, rfl⟩ : ∃ (n : Fin N) (k : Fin C), i = ix2 n k := ⟨i 0, i 1, eq_ix2 i⟩
  show Ideal.hostScatterAdd ds (broadcastInDim ⟨2, ![N, C]⟩ ![] hb (constant (F := Ideal) ⟨0, ![]⟩ .f32 0x00000000#32)) dstc
      (fun j => mulf (Host.gather (rowDims N E C wf) t srcc)
        (broadcastInDim ⟨2, ![E, C]⟩ ![0, 1] hc2 (broadcastInDim ⟨2, ![E, 1]⟩ ![0] hc1 nrm)) j) (ix2 n k) = _
  rw [scatterAdd_rows_apply ds h1 h2 h3 h4, collectWeighted_apply, broadcastInDim_scalar_apply, constant_apply,
    Ideal.ofBits_zero_f32, zero_add]
  refine Finset.sum_congr rfl fun e _ => ?_
  rw [mulf_apply, gather_rows_apply hN wf t srcc e k, Cert.LibHostColumn.broadcastInDim_a1_ab_apply,
    Cert.LibColumn.broadcastInDim_a_a1_apply]

/-- The host's plain product is the rows times the weights. -/
theorem dotGeneral_eq_product {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) :
    Host.dotGeneral d none A B = product A B :=
  funext fun j => dotGeneral_plain_apply' d hd none A B j

/-- The last layer as the operations spell it is the last layer entry by entry. -/
theorem lastH_eq (h : FVec Ideal S100000x128 .f32) (Wt : FVec Ideal S128x128 .f32) (b : FVec Ideal S128 .f32)
    (src dst : IVec S1700000 32) (nrm : FVec Ideal S1700000 .f32) :
    lastH h Wt b src dst nrm = lastWhole hN (colV dst) (colV (wrapV src)) nrm h Wt b := by
  funext i
  obtain ⟨n, k, rfl⟩ : ∃ (n : Fin 100000) (k : Fin 128), i = ix2 n k := ⟨i 0, i 1, eq_ix2 i⟩
  unfold lastH gatherScatterH
  rw [addf_apply,
    scatter_weighted_gather_eq hN scatter_S100000x128_S1700000x1_S1700000x128_1_0_0_1 rfl rfl rfl rfl
      gather_S100000x128_S1700000x1_S1700000x128_1_0_n_n_0_1_1128_wf
      gather_S100000x128_S1700000x1_S1700000x128_1_0_n_n_0_1_1128 rfl,
    Cert.LibRowBias.row_broadcastInDim_apply,
    dotGeneral_eq_product dot_S100000x128_S128x128_S100000x128_1_0_0_1_n_n rfl]
  rfl

/-- A layer with a maximum as the operations spell it is the layer entry by entry. -/
theorem layerH_eq (h : FVec Ideal S100000x128 .f32) (Wt : FVec Ideal S128x128 .f32) (b : FVec Ideal S128 .f32)
    (src dst : IVec S1700000 32) (nrm : FVec Ideal S1700000 .f32) :
    layerH h Wt b src dst nrm = layerWhole hN (colV dst) (colV (wrapV src)) nrm h Wt b := by
  funext i
  unfold layerH
  rw [maximumf_apply, lastH_eq, broadcastInDim_scalar_apply, constant_apply, Ideal.ofBits_zero_f32]
  rfl

/-- The link predictor as the operations spell it is the predictor entry by entry. -/
theorem predH_eq (ri : IVec S8192x2 32) (h : FVec Ideal S100000x128 .f32) (P1 : FVec Ideal S128x128 .f32)
    (pb1 : FVec Ideal S128 .f32) (P2 : FVec Ideal S128x1 .f32) (pb2 : FVec Ideal S1 .f32) :
    predH ri h P1 pb1 P2 pb2 = colVec (mlpVec (pairRows hN (queryV ri 0) (queryV ri 1) h) P1 pb1 P2 pb2) := by
  funext i
  obtain ⟨p, rfl⟩ : ∃ p : Fin 8192, i = ix1 p := ⟨i 0, eq_ix1 i⟩
  unfold predH
  rw [shapeCast_apply _ shapeCasts_S8192x1_S8192 (ix1 p) (ix2 p (0 : Fin 1)) (by
      rw [Shape.rowMajor_val_one, Shape.rowMajor_val_two]; show p.val * 1 + 0 = p.val; omega),
    addf_apply, dotGeneral_plain_apply' dot_S8192x128_S128x1_S8192x1_1_0_0_1_n_n rfl,
    Cert.LibRowBias.row_broadcastInDim_apply]
  show (∑ j : Fin 128, _ * P2 (ix2 j (0 : Fin 1))) + pb2 (ix1 (0 : Fin 1))
    = (∑ j : Fin 128, max ((∑ k : Fin 128, pairRows hN (queryV ri 0) (queryV ri 1) h (ix2 p k) * P1 (ix2 k j)) + pb1 (ix1 j))
        (0 : EReal) * P2 (ix2 j (0 : Fin 1))) + pb2 (ix1 (0 : Fin 1))
  refine congrArg (fun z => z + pb2 (ix1 (0 : Fin 1))) (Finset.sum_congr rfl fun j _ => ?_)
  refine congrArg (fun z => z * P2 (ix2 j (0 : Fin 1))) ?_
  show maximumf _ _ (ix2 p j) = _
  rw [maximumf_apply, addf_apply, dotGeneral_plain_apply' dot_S8192x128_S128x128_S8192x128_1_0_0_1_n_n rfl,
    Cert.LibRowBias.row_broadcastInDim_apply, broadcastInDim_scalar_apply, constant_apply, Ideal.ofBits_zero_f32]
  refine congrArg (fun z => max (z + pb1 (ix1 j)) (0 : EReal)) (Finset.sum_congr rfl fun k _ => ?_)
  refine congrArg (fun z => z * P1 (ix2 k j)) ?_
  show mulf _ _ (ix2 p k) = _
  rw [mulf_apply,
    show gather_S100000x128_S8192x1_S8192x128_1_0_n_n_0_1_1128
        = rowDims 100000 8192 128 gather_S100000x128_S8192x1_S8192x128_1_0_n_n_0_1_1128_wf from rfl,
    gather_rows_apply hN _ h (queryV ri 0) p k, gather_rows_apply hN _ h (queryV ri 1) p k]
  rfl

/-- The composition of the stages is the network entry by entry. -/
theorem refHost_eq_refNet (x : FVec Ideal S100000x128 .f32) (ei : IVec S2x1600000 32) (ri : IVec S8192x2 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (P1 : FVec Ideal S128x128 .f32) (pb1 : FVec Ideal S128 .f32)
    (P2 : FVec Ideal S128x1 .f32) (pb2 : FVec Ideal S1 .f32) :
    refHost x ei ri W1 b1 W2 b2 W3 b3 P1 pb1 P2 pb2 = refNet x ei ri W1 b1 W2 b2 W3 b3 P1 pb1 P2 pb2 := by
  unfold refHost refNet gcnWhole
  rw [predH_eq, lastH_eq, layerH_eq, layerH_eq]

end Cert.ReferenceIdeal.Stages

end
-- ==== Proof.RefFinal.lean ====
/-
  The idealized reference's run, with its result: every weakly fair execution terminates, nothing faulting, the result
  buffer holding the network of the arguments in the whole-weight arrangement and the arguments unchanged. The run
  leaves the composition of the host stages; read entry by entry that composition is the network.
-/
import proofs.«129134_j22308060135895_2_alg».proof.Proof.RefRun
import proofs.«129134_j22308060135895_2_alg».proof.Proof.RefEntry

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Forms Cert.ReferenceIdeal.Stages

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v113) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (refHost_eq_refNet _ _ _ _ _ _ _ _ _ _ _ _ _), (h c).2⟩) (run_host m ρ)

end Cert.ReferenceIdeal.RefValue

end
-- ==== Proof.lean ====
/-
  The claim: a three-layer graph convolution with a link predictor, computed by five kernel launches among host
  operations, against its plain reference.

  The three frames. The word-level kernel and the idealized kernel run by their generated frame certificates. The
  reference has no kernel; its frame is its run with the result dropped.

  The idealization rewrote nothing, so there is nothing to preserve.

  The algebraic claim. Read at the ideal instance, the kernel's result buffer is the network of its arguments in the split
  arrangement: every layer multiplies d(source) into the rows before the messages are collected and d(destination) into
  the collected sums. The reference's result is the same network with every collected row carrying the whole weight
  d(source) · d(destination). d(n) is 1/√max(degree, 1) where the degree is positive and 0 elsewhere, always a
  non-negative real, and such a factor distributes over a finite sum of extended reals; multiplication of extended
  reals is associative. So the two results are one function of the arguments, with no finiteness hypothesis: the
  precondition is never opened.
-/
import proofs.«129134_j22308060135895_2_alg».proof.Defs
import proofs.«129134_j22308060135895_2_alg».proof.Proof.Gen.Kernel
import proofs.«129134_j22308060135895_2_alg».proof.Proof.Gen.Kernel.Frame
import proofs.«129134_j22308060135895_2_alg».proof.Proof.Gen.KernelIdeal
import proofs.«129134_j22308060135895_2_alg».proof.Proof.Gen.KernelIdeal.Frame
import proofs.«129134_j22308060135895_2_alg».proof.Proof.Gen.ReferenceIdeal
import proofs.«129134_j22308060135895_2_alg».proof.Proof.Gen.Pre_finite_inputs
import proofs.«129134_j22308060135895_2_alg».proof.Proof.KerValue
import proofs.«129134_j22308060135895_2_alg».proof.Proof.Bridge
import proofs.«129134_j22308060135895_2_alg».proof.Proof.RefFinal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both idealized programs end with the network of the (agreeing) arguments in their result buffers. -/
theorem algebraic : Cert.algebraic_KernelIdeal_ReferenceIdeal := by
  intro m ρ m' ρ' _ hagree
  refine ⟨fun c => Cert.KernelIdeal.Forms.kerNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Chain.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11, a12⟩ := hagree c
  rw [a0, a1, a2, a3, a4, a5, a6, a7, a8, a9, a10, a11, a12]
  exact (Cert.Bridge.kerNet_eq_refNet _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
